-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_sqrt_hidden" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x256x128 : Shape := ⟨4, ![1, 256, 256, 128]⟩
abbrev S1x1x4x256x256 : Shape := ⟨5, ![1, 1, 4, 256, 256]⟩
abbrev S1x256x1x1x256 : Shape := ⟨5, ![1, 256, 1, 1, 256]⟩
abbrev S128x128 : Shape := ⟨2, ![128, 128]⟩
abbrev S128 : Shape := ⟨1, ![128]⟩
abbrev S_ : Shape := ⟨0, ![]⟩

class Facts : Prop where
  bcast_S_S1x256x256x128 : S_.BroadcastsInDim S1x256x256x128 (![] : Fin 0 → Fin S1x256x256x128.rank)
  reducesTo_S1x256x256x128_S_d0_1_2_3 : S1x256x256x128.ReducesTo [0, 1, 2, 3] S_
  h_S_ : 0 < S_.numel
  bcast_S_S1x1x4x256x256 : S_.BroadcastsInDim S1x1x4x256x256 (![] : Fin 0 → Fin S1x1x4x256x256.rank)
  reducesTo_S1x1x4x256x256_S_d0_1_2_3_4 : S1x1x4x256x256.ReducesTo [0, 1, 2, 3, 4] S_
  bcast_S_S1x256x1x1x256 : S_.BroadcastsInDim S1x256x1x1x256 (![] : Fin 0 → Fin S1x256x1x1x256.rank)
  reducesTo_S1x256x1x1x256_S_d0_1_2_3_4 : S1x256x1x1x256.ReducesTo [0, 1, 2, 3, 4] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S128x128 .f32) (main_arg8 : FVec F S128 .f32) (main_arg9 : FVec F S128x128 .f32) (main_arg10 : FVec F S128 .f32) (main_v13 : IVec S_ 1) (main_v16 : IVec S1x256x1x1x256 1) : IVec S_ 1 :=
  let main_c_5 : IVec S_ 1 := constantI S_ 1 1#1
  let main_v17 : IVec S_ 1 := (fun x v => Host.reduce IntOp.andi x v reducesTo_S1x256x1x1x256_S_d0_1_2_3_4 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x256x256x128 .f32) (main_arg1 : FVec F S1x256x256x128 .f32) (main_arg2 : FVec F S1x1x4x256x256 .f32) (main_arg3 : FVec F S1x256x1x1x256 .f32) (main_arg4 : FVec F S128x128 .f32) (main_arg5 : FVec F S128x128 .f32) (main_arg6 : FVec F S128x128 .f32) (main_arg7 : FVec F S128x128 .f32) (main_arg8 : FVec F S128 .f32) (main_arg9 : FVec F S128x128 .f32) (main_arg10 : FVec F S128 .f32) : IVec S_ 1 :=
  let main_v0 : FVec F S1x256x256x128 .f32 := Host.absf main_arg0
  let main_cst : FVec F S_ .f32 := constant S_ .f32 0x7F800000#32
  let main_v1 : FVec F S1x256x256x128 .f32 := broadcastInDim S1x256x256x128 ![] bcast_S_S1x256x256x128 main_cst
  let main_v2 : IVec S1x256x256x128 1 := cmpf .olt main_v0 main_v1
  let main_c : IVec S_ 1 := constantI S_ 1 1#1
  let main_v3 : IVec S_ 1 := (fun x v => Host.reduce IntOp.andi x v reducesTo_S1x256x256x128_S_d0_1_2_3 h_S_) main_v2 main_c
  let main_v4 : FVec F S1x256x256x128 .f32 := Host.absf main_arg1
  let main_cst_0 : FVec F S_ .f32 := constant S_ .f32 0x7F800000#32
  let main_v5 : FVec F S1x256x256x128 .f32 := broadcastInDim S1x256x256x128 ![] bcast_S_S1x256x256x128 main_cst_0
  let main_v6 : IVec S1x256x256x128 1 := cmpf .olt main_v4 main_v5
  let main_c_1 : IVec S_ 1 := constantI S_ 1 1#1
  let main_v7 : IVec S_ 1 := (fun x v => Host.reduce IntOp.andi x v reducesTo_S1x256x256x128_S_d0_1_2_3 h_S_) main_v6 main_c_1
  let main_v8 : IVec S_ 1 := andi main_v3 main_v7
  let main_v9 : FVec F S1x1x4x256x256 .f32 := Host.absf main_arg2
  let main_cst_2 : FVec F S_ .f32 := constant S_ .f32 0x7F800000#32
  let main_v10 : FVec F S1x1x4x256x256 .f32 := broadcastInDim S1x1x4x256x256 ![] bcast_S_S1x1x4x256x256 main_cst_2
  let main_v11 : IVec S1x1x4x256x256 1 := cmpf .olt main_v9 main_v10
  let main_c_3 : IVec S_ 1 := constantI S_ 1 1#1
  let main_v12 : IVec S_ 1 := (fun x v => Host.reduce IntOp.andi x v reducesTo_S1x1x4x256x256_S_d0_1_2_3_4 h_S_) main_v11 main_c_3
  let main_v13 : IVec S_ 1 := andi main_v8 main_v12
  let main_v14 : FVec F S1x256x1x1x256 .f32 := Host.absf main_arg3
  let main_cst_4 : FVec F S_ .f32 := constant S_ .f32 0x7F800000#32
  let main_v15 : FVec F S1x256x1x1x256 .f32 := broadcastInDim S1x256x1x1x256 ![] bcast_S_S1x256x1x1x256 main_cst_4
  let main_v16 : IVec S1x256x1x1x256 1 := cmpf .olt main_v14 main_v15
  fn_part1 (F := F) main_arg4 main_arg5 main_arg6 main_arg7 main_arg8 main_arg9 main_arg10 main_v13 main_v16
-- ==== Kernel.lean ====
abbrev S1x256x256x128 : Shape := ⟨4, ![1, 256, 256, 128]⟩
abbrev S1x1x4x256x256 : Shape := ⟨5, ![1, 1, 4, 256, 256]⟩
abbrev S1x256x1x1x256 : Shape := ⟨5, ![1, 256, 1, 1, 256]⟩
abbrev S128x128 : Shape := ⟨2, ![128, 128]⟩
abbrev S128 : Shape := ⟨1, ![128]⟩
abbrev S128x256 : Shape := ⟨2, ![128, 256]⟩
abbrev S1x16x256x128 : Shape := ⟨4, ![1, 16, 256, 128]⟩
abbrev S1x16x1x1x256 : Shape := ⟨5, ![1, 16, 1, 1, 256]⟩
abbrev S16x256x128 : Shape := ⟨3, ![16, 256, 128]⟩
abbrev S4096x128 : Shape := ⟨2, ![4096, 128]⟩
abbrev S4096x256 : Shape := ⟨2, ![4096, 256]⟩
abbrev S1x128 : Shape := ⟨2, ![1, 128]⟩
abbrev S1x256x128 : Shape := ⟨3, ![1, 256, 128]⟩
abbrev S256x128 : Shape := ⟨2, ![256, 128]⟩
abbrev S1x1x1x1x256 : Shape := ⟨5, ![1, 1, 1, 1, 256]⟩
abbrev S256 : Shape := ⟨1, ![256]⟩
abbrev S256x32 : Shape := ⟨2, ![256, 32]⟩
abbrev S32x256 : Shape := ⟨2, ![32, 256]⟩
abbrev S256x256 : Shape := ⟨2, ![256, 256]⟩
abbrev S1x1x1x256x256 : Shape := ⟨5, ![1, 1, 1, 256, 256]⟩
abbrev S1x256 : Shape := ⟨2, ![1, 256]⟩
abbrev S256x1 : Shape := ⟨2, ![256, 1]⟩

abbrev nBuf : Space → Nat
  | .hbm => 22
  | .vmem => 19
  | .smem => 0
  | _ => 0

abbrev bufTy : (tb : Table) → Fin (tcTables nBuf tb) → BufTy
  | .hbm, ⟨0, _⟩ => ⟨S1x256x256x128, .f32⟩
  | .hbm, ⟨1, _⟩ => ⟨S1x256x256x128, .f32⟩
  | .hbm, ⟨2, _⟩ => ⟨S1x1x4x256x256, .f32⟩
  | .hbm, ⟨3, _⟩ => ⟨S1x256x1x1x256, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128x256, .f32⟩
  | .hbm, ⟨14, _⟩ => ⟨S128x256, .bf16⟩
  | .hbm, ⟨15, _⟩ => ⟨S128x128, .f32⟩
  | .hbm, ⟨16, _⟩ => ⟨S128x128, .f32⟩
  | .hbm, ⟨17, _⟩ => ⟨S128x256, .f32⟩
  | .hbm, ⟨18, _⟩ => ⟨S128x256, .bf16⟩
  | .hbm, ⟨19, _⟩ => ⟨S128x128, .f32⟩
  | .hbm, ⟨20, _⟩ => ⟨S128x128, .bf16⟩
  | .hbm, ⟨21, _⟩ => ⟨S1x256x256x128, .f32⟩
  | .local _ .vmem, ⟨0, _⟩ => ⟨S1x16x256x128, .f32⟩
  | .local _ .vmem, ⟨1, _⟩ => ⟨S1x16x256x128, .f32⟩
  | .local _ .vmem, ⟨2, _⟩ => ⟨S1x16x256x128, .f32⟩
  | .local _ .vmem, ⟨3, _⟩ => ⟨S1x16x256x128, .f32⟩
  | .local _ .vmem, ⟨4, _⟩ => ⟨S1x1x4x256x256, .f32⟩
  | .local _ .vmem, ⟨5, _⟩ => ⟨S1x16x1x1x256, .f32⟩
  | .local _ .vmem, ⟨6, _⟩ => ⟨S1x16x1x1x256, .f32⟩
  | .local _ .vmem, ⟨7, _⟩ => ⟨S128x256, .bf16⟩
  | .local _ .vmem, ⟨8, _⟩ => ⟨S128x256, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S1x16x256x128, .f32⟩
  | .local _ .vmem, ⟨13, _⟩ => ⟨S1x16x256x128, .f32⟩
  | .local _ .vmem, ⟨14, _⟩ => ⟨S16x256x128, .bf16⟩
  | .local _ .vmem, ⟨15, _⟩ => ⟨S16x256x128, .bf16⟩
  | .local _ .vmem, ⟨16, _⟩ => ⟨S16x256x128, .bf16⟩
  | .local _ .vmem, ⟨17, _⟩ => ⟨S16x256x128, .f32⟩
  | .local _ .vmem, ⟨18, _⟩ => ⟨S16x256x128, .bf16⟩
  | _, _ => ⟨S1x256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v44 : BitVec 32 := Scalar.addi c0_i32 c16_i32
  let c1_i32 : BitVec 32 := 1#32
  ⟨c0_i32, v44, c1_i32⟩
def k0_off1 (k0_t1 : Fin k0_t1_loop.trips) : Fin 3 → Nat :=
  let c0_i32 : BitVec 32 := 0#32
  let c1_i32 : BitVec 32 := 1#32
  let arg16 : BitVec 32 := Scf.iv c0_i32 c1_i32 k0_t1
  let v58 : Index := Scalar.indexCast arg16
  let c0_38 : Index := 0#32
  let c0_39 : Index := 0#32
  ![v58.toNat, 0, 0]
def k0_off2 (k0_t1 : Fin k0_t1_loop.trips) : Fin 5 → Nat :=
  let c0_46 : Index := 0#32
  let c0_i32 : BitVec 32 := 0#32
  let c1_i32 : BitVec 32 := 1#32
  let arg16 : BitVec 32 := Scf.iv c0_i32 c1_i32 k0_t1
  let v70 : Index := Scalar.indexCast arg16
  let c0_47 : Index := 0#32
  let c0_48 : Index := 0#32
  let c0_49 : Index := 0#32
  ![0, v70.toNat, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  concatenates_S128x128_S128x128_S128x256_d1 : Shape.Concatenates [S128x128, S128x128] S128x256 1
  bitsLt_bf16_f32 : FTy.bits .bf16 < FTy.bits .f32
  inb_S1x16x256x128_S1x16x256x128_0_0_0_0 : ∀ a, (![0, 0, 0, 0] : Fin 4 → Nat) a + S1x16x256x128.size a ≤ S1x16x256x128.size a
  h_S1x16x256x128 : 0 < S1x16x256x128.numel
  shapeCasts_S1x16x256x128_S16x256x128 : S1x16x256x128.ShapeCasts S16x256x128
  shapeCasts_S16x256x128_S4096x128 : S16x256x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S4096x256_o0_0_S4096x128 : S4096x256.Slices ![0, 0] S4096x128
  slices_S4096x256_o0_128_S4096x128 : S4096x256.Slices ![0, 128] S4096x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S4096x128_S16x256x128 : S4096x128.ShapeCasts S16x256x128
  inb_S16x256x128_S16x256x128_0_0_0 : ∀ a, (![0, 0, 0] : Fin 3 → Nat) a + S16x256x128.size a ≤ S16x256x128.size a
  h_S16x256x128 : 0 < S16x256x128.numel
  shapeCasts_S16x256x128_S16x256x128 : S16x256x128.ShapeCasts S16x256x128
  packedbf16_S16x256x128_S16x256x128_0_0_0 : (Rect.unit (s := S16x256x128) ![0, 0, 0] S16x256x128.size inb_S16x256x128_S16x256x128_0_0_0).PackedRows (EltTy.packing .bf16)
  h_S1x256x128 : 0 < S1x256x128.numel
  shapeCasts_S1x256x128_S256x128 : S1x256x128.ShapeCasts S256x128
  h_S1x1x1x1x256 : 0 < S1x1x1x1x256.numel
  shapeCasts_S1x1x1x1x256_S256 : S1x1x1x1x256.ShapeCasts S256
  slices_S256x128_o0_0_S256x32 : S256x128.Slices ![0, 0] S256x32
  transposes_S256x32_p1_0_S32x256 : S256x32.Transposes [1, 0] S32x256
  inb_S1x1x4x256x256_S1x1x1x256x256_0_0_0_0_0 : ∀ a, (![0, 0, 0, 0, 0] : Fin 5 → Nat) a + S1x1x1x256x256.size a ≤ S1x1x4x256x256.size a
  h_S1x1x1x256x256 : 0 < S1x1x1x256x256.numel
  shapeCasts_S1x1x1x256x256_S256x256 : S1x1x1x256x256.ShapeCasts S256x256
  shapeCasts_S256_S1x256 : S256.ShapeCasts S1x256
  broadcasts_S1x256_S256x256 : S1x256.Broadcasts S256x256
  reduces_S256x256_S256 : S256x256.Reduces [1] S256
  shapeCasts_S256_S256x1 : S256.ShapeCasts S256x1
  broadcasts_S256x1_S256x256 : S256x1.Broadcasts S256x256
  slices_S256x128_o0_32_S256x32 : S256x128.Slices ![0, 32] S256x32
  inb_S1x1x4x256x256_S1x1x1x256x256_0_0_1_0_0 : ∀ a, (![0, 0, 1, 0, 0] : Fin 5 → Nat) a + S1x1x1x256x256.size a ≤ S1x1x4x256x256.size a
  slices_S256x128_o0_64_S256x32 : S256x128.Slices ![0, 64] S256x32
  inb_S1x1x4x256x256_S1x1x1x256x256_0_0_2_0_0 : ∀ a, (![0, 0, 2, 0, 0] : Fin 5 → Nat) a + S1x1x1x256x256.size a ≤ S1x1x4x256x256.size a
  slices_S256x128_o0_96_S256x32 : S256x128.Slices ![0, 96] S256x32
  inb_S1x1x4x256x256_S1x1x1x256x256_0_0_3_0_0 : ∀ a, (![0, 0, 3, 0, 0] : Fin 5 → Nat) a + S1x1x1x256x256.size a ≤ S1x1x4x256x256.size a
  concatenates_S256x32_S256x32_S256x32_S256x32_S256x128_d1 : Shape.Concatenates [S256x32, S256x32, S256x32, S256x32] S256x128 1
  shapeCasts_S256x128_S1x256x128 : S256x128.ShapeCasts S1x256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S16x256x128_S1x16x256x128 : S16x256x128.ShapeCasts S1x16x256x128
  dot_S4096x128_S128x256_S4096x256_1_0_0_1_n_n_wf : DotDims.WF S4096x128 S128x256 S4096x256 [1] [0] [0] [1] [] []
  dot_S256x32_S32x256_S256x256_1_0_0_1_n_n_wf : DotDims.WF S256x32 S32x256 S256x256 [1] [0] [0] [1] [] []
  dot_S256x256_S256x32_S256x32_1_0_0_1_n_n_wf : DotDims.WF S256x256 S256x32 S256x32 [1] [0] [0] [1] [] []
  dot_S4096x128_S128x128_S4096x128_1_0_0_1_n_n_wf : DotDims.WF S4096x128 S128x128 S4096x128 [1] [0] [0] [1] [] []
  hrank0 : 0 < grid0.rank
  k0_t1_ok : k0_t1_loop.OK
  k0_off1_inb : ∀ k0_t1 : Fin k0_t1_loop.trips, ∀ a, (k0_off1 k0_t1) a + S1x256x128.size a ≤ S16x256x128.size a
  k0_off2_inb : ∀ k0_t1 : Fin k0_t1_loop.trips, ∀ a, (k0_off2 k0_t1) a + S1x1x1x1x256.size a ≤ S1x16x1x1x256.size a
  k0_off1_packedbf16 : ∀ k0_t1 : Fin k0_t1_loop.trips, (Rect.unit (s := S16x256x128) (k0_off1 k0_t1) S1x256x128.size (k0_off1_inb k0_t1)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x128.size a ≤ S1x256x256x128.size a
  hwx0_0 : ∀ i : grid0.Coords, EltTy.bits .f32 = 32 ∨ (Rect.block (s := S1x256x256x128) S1x16x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x128.size a ≤ S1x256x256x128.size a
  hwx0_1 : ∀ i : grid0.Coords, EltTy.bits .f32 = 32 ∨ (Rect.block (s := S1x256x256x128) S1x16x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x4x256x256.size a ≤ S1x1x4x256x256.size a
  hwx0_2 : ∀ i : grid0.Coords, EltTy.bits .f32 = 32 ∨ (Rect.block (s := S1x1x4x256x256) S1x1x4x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1x1x256.size a ≤ S1x256x1x1x256.size a
  hwx0_3 : ∀ i : grid0.Coords, EltTy.bits .f32 = 32 ∨ (Rect.block (s := S1x256x1x1x256) S1x16x1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x256x128.size a ≤ S1x256x256x128.size a
  hwx0_9 : ∀ i : grid0.Coords, EltTy.bits .f32 = 32 ∨ (Rect.block (s := S1x256x256x128) S1x16x256x128.size (cc0_transform_9 i) (hinb0_9 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16x1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x16x256x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1x256x256x128 : Shape := ⟨4, ![1, 256, 256, 128]⟩
abbrev S1x1x4x256x256 : Shape := ⟨5, ![1, 1, 4, 256, 256]⟩
abbrev S1x256x1x1x256 : Shape := ⟨5, ![1, 256, 1, 1, 256]⟩
abbrev S128x128 : Shape := ⟨2, ![128, 128]⟩
abbrev S128 : Shape := ⟨1, ![128]⟩
abbrev S1x256x256x4x32 : Shape := ⟨5, ![1, 256, 256, 4, 32]⟩
abbrev S1x256x4x256x32 : Shape := ⟨5, ![1, 256, 4, 256, 32]⟩
abbrev S_ : Shape := ⟨0, ![]⟩
abbrev S1x256x4x256x256 : Shape := ⟨5, ![1, 256, 4, 256, 256]⟩
abbrev S1x256x4x256 : Shape := ⟨4, ![1, 256, 4, 256]⟩
abbrev S1x256x4x256x1 : Shape := ⟨5, ![1, 256, 4, 256, 1]⟩
abbrev S1x1x1x128 : Shape := ⟨4, ![1, 1, 1, 128]⟩

abbrev nBuf : Space → Nat
  | .hbm => 63
  | .vmem => 0
  | .smem => 0
  | _ => 0

abbrev bufTy : (tb : Table) → Fin (tcTables nBuf tb) → BufTy
  | .hbm, ⟨0, _⟩ => ⟨S1x256x256x128, .f32⟩
  | .hbm, ⟨1, _⟩ => ⟨S1x256x256x128, .f32⟩
  | .hbm, ⟨2, _⟩ => ⟨S1x1x4x256x256, .f32⟩
  | .hbm, ⟨3, _⟩ => ⟨S1x256x1x1x256, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x256x256x128, .f32⟩
  | .hbm, ⟨12, _⟩ => ⟨S1x256x256x4x32, .f32⟩
  | .hbm, ⟨13, _⟩ => ⟨S1x256x4x256x32, .f32⟩
  | .hbm, ⟨14, _⟩ => ⟨S_, .f32⟩
  | .hbm, ⟨15, _⟩ => ⟨S1x256x4x256x32, .f32⟩
  | .hbm, ⟨16, _⟩ => ⟨S1x256x4x256x32, .f32⟩
  | .hbm, ⟨17, _⟩ => ⟨S1x256x256x128, .f32⟩
  | .hbm, ⟨18, _⟩ => ⟨S1x256x256x4x32, .f32⟩
  | .hbm, ⟨19, _⟩ => ⟨S1x256x4x256x32, .f32⟩
  | .hbm, ⟨20, _⟩ => ⟨S1x256x256x128, .f32⟩
  | .hbm, ⟨21, _⟩ => ⟨S1x256x256x4x32, .f32⟩
  | .hbm, ⟨22, _⟩ => ⟨S1x256x4x256x32, .f32⟩
  | .hbm, ⟨23, _⟩ => ⟨S1x256x4x256x256, .f32⟩
  | .hbm, ⟨24, _⟩ => ⟨S1x256x4x256x256, .f32⟩
  | .hbm, ⟨25, _⟩ => ⟨S1x256x4x256x256, .f32⟩
  | .hbm, ⟨26, _⟩ => ⟨S1x256x4x256x256, .f32⟩
  | .hbm, ⟨27, _⟩ => ⟨S1x256x4x256x256, .f32⟩
  | .hbm, ⟨28, _⟩ => ⟨S_, .f32⟩
  | .hbm, ⟨29, _⟩ => ⟨S1x256x4x256, .f32⟩
  | .hbm, ⟨30, _⟩ => ⟨S_, .f32⟩
  | .hbm, ⟨31, _⟩ => ⟨S1x256x4x256, .f32⟩
  | .hbm, ⟨32, _⟩ => ⟨S1x256x4x256, .f32⟩
  | .hbm, ⟨33, _⟩ => ⟨S1x256x4x256x1, .f32⟩
  | .hbm, ⟨34, _⟩ => ⟨S1x256x4x256x256, .f32⟩
  | .hbm, ⟨35, _⟩ => ⟨S1x256x4x256x256, .f32⟩
  | .hbm, ⟨36, _⟩ => ⟨S1x256x4x256x256, .f32⟩
  | .hbm, ⟨37, _⟩ => ⟨S_, .f32⟩
  | .hbm, ⟨38, _⟩ => ⟨S1x256x4x256, .f32⟩
  | .hbm, ⟨39, _⟩ => ⟨S1x256x4x256x1, .f32⟩
  | .hbm, ⟨40, _⟩ => ⟨S1x256x4x256x256, .f32⟩
  | .hbm, ⟨41, _⟩ => ⟨S1x256x4x256x256, .f32⟩
  | .hbm, ⟨42, _⟩ => ⟨S1x256x4x256x32, .f32⟩
  | .hbm, ⟨43, _⟩ => ⟨S1x256x256x4x32, .f32⟩
  | .hbm, ⟨44, _⟩ => ⟨S1x256x256x128, .f32⟩
  | .hbm, ⟨45, _⟩ => ⟨S1x1x1x128, .f32⟩
  | .hbm, ⟨46, _⟩ => ⟨S1x256x256x128, .f32⟩
  | .hbm, ⟨47, _⟩ => ⟨S1x256x256x128, .f32⟩
  | .hbm, ⟨48, _⟩ => ⟨S1x256x256x128, .f32⟩
  | .hbm, ⟨49, _⟩ => ⟨S1x256x256x128, .f32⟩
  | .hbm, ⟨50, _⟩ => ⟨S_, .f32⟩
  | .hbm, ⟨51, _⟩ => ⟨S1x256x256x128, .f32⟩
  | .hbm, ⟨52, _⟩ => ⟨S1x256x256x128, .f32⟩
  | .hbm, ⟨53, _⟩ => ⟨S_, .f32⟩
  | .hbm, ⟨54, _⟩ => ⟨S1x256x256x128, .f32⟩
  | .hbm, ⟨55, _⟩ => ⟨S1x256x256x128, .f32⟩
  | .hbm, ⟨56, _⟩ => ⟨S1x256x256x4x32, .f32⟩
  | .hbm, ⟨57, _⟩ => ⟨S1x256x256x4x32, .f32⟩
  | .hbm, ⟨58, _⟩ => ⟨S1x256x256x128, .f32⟩
  | .hbm, ⟨59, _⟩ => ⟨S1x256x256x128, .f32⟩
  | .hbm, ⟨60, _⟩ => ⟨S1x1x1x128, .f32⟩
  | .hbm, ⟨61, _⟩ => ⟨S1x256x256x128, .f32⟩
  | .hbm, ⟨62, _⟩ => ⟨S1x256x256x128, .f32⟩
  | _, _ => ⟨S1x256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  shapeCasts_S1x256x256x128_S1x256x256x4x32 : S1x256x256x128.ShapeCasts S1x256x256x4x32
  transposes_S1x256x256x4x32_S1x256x4x256x32_0_1_3_2_4 : S1x256x256x4x32.Transposes [0, 1, 3, 2, 4] S1x256x4x256x32
  bcast_S_S1x256x4x256x32 : S_.BroadcastsInDim S1x256x4x256x32 (![] : Fin 0 → Fin S1x256x4x256x32.rank)
  bcast_S1x1x4x256x256_S1x256x4x256x256_0_1_2_3_4 : S1x1x4x256x256.BroadcastsInDim S1x256x4x256x256 (![0, 1, 2, 3, 4] : Fin 5 → Fin S1x256x4x256x256.rank)
  bcast_S1x256x1x1x256_S1x256x4x256x256_0_1_2_3_4 : S1x256x1x1x256.BroadcastsInDim S1x256x4x256x256 (![0, 1, 2, 3, 4] : Fin 5 → Fin S1x256x4x256x256.rank)
  reducesTo_S1x256x4x256x256_S1x256x4x256_d4 : S1x256x4x256x256.ReducesTo [4] S1x256x4x256
  h_S_ : 0 < S_.numel
  bcast_S_S1x256x4x256 : S_.BroadcastsInDim S1x256x4x256 (![] : Fin 0 → Fin S1x256x4x256.rank)
  bcast_S1x256x4x256_S1x256x4x256x1_0_1_2_3 : S1x256x4x256.BroadcastsInDim S1x256x4x256x1 (![0, 1, 2, 3] : Fin 4 → Fin S1x256x4x256x1.rank)
  bcast_S1x256x4x256x1_S1x256x4x256x256_0_1_2_3_4 : S1x256x4x256x1.BroadcastsInDim S1x256x4x256x256 (![0, 1, 2, 3, 4] : Fin 5 → Fin S1x256x4x256x256.rank)
  transposes_S1x256x4x256x32_S1x256x256x4x32_0_1_3_2_4 : S1x256x4x256x32.Transposes [0, 1, 3, 2, 4] S1x256x256x4x32
  bcast_S128_S1x1x1x128_3 : S128.BroadcastsInDim S1x1x1x128 (![3] : Fin 1 → Fin S1x1x1x128.rank)
  bcast_S1x1x1x128_S1x256x256x128_0_1_2_3 : S1x1x1x128.BroadcastsInDim S1x256x256x128 (![0, 1, 2, 3] : Fin 4 → Fin S1x256x256x128.rank)
  bcast_S_S1x256x256x128 : S_.BroadcastsInDim S1x256x256x128 (![] : Fin 0 → Fin S1x256x256x128.rank)
  shapeCasts_S1x256x256x4x32_S1x256x256x128 : S1x256x256x4x32.ShapeCasts S1x256x256x128
  dot_S1x256x256x128_S128x128_S1x256x256x128_3_1_012_0_n_n_wf : DotDims.WF S1x256x256x128 S128x128 S1x256x256x128 [3] [1] [0, 1, 2] [0] [] []
  dot_S1x256x4x256x32_S1x256x4x256x32_S1x256x4x256x256_4_4_3_3_012_012_wf : DotDims.WF S1x256x4x256x32 S1x256x4x256x32 S1x256x4x256x256 [4] [4] [3] [3] [0, 1, 2] [0, 1, 2]
  dot_S1x256x4x256x256_S1x256x4x256x32_S1x256x4x256x32_4_3_3_4_012_012_wf : DotDims.WF S1x256x4x256x256 S1x256x4x256x32 S1x256x4x256x32 [4] [3] [3] [4] [0, 1, 2] [0, 1, 2]

variable [Facts₀]

def dot_S1x256x256x128_S128x128_S1x256x256x128_3_1_012_0_n_n : DotDims S1x256x256x128 S128x128 S1x256x256x128 where
  lhsContracting := [3]
  rhsContracting := [1]
  lhsNonContracting := [0, 1, 2]
  rhsNonContracting := [0]
  lhsBatch := []
  rhsBatch := []
  wf := dot_S1x256x256x128_S128x128_S1x256x256x128_3_1_012_0_n_n_wf
def dot_S1x256x4x256x32_S1x256x4x256x32_S1x256x4x256x256_4_4_3_3_012_012 : DotDims S1x256x4x256x32 S1x256x4x256x32 S1x256x4x256x256 where
  lhsContracting := [4]
  rhsContracting := [4]
  lhsNonContracting := [3]
  rhsNonContracting := [3]
  lhsBatch := [0, 1, 2]
  rhsBatch := [0, 1, 2]
  wf := dot_S1x256x4x256x32_S1x256x4x256x32_S1x256x4x256x256_4_4_3_3_012_012_wf
def dot_S1x256x4x256x256_S1x256x4x256x32_S1x256x4x256x32_4_3_3_4_012_012 : DotDims S1x256x4x256x256 S1x256x4x256x32 S1x256x4x256x32 where
  lhsContracting := [4]
  rhsContracting := [3]
  lhsNonContracting := [3]
  rhsNonContracting := [4]
  lhsBatch := [0, 1, 2]
  rhsBatch := [0, 1, 2]
  wf := dot_S1x256x4x256x256_S1x256x4x256x32_S1x256x4x256x32_4_3_3_4_012_012_wf

class Facts : Prop extends Facts₀ where

variable [Facts]
-- ==== Proof.KBodyW.lean ====
/-
  The kernel body of one grid step as ONE pure function of its input blocks — the same text as for the idealized
  program, over the word-level program's payloads (needed for that program's run only).

  A grid step holds 16 rows.  The body first projects all 16 rows at once (queries scaled, keys, values, gate),
  keeps the four projections in four scratch buffers, then for each row k = 0..15 reads row k of the four
  buffers, row k of the row bias and the four heads of the pair bias, computes the gated attention output of
  that row for the four heads and writes it as row k of a fifth scratch buffer; finally it projects the fifth
  buffer by the output weights and adds the output bias.  Here the same computation is written without memory:
  `rowBlkB` / `rowBlkF` / `b1Blk` / `b2Blk` are the blocks the row loads return, `tripOut` is what row k's trip
  stores, `attnRows` is the fifth buffer after the 16 trips, and `blockOut` is the block the step writes back.
-/
import proofs.«118972_j22179211116942_2_alg».proof.Proof.Gen.Kernel.Skeleton
import Idealize.ShloMosaic.Lib.ValueIdx

noncomputable section

namespace Cert.AttnW

open Idealize.ShloMosaic Idealize.ShloMosaic.ValueIdx Cert.Kernel Cert.Kernel.Gen

variable {F : FTy → Type} [FloatOps F]

/-- Row `k` of a 16-row bf16 buffer, as the one-row block `[1, 256, 128]`. -/
def rowBlkB (v : FVec F S16x256x128 .bf16) (k : Fin 16) : Vec F S1x256x128 .bf16 :=
  fun y => v (ix3 k ⟨(y 1).val, (y 1).isLt⟩ ⟨(y 2).val, (y 2).isLt⟩)

/-- Row `k` of a 16-row f32 buffer, as the one-row block `[1, 256, 128]`. -/
def rowBlkF (v : FVec F S16x256x128 .f32) (k : Fin 16) : Vec F S1x256x128 .f32 :=
  fun y => v (ix3 k ⟨(y 1).val, (y 1).isLt⟩ ⟨(y 2).val, (y 2).isLt⟩)

/-- Head `h` of the pair bias block, as the block `[1, 1, 1, 256, 256]`. -/
def b1Blk (x2 : Vec F S1x1x4x256x256 .f32) (h : Fin 4) : Vec F S1x1x1x256x256 .f32 :=
  fun y => x2 (ix5 (0 : Fin 1) (0 : Fin 1) h ⟨(y 3).val, (y 3).isLt⟩ ⟨(y 4).val, (y 4).isLt⟩)

/-- Row `k` of the row bias block, as the block `[1, 1, 1, 1, 256]`. -/
def b2Blk (x3 : Vec F S1x16x1x1x256 .f32) (k : Fin 16) : Vec F S1x1x1x1x256 .f32 :=
  fun y => x3 (ix5 (0 : Fin 1) k (0 : Fin 1) (0 : Fin 1) ⟨(y 4).val, (y 4).isLt⟩)

section
variable (x0 x1 : Vec F S1x16x256x128 .f32) (x2 : Vec F S1x1x4x256x256 .f32) (x3 : Vec F S1x16x1x1x256 .f32)
  (x4 x5 : Vec F S128x256 .bf16) (x6 : Vec F S128 .f32)

/-- The scaled query projections of the 16 rows (first scratch buffer). -/
def qBuf : FVec F S16x256x128 .bf16 := k0_pay22 x0 x4
/-- The key projections of the 16 rows (second scratch buffer). -/
def kBuf : FVec F S16x256x128 .bf16 := k0_pay23 x1 x5
/-- The value projections of the 16 rows (third scratch buffer). -/
def vBuf : FVec F S16x256x128 .bf16 := k0_pay1 (k0_pay21 x1 x5)
/-- The gates of the 16 rows (fourth scratch buffer). -/
def gBuf : FVec F S16x256x128 .f32 := k0_pay2 (k0_pay20 x0 x4 x6)

/-- What the trip of row `k` stores into row `k` of the fifth scratch buffer: the gated attention output of
    the row, the four heads side by side. -/
def tripOut (k : Fin 16) : FVec F S1x256x128 .bf16 :=
  k0_pay3
    (k0_pay5 (rowBlkB (qBuf x0 x4) k)) (k0_pay6 (rowBlkB (kBuf x1 x5) k)) (k0_pay7 (rowBlkB (vBuf x1 x5) k))
    (k0_pay8 (rowBlkF (gBuf x0 x4 x6) k)) (k0_pay9 (b2Blk x3 k))
    (k0_pay12 (k0_pay10 (rowBlkF (gBuf x0 x4 x6) k))
      (k0_pay11 (rowBlkB (qBuf x0 x4) k) (rowBlkB (kBuf x1 x5) k) (rowBlkB (vBuf x1 x5) k) (b2Blk x3 k) (b1Blk x2 0)))
    (k0_pay13 (k0_pay5 (rowBlkB (qBuf x0 x4) k)) (k0_pay6 (rowBlkB (kBuf x1 x5) k)) (k0_pay7 (rowBlkB (vBuf x1 x5) k))
      (k0_pay8 (rowBlkF (gBuf x0 x4 x6) k)) (k0_pay9 (b2Blk x3 k)) (b1Blk x2 1))
    (k0_pay14 (k0_pay7 (rowBlkB (vBuf x1 x5) k)))
    (k0_pay15 (k0_pay8 (rowBlkF (gBuf x0 x4 x6) k)))
    (k0_pay16 (k0_pay5 (rowBlkB (qBuf x0 x4) k)) (k0_pay6 (rowBlkB (kBuf x1 x5) k)) (k0_pay9 (b2Blk x3 k)) (b1Blk x2 2))
    (k0_pay17 (k0_pay5 (rowBlkB (qBuf x0 x4) k)) (k0_pay6 (rowBlkB (kBuf x1 x5) k)) (k0_pay9 (b2Blk x3 k)) (b1Blk x2 2))
    (b1Blk x2 3)

/-- The fifth scratch buffer after the 16 trips: row `k` is what trip `k` stored. -/
def attnRows : FVec F S16x256x128 .bf16 :=
  fun y => tripOut x0 x1 x2 x3 x4 x5 x6 ⟨(y 0).val, (y 0).isLt⟩
    (ix3 (0 : Fin 1) ⟨(y 1).val, (y 1).isLt⟩ ⟨(y 2).val, (y 2).isLt⟩)

/-- The block a grid step writes back: the 16 rows of gated attention projected by the output weights, plus
    the output bias. -/
def blockOut (x7 : Vec F S128x128 .bf16) (x8 : Vec F S128 .f32) : FVec F S1x16x256x128 .f32 :=
  k0_pay4 (attnRows x0 x1 x2 x3 x4 x5 x6) x7 x8

end

end Cert.AttnW

end
-- ==== Proof.KOpenTripsW.lean ====
/-
  The loop of the kernel body, opened: what the fifth scratch buffer holds after the 16 trips.

  One trip (row k) loads row k of the four projection buffers (scaled queries, keys, values, gates), row k of the row
  bias and the four heads of the pair bias, and stores the gated attention output of that row, the four heads side by
  side, as row k of the fifth scratch buffer.  `tripPay` is that stored block as a function of the nine loaded blocks;
  `tripL_eq` reads the trip's one piece off the trip's definition (the only place that definition is opened).  The
  pieces of the trips before n are then the rows n-1, …, 0 (`pb_succ'`), every one a block of the single function
  `rowsFn` of the buffer's index (row y₀ is what trip y₀ stored: `rowsFn_apply`, `rowRect_emb`), and the 16 rows
  cover the buffer (`mem_rowRect`); so the buffer reads back as `rowsFn` (`canon_pb`, `cover_pb`).  Last, a load of
  row k of a buffer, of row k of the row bias, or of head h of the pair bias is the block the memory-free body names
  `rowBlkB` / `rowBlkF` / `b2Blk` / `b1Blk` (`ld_rowRect`, `ld_biasRect`, `ld_headRect`: the rectangle's offset
  plus the block's coordinate, the unit axes contributing 0), hence over the four projection buffers `rowsFn` is the
  memory-free body's `attnRows` (`rowsFn_eq_attnRows`).
-/
import proofs.«118972_j22179211116942_2_alg».proof.Proof.Gen.Kernel.Loops
import proofs.«118972_j22179211116942_2_alg».proof.Proof.KBodyW
import Idealize.ShloMosaic.Lib.Pipeline.Value

set_option maxRecDepth 16384

noncomputable section
namespace Cert.AttnW
open Idealize.ShloMosaic Idealize.ShloMosaic.TcCoe Idealize.ShloMosaic.ValueIdx Idealize.SL.Sem Cert.Kernel Cert.Kernel.Gen

variable {F : FTy → Type} [FloatOps F]

/-- What one row's trip stores, as a function of the nine blocks it loads: the row of the scaled queries, of the keys,
    of the values and of the gates, the row of the row bias, and the four heads of the pair bias. -/
def tripPay (q kk v : Vec F S1x256x128 .bf16) (g : Vec F S1x256x128 .f32) (r : Vec F S1x1x1x1x256 .f32)
    (p0 p1 p2 p3 : Vec F S1x1x1x256x256 .f32) : FVec F S1x256x128 .bf16 :=
  k0_pay3 (k0_pay5 q) (k0_pay6 kk) (k0_pay7 v) (k0_pay8 g) (k0_pay9 r)
    (k0_pay12 (k0_pay10 g) (k0_pay11 q kk v r p0))
    (k0_pay13 (k0_pay5 q) (k0_pay6 kk) (k0_pay7 v) (k0_pay8 g) (k0_pay9 r) p1)
    (k0_pay14 (k0_pay7 v)) (k0_pay15 (k0_pay8 g))
    (k0_pay16 (k0_pay5 q) (k0_pay6 kk) (k0_pay9 r) p2)
    (k0_pay17 (k0_pay5 q) (k0_pay6 kk) (k0_pay9 r) p2)
    p3

/-- The row's trip output is that function of the row's blocks. -/
theorem tripOut_eq (x0 x1 : Vec F S1x16x256x128 .f32) (x2 : Vec F S1x1x4x256x256 .f32) (x3 : Vec F S1x16x1x1x256 .f32)
    (x4 x5 : Vec F S128x256 .bf16) (x6 : Vec F S128 .f32) (k : Fin 16) :
    tripOut x0 x1 x2 x3 x4 x5 x6 k
      = tripPay (rowBlkB (qBuf x0 x4) k) (rowBlkB (kBuf x1 x5) k) (rowBlkB (vBuf x1 x5) k) (rowBlkF (gBuf x0 x4 x6) k)
          (b2Blk x3 k) (b1Blk x2 0) (b1Blk x2 1) (b1Blk x2 2) (b1Blk x2 3) := rfl

/-- ONE TRIP, opened once: row `k`'s trip leaves one piece in the fifth scratch buffer, a store at row `k` of the
    payload of what it loads at row `k` of the four projection buffers, at row `k` of the row bias and at the four
    heads of the pair bias. -/
theorem tripL_eq (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k
      = [⟨(Rect.unit (s := S16x256x128) (k0_off1 k) S1x256x128.size (k0_off1_inb k)),
          tripPay (View.readAt (Elt F) arg11.view (Rect.unit (s := S16x256x128) (k0_off1 k) S1x256x128.size (k0_off1_inb k)).toLoadRect X_arg11)
            (View.readAt (Elt F) arg12.view (Rect.unit (s := S16x256x128) (k0_off1 k) S1x256x128.size (k0_off1_inb k)).toLoadRect X_arg12)
            (View.readAt (Elt F) arg13.view (Rect.unit (s := S16x256x128) (k0_off1 k) S1x256x128.size (k0_off1_inb k)).toLoadRect X_arg13)
            (View.readAt (Elt F) arg14.view (Rect.unit (s := S16x256x128) (k0_off1 k) S1x256x128.size (k0_off1_inb k)).toLoadRect X_arg14)
            (View.readAt (Elt F) arg4.view (Rect.unit (s := S1x16x1x1x256) (k0_off2 k) S1x1x1x1x256.size (k0_off2_inb k)).toLoadRect X_arg4)
            (View.readAt (Elt F) arg3.view (Rect.unit (s := S1x1x4x256x256) ![0, 0, 0, 0, 0] S1x1x1x256x256.size inb_S1x1x4x256x256_S1x1x1x256x256_0_0_0_0_0).toLoadRect X_arg3)
            (View.readAt (Elt F) arg3.view (Rect.unit (s := S1x1x4x256x256) ![0, 0, 1, 0, 0] S1x1x1x256x256.size inb_S1x1x4x256x256_S1x1x1x256x256_0_0_1_0_0).toLoadRect X_arg3)
            (View.readAt (Elt F) arg3.view (Rect.unit (s := S1x1x4x256x256) ![0, 0, 2, 0, 0] S1x1x1x256x256.size inb_S1x1x4x256x256_S1x1x1x256x256_0_0_2_0_0).toLoadRect X_arg3)
            (View.readAt (Elt F) arg3.view (Rect.unit (s := S1x1x4x256x256) ![0, 0, 3, 0, 0] S1x1x1x256x256.size inb_S1x1x4x256x256_S1x1x1x256x256_0_0_3_0_0).toLoadRect X_arg3)⟩] := by
  unfold tripL_k0_t1
  unfold trip_k0_t1
  rfl

/-- The loop runs 16 trips. -/
theorem trips16 : k0_t1_loop.trips = 16 := by decide +kernel

/-- Row `k`'s rectangle of a 16-row scratch buffer. -/
abbrev rowRect (k : Fin k0_t1_loop.trips) : Rect S16x256x128 :=
  Rect.unit (s := S16x256x128) (k0_off1 k) S1x256x128.size (k0_off1_inb k)
/-- Row `k`'s rectangle of the row bias block. -/
abbrev biasRect (k : Fin k0_t1_loop.trips) : Rect S1x16x1x1x256 :=
  Rect.unit (s := S1x16x1x1x256) (k0_off2 k) S1x1x1x1x256.size (k0_off2_inb k)

/-- What the trip of row `k` stores, as a function of what the six buffers it loads from read: row `k` of the four
    projection buffers and of the row bias, and the four heads of the pair bias. -/
def tripPiece (Q K V : S16x256x128.Idx → Elt F .bf16) (G : S16x256x128.Idx → Elt F .f32)
    (B2 : S1x16x1x1x256.Idx → Elt F .f32) (B1 : S1x1x4x256x256.Idx → Elt F .f32) (k : Fin k0_t1_loop.trips) :
    FVec F S1x256x128 .bf16 :=
  tripPay (View.ld Q (rowRect k)) (View.ld K (rowRect k)) (View.ld V (rowRect k)) (View.ld G (rowRect k))
    (View.ld B2 (biasRect k))
    (View.ld B1 (Rect.unit (s := S1x1x4x256x256) ![0, 0, 0, 0, 0] S1x1x1x256x256.size inb_S1x1x4x256x256_S1x1x1x256x256_0_0_0_0_0)) (View.ld B1 (Rect.unit (s := S1x1x4x256x256) ![0, 0, 1, 0, 0] S1x1x1x256x256.size inb_S1x1x4x256x256_S1x1x1x256x256_0_0_1_0_0)) (View.ld B1 (Rect.unit (s := S1x1x4x256x256) ![0, 0, 2, 0, 0] S1x1x1x256x256.size inb_S1x1x4x256x256_S1x1x1x256x256_0_0_2_0_0)) (View.ld B1 (Rect.unit (s := S1x1x4x256x256) ![0, 0, 3, 0, 0] S1x1x1x256x256.size inb_S1x1x4x256x256_S1x1x1x256x256_0_0_3_0_0))

/-- The fifth scratch buffer after the 16 trips, as ONE function of its index: row `y 0` is what that row's trip stored. -/
def rowsFn (Q K V : S16x256x128.Idx → Elt F .bf16) (G : S16x256x128.Idx → Elt F .f32)
    (B2 : S1x16x1x1x256.Idx → Elt F .f32) (B1 : S1x1x4x256x256.Idx → Elt F .f32) : S16x256x128.Idx → Elt F .bf16 :=
  fun y => tripPiece Q K V G B2 B1 ⟨(y 0).val, by rw [trips16]; exact (y 0).isLt⟩
    (ix3 (0 : Fin 1) ⟨(y 1).val, (y 1).isLt⟩ ⟨(y 2).val, (y 2).isLt⟩)

/-- `rowsFn` at an index whose row is `k` and whose other two coordinates are `x`'s is trip `k`'s payload at `x`. -/
theorem rowsFn_apply (Q K V : S16x256x128.Idx → Elt F .bf16) (G : S16x256x128.Idx → Elt F .f32)
    (B2 : S1x16x1x1x256.Idx → Elt F .f32) (B1 : S1x1x4x256x256.Idx → Elt F .f32) (y : S16x256x128.Idx)
    (k : Fin k0_t1_loop.trips) (x : S1x256x128.Idx) (h0 : (y 0).val = k.val) (h1 : (y 1).val = (x 1).val)
    (h2 : (y 2).val = (x 2).val) : rowsFn Q K V G B2 B1 y = tripPiece Q K V G B2 B1 k x := by
  have e1 : (⟨(y 0).val, by rw [trips16]; exact (y 0).isLt⟩ : Fin k0_t1_loop.trips) = k := Fin.ext h0
  have e2 : (ix3 (0 : Fin 1) ⟨(y 1).val, (y 1).isLt⟩ ⟨(y 2).val, (y 2).isLt⟩ : S1x256x128.Idx) = x := by
    funext a
    match a with
    | ⟨0, _⟩ => exact Fin.ext (by have hx : (x 0).val < 1 := (x 0).isLt; show 0 = (x 0).val; omega)
    | ⟨1, _⟩ => exact Fin.ext h1
    | ⟨2, _⟩ => exact Fin.ext h2
  show tripPiece Q K V G B2 B1 ⟨(y 0).val, _⟩ (ix3 (0 : Fin 1) ⟨(y 1).val, (y 1).isLt⟩ ⟨(y 2).val, (y 2).isLt⟩) = _
  rw [e1, e2]

section Trips
variable (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)

/-- The piece trip `k` leaves. -/
abbrev pieceOf (k : Fin k0_t1_loop.trips) : View.Piece (Elt F) S16x256x128 .bf16 :=
  ⟨rowRect k, tripPiece (arg11.view.read (Elt F) X_arg11) (arg12.view.read (Elt F) X_arg12) (arg13.view.read (Elt F) X_arg13) (arg14.view.read (Elt F) X_arg14) (arg4.view.read (Elt F) X_arg4) (arg3.view.read (Elt F) X_arg3) k⟩

include harg3 harg4 harg11 harg12 harg13 harg14 in
/-- Trip `k`'s piece list is its one piece. -/
theorem tripL_eq' (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k = [pieceOf arg3 arg4 arg11 arg12 arg13 arg14 X_arg3 X_arg4 X_arg11 X_arg12 X_arg13 X_arg14 k] :=
  tripL_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k

/-- The pieces of the trips before `n`: trip `n - 1`'s first, … , trip 0's last. -/
theorem pb_succ' (n : ℕ) (hn : n < k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 (n + 1)
      = pieceOf arg3 arg4 arg11 arg12 arg13 arg14 X_arg3 X_arg4 X_arg11 X_arg12 X_arg13 X_arg14 ⟨n, hn⟩ :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n := by
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 ⟨n, hn⟩
  rw [tripL_eq'] at h
  exact h

/-- Every piece of the trips before `n` is some trip's piece; -/
theorem pb_mem_imp : ∀ (n : ℕ), n ≤ k0_t1_loop.trips → ∀ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n,
    ∃ k : Fin k0_t1_loop.trips, p = pieceOf arg3 arg4 arg11 arg12 arg13 arg14 X_arg3 X_arg4 X_arg11 X_arg12 X_arg13 X_arg14 k
  | 0, _, p, hp => by rw [pb_k0_t1.eq_1] at hp; exact absurd hp List.not_mem_nil
  | n + 1, hn, p, hp => by
    rw [pb_succ' (hn := hn)] at hp
    rcases List.mem_cons.mp hp with rfl | hp'
    · exact ⟨_, rfl⟩
    · exact pb_mem_imp n (Nat.le_of_succ_le hn) p hp'

/-- and trip `k`'s piece is among those of the trips before `n` once `k < n`. -/
theorem mem_pb : ∀ (n : ℕ), n ≤ k0_t1_loop.trips → ∀ k : Fin k0_t1_loop.trips, k.val < n →
    pieceOf arg3 arg4 arg11 arg12 arg13 arg14 X_arg3 X_arg4 X_arg11 X_arg12 X_arg13 X_arg14 k ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n
  | 0, _, k, hk => absurd hk (Nat.not_lt_zero _)
  | n + 1, hn, k, hk => by
    rw [pb_succ' (hn := hn)]
    by_cases e : k.val = n
    · have : k = ⟨n, hn⟩ := Fin.ext e
      subst this
      exact List.mem_cons_self
    · exact List.mem_cons_of_mem _ (mem_pb n (Nat.le_of_succ_le hn) k (by omega))

end Trips

/-- Row `k`'s rectangle puts its block index `x` at row `k`, the other two coordinates unchanged. -/
theorem rowRect_emb (k : Fin k0_t1_loop.trips) (x : S1x256x128.Idx) :
    ((rowRect k).emb x 0).val = k.val ∧ ((rowRect k).emb x 1).val = (x 1).val ∧ ((rowRect k).emb x 2).val = (x 2).val := by
  have hx : (x 0).val < 1 := (x 0).isLt
  have e := k0_off1_eq k
  refine ⟨?_, ?_, ?_⟩
  · show k0_off1 k 0 + 1 * (x 0).val = k.val
    rw [e]; show k.val + 1 * (x 0).val = k.val; omega
  · show k0_off1 k 1 + 1 * (x 1).val = (x 1).val
    rw [e]; show 0 + 1 * (x 1).val = (x 1).val; omega
  · show k0_off1 k 2 + 1 * (x 2).val = (x 2).val
    rw [e]; show 0 + 1 * (x 2).val = (x 2).val; omega

/-- An index lies in row `k`'s rectangle exactly when its row is `k`. -/
theorem mem_rowRect (k : Fin k0_t1_loop.trips) (y : S16x256x128.Idx) (h : (y 0).val = k.val) : y ∈ (rowRect k).set := by
  rw [Rect.mem_set_unit, k0_off1_eq k]
  intro a
  have h1 : (y 1).val < 256 := (y 1).isLt
  have h2 : (y 2).val < 128 := (y 2).isLt
  match a with
  | ⟨0, _⟩ => show k.val ≤ (y 0).val ∧ (y 0).val < k.val + 1; omega
  | ⟨1, _⟩ => show 0 ≤ (y 1).val ∧ (y 1).val < 0 + 256; omega
  | ⟨2, _⟩ => show 0 ≤ (y 2).val ∧ (y 2).val < 0 + 128; omega

section Fifth
variable (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)

/-- THE FIFTH BUFFER AFTER THE LOOP: the pieces of the 16 trips read back as one function, row by row what each trip
    stored — every piece is a block of that function, and the 16 rows cover the buffer. -/
theorem canon_pb :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips) = rowsFn (arg11.view.read (Elt F) X_arg11) (arg12.view.read (Elt F) X_arg12) (arg13.view.read (Elt F) X_arg13) (arg14.view.read (Elt F) X_arg14) (arg4.view.read (Elt F) X_arg4) (arg3.view.read (Elt F) X_arg3) := by
  funext y
  have hy : (y 0).val < k0_t1_loop.trips := by rw [trips16]; exact (y 0).isLt
  refine View.canon_apply_of_pieces (rowsFn (arg11.view.read (Elt F) X_arg11) (arg12.view.read (Elt F) X_arg12) (arg13.view.read (Elt F) X_arg13) (arg14.view.read (Elt F) X_arg14) (arg4.view.read (Elt F) X_arg4) (arg3.view.read (Elt F) X_arg3)) _ (fun p hp x => ?_) y
    ⟨_, mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) ⟨(y 0).val, hy⟩ hy, mem_rowRect _ y rfl⟩
  obtain ⟨k, rfl⟩ := pb_mem_imp 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) p hp
  obtain ⟨e0, e1, e2⟩ := rowRect_emb k x
  exact (rowsFn_apply _ _ _ _ _ _ _ k x e0 e1 e2).symm

/-- Every index of the fifth buffer is under some trip's piece. -/
theorem cover_pb (y : S16x256x128.Idx) : ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips, y ∈ p.1.set := by
  have hy : (y 0).val < k0_t1_loop.trips := by rw [trips16]; exact (y 0).isLt
  exact ⟨_, mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) ⟨(y 0).val, hy⟩ hy, mem_rowRect _ y rfl⟩

end Fifth

/-! ## The loads in the vocabulary of the memory-free body -/

/-- A load of row `k` of a 16-row buffer reads the buffer at row `k`, the other two coordinates the block's. -/
theorem ld_rowRect {e : EltTy} (Q : S16x256x128.Idx → Elt F e) (k : Fin k0_t1_loop.trips) (r : Fin 16) (h : k.val = r.val) :
    View.ld Q (rowRect k) = fun y => Q (ix3 r ⟨(y 1).val, (y 1).isLt⟩ ⟨(y 2).val, (y 2).isLt⟩) := by
  funext x
  obtain ⟨e0, e1, e2⟩ := rowRect_emb k x
  show Q ((rowRect k).emb x) = _
  congr 1
  funext a
  match a with
  | ⟨0, _⟩ => exact Fin.ext (e0.trans h)
  | ⟨1, _⟩ => exact Fin.ext e1
  | ⟨2, _⟩ => exact Fin.ext e2

/-- A load of row `k` of the row bias block reads it at row `k`. -/
theorem ld_biasRect (B2 : S1x16x1x1x256.Idx → Elt F .f32) (k : Fin k0_t1_loop.trips) (r : Fin 16) (h : k.val = r.val) :
    View.ld B2 (biasRect k)
      = fun y => B2 (ix5 (0 : Fin 1) r (0 : Fin 1) (0 : Fin 1) ⟨(y 4).val, (y 4).isLt⟩) := by
  funext x
  have h0 : (x 0).val < 1 := (x 0).isLt
  have h1 : (x 1).val < 1 := (x 1).isLt
  have h2 : (x 2).val < 1 := (x 2).isLt
  have h3 : (x 3).val < 1 := (x 3).isLt
  have e := k0_off2_eq k
  show B2 ((biasRect k).emb x) = _
  congr 1
  funext a
  match a with
  | ⟨0, _⟩ => exact Fin.ext (by show k0_off2 k 0 + 1 * (x 0).val = 0; rw [e]; show 0 + 1 * (x 0).val = 0; omega)
  | ⟨1, _⟩ => exact Fin.ext (by show k0_off2 k 1 + 1 * (x 1).val = r.val; rw [e]; show k.val + 1 * (x 1).val = r.val; omega)
  | ⟨2, _⟩ => exact Fin.ext (by show k0_off2 k 2 + 1 * (x 2).val = 0; rw [e]; show 0 + 1 * (x 2).val = 0; omega)
  | ⟨3, _⟩ => exact Fin.ext (by show k0_off2 k 3 + 1 * (x 3).val = 0; rw [e]; show 0 + 1 * (x 3).val = 0; omega)
  | ⟨4, _⟩ => exact Fin.ext (by show k0_off2 k 4 + 1 * (x 4).val = (x 4).val; rw [e]; show 0 + 1 * (x 4).val = (x 4).val; omega)

/-- A load of head `h` of the pair bias block reads it at head `h`. -/
theorem ld_headRect (B1 : S1x1x4x256x256.Idx → Elt F .f32) (h : Fin 4) (off : Fin 5 → ℕ) (hoff : off = ![0, 0, h.val, 0, 0])
    (inb : ∀ a, off a + S1x1x1x256x256.size a ≤ S1x1x4x256x256.size a) :
    View.ld B1 (Rect.unit (s := S1x1x4x256x256) off S1x1x1x256x256.size inb)
      = fun y => B1 (ix5 (0 : Fin 1) (0 : Fin 1) h ⟨(y 3).val, (y 3).isLt⟩ ⟨(y 4).val, (y 4).isLt⟩) := by
  subst hoff
  funext x
  have h0 : (x 0).val < 1 := (x 0).isLt
  have h1 : (x 1).val < 1 := (x 1).isLt
  have h2 : (x 2).val < 1 := (x 2).isLt
  show B1 ((Rect.unit (s := S1x1x4x256x256) ![0, 0, h.val, 0, 0] S1x1x1x256x256.size inb).emb x) = _
  congr 1
  funext a
  match a with
  | ⟨0, _⟩ => exact Fin.ext (by show 0 + 1 * (x 0).val = 0; omega)
  | ⟨1, _⟩ => exact Fin.ext (by show 0 + 1 * (x 1).val = 0; omega)
  | ⟨2, _⟩ => exact Fin.ext (by show h.val + 1 * (x 2).val = h.val; omega)
  | ⟨3, _⟩ => exact Fin.ext (by show 0 + 1 * (x 3).val = (x 3).val; omega)
  | ⟨4, _⟩ => exact Fin.ext (by show 0 + 1 * (x 4).val = (x 4).val; omega)

/-- `tripPay` of equal blocks. -/
theorem tripPay_congr {q q' kk kk' v v' : Vec F S1x256x128 .bf16} {g g' : Vec F S1x256x128 .f32}
    {r r' : Vec F S1x1x1x1x256 .f32} {p0 p0' p1 p1' p2 p2' p3 p3' : Vec F S1x1x1x256x256 .f32}
    (hq : q = q') (hk : kk = kk') (hv : v = v') (hg : g = g') (hr : r = r') (h0 : p0 = p0') (h1 : p1 = p1')
    (h2 : p2 = p2') (h3 : p3 = p3') : tripPay q kk v g r p0 p1 p2 p3 = tripPay q' kk' v' g' r' p0' p1' p2' p3' := by
  subst hq hk hv hg hr h0 h1 h2 h3; rfl

/-- So the fifth buffer after the loop, over the four projection buffers and the two bias blocks, is the memory-free
    body's `attnRows`. -/
theorem rowsFn_eq_attnRows (x0 x1 : Vec F S1x16x256x128 .f32) (x2 : Vec F S1x1x4x256x256 .f32) (x3 : Vec F S1x16x1x1x256 .f32)
    (x4 x5 : Vec F S128x256 .bf16) (x6 : Vec F S128 .f32) :
    rowsFn (qBuf x0 x4) (kBuf x1 x5) (vBuf x1 x5) (gBuf x0 x4 x6) x3 x2 = attnRows x0 x1 x2 x3 x4 x5 x6 := by
  funext y
  have hy : (y 0).val < k0_t1_loop.trips := by rw [trips16]; exact (y 0).isLt
  have e1 : View.ld (qBuf x0 x4) (rowRect ⟨(y 0).val, hy⟩) = rowBlkB (qBuf x0 x4) ⟨(y 0).val, (y 0).isLt⟩ :=
    ld_rowRect (F := F) (e := .bf16) (qBuf x0 x4) ⟨(y 0).val, hy⟩ ⟨(y 0).val, (y 0).isLt⟩ rfl
  have e2 : View.ld (kBuf x1 x5) (rowRect ⟨(y 0).val, hy⟩) = rowBlkB (kBuf x1 x5) ⟨(y 0).val, (y 0).isLt⟩ :=
    ld_rowRect (F := F) (e := .bf16) (kBuf x1 x5) ⟨(y 0).val, hy⟩ ⟨(y 0).val, (y 0).isLt⟩ rfl
  have e3 : View.ld (vBuf x1 x5) (rowRect ⟨(y 0).val, hy⟩) = rowBlkB (vBuf x1 x5) ⟨(y 0).val, (y 0).isLt⟩ :=
    ld_rowRect (F := F) (e := .bf16) (vBuf x1 x5) ⟨(y 0).val, hy⟩ ⟨(y 0).val, (y 0).isLt⟩ rfl
  have e4 : View.ld (gBuf x0 x4 x6) (rowRect ⟨(y 0).val, hy⟩) = rowBlkF (gBuf x0 x4 x6) ⟨(y 0).val, (y 0).isLt⟩ :=
    ld_rowRect (F := F) (e := .f32) (gBuf x0 x4 x6) ⟨(y 0).val, hy⟩ ⟨(y 0).val, (y 0).isLt⟩ rfl
  have e5 : View.ld x3 (biasRect ⟨(y 0).val, hy⟩) = b2Blk x3 ⟨(y 0).val, (y 0).isLt⟩ := ld_biasRect (F := F) x3 ⟨(y 0).val, hy⟩ ⟨(y 0).val, (y 0).isLt⟩ rfl
  have e6 : View.ld x2 (Rect.unit (s := S1x1x4x256x256) ![0, 0, 0, 0, 0] S1x1x1x256x256.size inb_S1x1x4x256x256_S1x1x1x256x256_0_0_0_0_0) = b1Blk x2 0 := ld_headRect (F := F) x2 0 _ rfl _
  have e7 : View.ld x2 (Rect.unit (s := S1x1x4x256x256) ![0, 0, 1, 0, 0] S1x1x1x256x256.size inb_S1x1x4x256x256_S1x1x1x256x256_0_0_1_0_0) = b1Blk x2 1 := ld_headRect (F := F) x2 1 _ rfl _
  have e8 : View.ld x2 (Rect.unit (s := S1x1x4x256x256) ![0, 0, 2, 0, 0] S1x1x1x256x256.size inb_S1x1x4x256x256_S1x1x1x256x256_0_0_2_0_0) = b1Blk x2 2 := ld_headRect (F := F) x2 2 _ rfl _
  have e9 : View.ld x2 (Rect.unit (s := S1x1x4x256x256) ![0, 0, 3, 0, 0] S1x1x1x256x256.size inb_S1x1x4x256x256_S1x1x1x256x256_0_0_3_0_0) = b1Blk x2 3 := ld_headRect (F := F) x2 3 _ rfl _
  refine Eq.trans ?_ (congrFun (tripOut_eq x0 x1 x2 x3 x4 x5 x6 ⟨(y 0).val, (y 0).isLt⟩).symm _)
  exact congrFun (tripPay_congr e1 e2 e3 e4 e5 e6 e7 e8 e9) _

end Cert.AttnW
end
-- ==== Proof.KBody.lean ====
/-
  The kernel body of one grid step as ONE pure function of its input blocks.

  A grid step holds 16 rows.  The body first projects all 16 rows at once (queries scaled, keys, values, gate),
  keeps the four projections in four scratch buffers, then for each row k = 0..15 reads row k of the four
  buffers, row k of the row bias and the four heads of the pair bias, computes the gated attention output of
  that row for the four heads and writes it as row k of a fifth scratch buffer; finally it projects the fifth
  buffer by the output weights and adds the output bias.  Here the same computation is written without memory:
  `rowBlkB` / `rowBlkF` / `b1Blk` / `b2Blk` are the blocks the row loads return, `tripOut` is what row k's trip
  stores, `attnRows` is the fifth buffer after the 16 trips, and `blockOut` is the block the step writes back.
-/
import proofs.«118972_j22179211116942_2_alg».proof.Proof.Gen.KernelIdeal.Skeleton
import Idealize.ShloMosaic.Lib.ValueIdx

noncomputable section

namespace Cert.AttnK

open Idealize.ShloMosaic Idealize.ShloMosaic.ValueIdx Cert.KernelIdeal Cert.KernelIdeal.Gen

variable {F : FTy → Type} [FloatOps F] [Named F]

/-- Row `k` of a 16-row bf16 buffer, as the one-row block `[1, 256, 128]`. -/
def rowBlkB (v : FVec F S16x256x128 .bf16) (k : Fin 16) : Vec F S1x256x128 .bf16 :=
  fun y => v (ix3 k ⟨(y 1).val, (y 1).isLt⟩ ⟨(y 2).val, (y 2).isLt⟩)

/-- Row `k` of a 16-row f32 buffer, as the one-row block `[1, 256, 128]`. -/
def rowBlkF (v : FVec F S16x256x128 .f32) (k : Fin 16) : Vec F S1x256x128 .f32 :=
  fun y => v (ix3 k ⟨(y 1).val, (y 1).isLt⟩ ⟨(y 2).val, (y 2).isLt⟩)

/-- Head `h` of the pair bias block, as the block `[1, 1, 1, 256, 256]`. -/
def b1Blk (x2 : Vec F S1x1x4x256x256 .f32) (h : Fin 4) : Vec F S1x1x1x256x256 .f32 :=
  fun y => x2 (ix5 (0 : Fin 1) (0 : Fin 1) h ⟨(y 3).val, (y 3).isLt⟩ ⟨(y 4).val, (y 4).isLt⟩)

/-- Row `k` of the row bias block, as the block `[1, 1, 1, 1, 256]`. -/
def b2Blk (x3 : Vec F S1x16x1x1x256 .f32) (k : Fin 16) : Vec F S1x1x1x1x256 .f32 :=
  fun y => x3 (ix5 (0 : Fin 1) k (0 : Fin 1) (0 : Fin 1) ⟨(y 4).val, (y 4).isLt⟩)

section
variable (x0 x1 : Vec F S1x16x256x128 .f32) (x2 : Vec F S1x1x4x256x256 .f32) (x3 : Vec F S1x16x1x1x256 .f32)
  (x4 x5 : Vec F S128x256 .bf16) (x6 : Vec F S128 .f32)

/-- The scaled query projections of the 16 rows (first scratch buffer). -/
def qBuf : FVec F S16x256x128 .bf16 := k0_pay22 x0 x4
/-- The key projections of the 16 rows (second scratch buffer). -/
def kBuf : FVec F S16x256x128 .bf16 := k0_pay23 x1 x5
/-- The value projections of the 16 rows (third scratch buffer). -/
def vBuf : FVec F S16x256x128 .bf16 := k0_pay1 (k0_pay21 x1 x5)
/-- The gates of the 16 rows (fourth scratch buffer). -/
def gBuf : FVec F S16x256x128 .f32 := k0_pay2 (k0_pay20 x0 x4 x6)

/-- What the trip of row `k` stores into row `k` of the fifth scratch buffer: the gated attention output of
    the row, the four heads side by side. -/
def tripOut (k : Fin 16) : FVec F S1x256x128 .bf16 :=
  k0_pay3
    (k0_pay5 (rowBlkB (qBuf x0 x4) k)) (k0_pay6 (rowBlkB (kBuf x1 x5) k)) (k0_pay7 (rowBlkB (vBuf x1 x5) k))
    (k0_pay8 (rowBlkF (gBuf x0 x4 x6) k)) (k0_pay9 (b2Blk x3 k))
    (k0_pay12 (k0_pay10 (rowBlkF (gBuf x0 x4 x6) k))
      (k0_pay11 (rowBlkB (qBuf x0 x4) k) (rowBlkB (kBuf x1 x5) k) (rowBlkB (vBuf x1 x5) k) (b2Blk x3 k) (b1Blk x2 0)))
    (k0_pay13 (k0_pay5 (rowBlkB (qBuf x0 x4) k)) (k0_pay6 (rowBlkB (kBuf x1 x5) k)) (k0_pay7 (rowBlkB (vBuf x1 x5) k))
      (k0_pay8 (rowBlkF (gBuf x0 x4 x6) k)) (k0_pay9 (b2Blk x3 k)) (b1Blk x2 1))
    (k0_pay14 (k0_pay7 (rowBlkB (vBuf x1 x5) k)))
    (k0_pay15 (k0_pay8 (rowBlkF (gBuf x0 x4 x6) k)))
    (k0_pay16 (k0_pay5 (rowBlkB (qBuf x0 x4) k)) (k0_pay6 (rowBlkB (kBuf x1 x5) k)) (k0_pay9 (b2Blk x3 k)) (b1Blk x2 2))
    (k0_pay17 (k0_pay5 (rowBlkB (qBuf x0 x4) k)) (k0_pay6 (rowBlkB (kBuf x1 x5) k)) (k0_pay9 (b2Blk x3 k)) (b1Blk x2 2))
    (b1Blk x2 3)

/-- The fifth scratch buffer after the 16 trips: row `k` is what trip `k` stored. -/
def attnRows : FVec F S16x256x128 .bf16 :=
  fun y => tripOut x0 x1 x2 x3 x4 x5 x6 ⟨(y 0).val, (y 0).isLt⟩
    (ix3 (0 : Fin 1) ⟨(y 1).val, (y 1).isLt⟩ ⟨(y 2).val, (y 2).isLt⟩)

/-- The block a grid step writes back: the 16 rows of gated attention projected by the output weights, plus
    the output bias. -/
def blockOut (x7 : Vec F S128x128 .bf16) (x8 : Vec F S128 .f32) : FVec F S1x16x256x128 .f32 :=
  k0_pay4 (attnRows x0 x1 x2 x3 x4 x5 x6) x7 x8

end

end Cert.AttnK

end
-- ==== Proof.KOpenTrips.lean ====
/-
  The loop of the kernel body, opened: what the fifth scratch buffer holds after the 16 trips.

  One trip (row k) loads row k of the four projection buffers (scaled queries, keys, values, gates), row k of the row
  bias and the four heads of the pair bias, and stores the gated attention output of that row, the four heads side by
  side, as row k of the fifth scratch buffer.  `tripPay` is that stored block as a function of the nine loaded blocks;
  `tripL_eq` reads the trip's one piece off the trip's definition (the only place that definition is opened).  The
  pieces of the trips before n are then the rows n-1, …, 0 (`pb_succ'`), every one a block of the single function
  `rowsFn` of the buffer's index (row y₀ is what trip y₀ stored: `rowsFn_apply`, `rowRect_emb`), and the 16 rows
  cover the buffer (`mem_rowRect`); so the buffer reads back as `rowsFn` (`canon_pb`, `cover_pb`), and a load of it
  after the loop reads the trips' pieces alone, whatever the buffer held before the loop (`readAt_pb`).  Last, a load of
  row k of a buffer, of row k of the row bias, or of head h of the pair bias is the block the memory-free body names
  `rowBlkB` / `rowBlkF` / `b2Blk` / `b1Blk` (`ld_rowRect`, `ld_biasRect`, `ld_headRect`: the rectangle's offset
  plus the block's coordinate, the unit axes contributing 0), hence over the four projection buffers `rowsFn` is the
  memory-free body's `attnRows` (`rowsFn_eq_attnRows`).
-/
import proofs.«118972_j22179211116942_2_alg».proof.Proof.Gen.KernelIdeal.Loops
import proofs.«118972_j22179211116942_2_alg».proof.Proof.KBody
import Idealize.ShloMosaic.Lib.Pipeline.Value

set_option maxRecDepth 16384

noncomputable section
namespace Cert.AttnK
open Idealize.ShloMosaic Idealize.ShloMosaic.TcCoe Idealize.ShloMosaic.ValueIdx Idealize.SL.Sem Cert.KernelIdeal Cert.KernelIdeal.Gen

variable {F : FTy → Type} [FloatOps F] [Named F]

/-- What one row's trip stores, as a function of the nine blocks it loads: the row of the scaled queries, of the keys,
    of the values and of the gates, the row of the row bias, and the four heads of the pair bias. -/
def tripPay (q kk v : Vec F S1x256x128 .bf16) (g : Vec F S1x256x128 .f32) (r : Vec F S1x1x1x1x256 .f32)
    (p0 p1 p2 p3 : Vec F S1x1x1x256x256 .f32) : FVec F S1x256x128 .bf16 :=
  k0_pay3 (k0_pay5 q) (k0_pay6 kk) (k0_pay7 v) (k0_pay8 g) (k0_pay9 r)
    (k0_pay12 (k0_pay10 g) (k0_pay11 q kk v r p0))
    (k0_pay13 (k0_pay5 q) (k0_pay6 kk) (k0_pay7 v) (k0_pay8 g) (k0_pay9 r) p1)
    (k0_pay14 (k0_pay7 v)) (k0_pay15 (k0_pay8 g))
    (k0_pay16 (k0_pay5 q) (k0_pay6 kk) (k0_pay9 r) p2)
    (k0_pay17 (k0_pay5 q) (k0_pay6 kk) (k0_pay9 r) p2)
    p3

/-- The row's trip output is that function of the row's blocks. -/
theorem tripOut_eq (x0 x1 : Vec F S1x16x256x128 .f32) (x2 : Vec F S1x1x4x256x256 .f32) (x3 : Vec F S1x16x1x1x256 .f32)
    (x4 x5 : Vec F S128x256 .bf16) (x6 : Vec F S128 .f32) (k : Fin 16) :
    tripOut x0 x1 x2 x3 x4 x5 x6 k
      = tripPay (rowBlkB (qBuf x0 x4) k) (rowBlkB (kBuf x1 x5) k) (rowBlkB (vBuf x1 x5) k) (rowBlkF (gBuf x0 x4 x6) k)
          (b2Blk x3 k) (b1Blk x2 0) (b1Blk x2 1) (b1Blk x2 2) (b1Blk x2 3) := rfl

/-- ONE TRIP, opened once: row `k`'s trip leaves one piece in the fifth scratch buffer, a store at row `k` of the
    payload of what it loads at row `k` of the four projection buffers, at row `k` of the row bias and at the four
    heads of the pair bias. -/
theorem tripL_eq (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k
      = [⟨(Rect.unit (s := S16x256x128) (k0_off1 k) S1x256x128.size (k0_off1_inb k)),
          tripPay (View.readAt (Elt F) arg11.view (Rect.unit (s := S16x256x128) (k0_off1 k) S1x256x128.size (k0_off1_inb k)).toLoadRect X_arg11)
            (View.readAt (Elt F) arg12.view (Rect.unit (s := S16x256x128) (k0_off1 k) S1x256x128.size (k0_off1_inb k)).toLoadRect X_arg12)
            (View.readAt (Elt F) arg13.view (Rect.unit (s := S16x256x128) (k0_off1 k) S1x256x128.size (k0_off1_inb k)).toLoadRect X_arg13)
            (View.readAt (Elt F) arg14.view (Rect.unit (s := S16x256x128) (k0_off1 k) S1x256x128.size (k0_off1_inb k)).toLoadRect X_arg14)
            (View.readAt (Elt F) arg4.view (Rect.unit (s := S1x16x1x1x256) (k0_off2 k) S1x1x1x1x256.size (k0_off2_inb k)).toLoadRect X_arg4)
            (View.readAt (Elt F) arg3.view (Rect.unit (s := S1x1x4x256x256) ![0, 0, 0, 0, 0] S1x1x1x256x256.size inb_S1x1x4x256x256_S1x1x1x256x256_0_0_0_0_0).toLoadRect X_arg3)
            (View.readAt (Elt F) arg3.view (Rect.unit (s := S1x1x4x256x256) ![0, 0, 1, 0, 0] S1x1x1x256x256.size inb_S1x1x4x256x256_S1x1x1x256x256_0_0_1_0_0).toLoadRect X_arg3)
            (View.readAt (Elt F) arg3.view (Rect.unit (s := S1x1x4x256x256) ![0, 0, 2, 0, 0] S1x1x1x256x256.size inb_S1x1x4x256x256_S1x1x1x256x256_0_0_2_0_0).toLoadRect X_arg3)
            (View.readAt (Elt F) arg3.view (Rect.unit (s := S1x1x4x256x256) ![0, 0, 3, 0, 0] S1x1x1x256x256.size inb_S1x1x4x256x256_S1x1x1x256x256_0_0_3_0_0).toLoadRect X_arg3)⟩] := by
  unfold tripL_k0_t1
  unfold trip_k0_t1
  rfl

/-- The loop runs 16 trips. -/
theorem trips16 : k0_t1_loop.trips = 16 := by decide +kernel

/-- Row `k`'s rectangle of a 16-row scratch buffer. -/
abbrev rowRect (k : Fin k0_t1_loop.trips) : Rect S16x256x128 :=
  Rect.unit (s := S16x256x128) (k0_off1 k) S1x256x128.size (k0_off1_inb k)
/-- Row `k`'s rectangle of the row bias block. -/
abbrev biasRect (k : Fin k0_t1_loop.trips) : Rect S1x16x1x1x256 :=
  Rect.unit (s := S1x16x1x1x256) (k0_off2 k) S1x1x1x1x256.size (k0_off2_inb k)

/-- What the trip of row `k` stores, as a function of what the six buffers it loads from read: row `k` of the four
    projection buffers and of the row bias, and the four heads of the pair bias. -/
def tripPiece (Q K V : S16x256x128.Idx → Elt F .bf16) (G : S16x256x128.Idx → Elt F .f32)
    (B2 : S1x16x1x1x256.Idx → Elt F .f32) (B1 : S1x1x4x256x256.Idx → Elt F .f32) (k : Fin k0_t1_loop.trips) :
    FVec F S1x256x128 .bf16 :=
  tripPay (View.ld Q (rowRect k)) (View.ld K (rowRect k)) (View.ld V (rowRect k)) (View.ld G (rowRect k))
    (View.ld B2 (biasRect k))
    (View.ld B1 (Rect.unit (s := S1x1x4x256x256) ![0, 0, 0, 0, 0] S1x1x1x256x256.size inb_S1x1x4x256x256_S1x1x1x256x256_0_0_0_0_0)) (View.ld B1 (Rect.unit (s := S1x1x4x256x256) ![0, 0, 1, 0, 0] S1x1x1x256x256.size inb_S1x1x4x256x256_S1x1x1x256x256_0_0_1_0_0)) (View.ld B1 (Rect.unit (s := S1x1x4x256x256) ![0, 0, 2, 0, 0] S1x1x1x256x256.size inb_S1x1x4x256x256_S1x1x1x256x256_0_0_2_0_0)) (View.ld B1 (Rect.unit (s := S1x1x4x256x256) ![0, 0, 3, 0, 0] S1x1x1x256x256.size inb_S1x1x4x256x256_S1x1x1x256x256_0_0_3_0_0))

/-- The fifth scratch buffer after the 16 trips, as ONE function of its index: row `y 0` is what that row's trip stored. -/
def rowsFn (Q K V : S16x256x128.Idx → Elt F .bf16) (G : S16x256x128.Idx → Elt F .f32)
    (B2 : S1x16x1x1x256.Idx → Elt F .f32) (B1 : S1x1x4x256x256.Idx → Elt F .f32) : S16x256x128.Idx → Elt F .bf16 :=
  fun y => tripPiece Q K V G B2 B1 ⟨(y 0).val, by rw [trips16]; exact (y 0).isLt⟩
    (ix3 (0 : Fin 1) ⟨(y 1).val, (y 1).isLt⟩ ⟨(y 2).val, (y 2).isLt⟩)

/-- `rowsFn` at an index whose row is `k` and whose other two coordinates are `x`'s is trip `k`'s payload at `x`. -/
theorem rowsFn_apply (Q K V : S16x256x128.Idx → Elt F .bf16) (G : S16x256x128.Idx → Elt F .f32)
    (B2 : S1x16x1x1x256.Idx → Elt F .f32) (B1 : S1x1x4x256x256.Idx → Elt F .f32) (y : S16x256x128.Idx)
    (k : Fin k0_t1_loop.trips) (x : S1x256x128.Idx) (h0 : (y 0).val = k.val) (h1 : (y 1).val = (x 1).val)
    (h2 : (y 2).val = (x 2).val) : rowsFn Q K V G B2 B1 y = tripPiece Q K V G B2 B1 k x := by
  have e1 : (⟨(y 0).val, by rw [trips16]; exact (y 0).isLt⟩ : Fin k0_t1_loop.trips) = k := Fin.ext h0
  have e2 : (ix3 (0 : Fin 1) ⟨(y 1).val, (y 1).isLt⟩ ⟨(y 2).val, (y 2).isLt⟩ : S1x256x128.Idx) = x := by
    funext a
    match a with
    | ⟨0, _⟩ => exact Fin.ext (by have hx : (x 0).val < 1 := (x 0).isLt; show 0 = (x 0).val; omega)
    | ⟨1, _⟩ => exact Fin.ext h1
    | ⟨2, _⟩ => exact Fin.ext h2
  show tripPiece Q K V G B2 B1 ⟨(y 0).val, _⟩ (ix3 (0 : Fin 1) ⟨(y 1).val, (y 1).isLt⟩ ⟨(y 2).val, (y 2).isLt⟩) = _
  rw [e1, e2]

section Trips
variable (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)

/-- The piece trip `k` leaves. -/
abbrev pieceOf (k : Fin k0_t1_loop.trips) : View.Piece (Elt F) S16x256x128 .bf16 :=
  ⟨rowRect k, tripPiece (arg11.view.read (Elt F) X_arg11) (arg12.view.read (Elt F) X_arg12) (arg13.view.read (Elt F) X_arg13) (arg14.view.read (Elt F) X_arg14) (arg4.view.read (Elt F) X_arg4) (arg3.view.read (Elt F) X_arg3) k⟩

include harg3 harg4 harg11 harg12 harg13 harg14 in
/-- Trip `k`'s piece list is its one piece. -/
theorem tripL_eq' (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k = [pieceOf arg3 arg4 arg11 arg12 arg13 arg14 X_arg3 X_arg4 X_arg11 X_arg12 X_arg13 X_arg14 k] :=
  tripL_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k

/-- The pieces of the trips before `n`: trip `n - 1`'s first, … , trip 0's last. -/
theorem pb_succ' (n : ℕ) (hn : n < k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 (n + 1)
      = pieceOf arg3 arg4 arg11 arg12 arg13 arg14 X_arg3 X_arg4 X_arg11 X_arg12 X_arg13 X_arg14 ⟨n, hn⟩ :: pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n := by
  have h := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 ⟨n, hn⟩
  rw [tripL_eq'] at h
  exact h

/-- Every piece of the trips before `n` is some trip's piece; -/
theorem pb_mem_imp : ∀ (n : ℕ), n ≤ k0_t1_loop.trips → ∀ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n,
    ∃ k : Fin k0_t1_loop.trips, p = pieceOf arg3 arg4 arg11 arg12 arg13 arg14 X_arg3 X_arg4 X_arg11 X_arg12 X_arg13 X_arg14 k
  | 0, _, p, hp => by rw [pb_k0_t1.eq_1] at hp; exact absurd hp List.not_mem_nil
  | n + 1, hn, p, hp => by
    rw [pb_succ' (hn := hn)] at hp
    rcases List.mem_cons.mp hp with rfl | hp'
    · exact ⟨_, rfl⟩
    · exact pb_mem_imp n (Nat.le_of_succ_le hn) p hp'

/-- and trip `k`'s piece is among those of the trips before `n` once `k < n`. -/
theorem mem_pb : ∀ (n : ℕ), n ≤ k0_t1_loop.trips → ∀ k : Fin k0_t1_loop.trips, k.val < n →
    pieceOf arg3 arg4 arg11 arg12 arg13 arg14 X_arg3 X_arg4 X_arg11 X_arg12 X_arg13 X_arg14 k ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 n
  | 0, _, k, hk => absurd hk (Nat.not_lt_zero _)
  | n + 1, hn, k, hk => by
    rw [pb_succ' (hn := hn)]
    by_cases e : k.val = n
    · have : k = ⟨n, hn⟩ := Fin.ext e
      subst this
      exact List.mem_cons_self
    · exact List.mem_cons_of_mem _ (mem_pb n (Nat.le_of_succ_le hn) k (by omega))

end Trips

/-- Row `k`'s rectangle puts its block index `x` at row `k`, the other two coordinates unchanged. -/
theorem rowRect_emb (k : Fin k0_t1_loop.trips) (x : S1x256x128.Idx) :
    ((rowRect k).emb x 0).val = k.val ∧ ((rowRect k).emb x 1).val = (x 1).val ∧ ((rowRect k).emb x 2).val = (x 2).val := by
  have hx : (x 0).val < 1 := (x 0).isLt
  have e := k0_off1_eq k
  refine ⟨?_, ?_, ?_⟩
  · show k0_off1 k 0 + 1 * (x 0).val = k.val
    rw [e]; show k.val + 1 * (x 0).val = k.val; omega
  · show k0_off1 k 1 + 1 * (x 1).val = (x 1).val
    rw [e]; show 0 + 1 * (x 1).val = (x 1).val; omega
  · show k0_off1 k 2 + 1 * (x 2).val = (x 2).val
    rw [e]; show 0 + 1 * (x 2).val = (x 2).val; omega

/-- An index lies in row `k`'s rectangle exactly when its row is `k`. -/
theorem mem_rowRect (k : Fin k0_t1_loop.trips) (y : S16x256x128.Idx) (h : (y 0).val = k.val) : y ∈ (rowRect k).set := by
  rw [Rect.mem_set_unit, k0_off1_eq k]
  intro a
  have h1 : (y 1).val < 256 := (y 1).isLt
  have h2 : (y 2).val < 128 := (y 2).isLt
  match a with
  | ⟨0, _⟩ => show k.val ≤ (y 0).val ∧ (y 0).val < k.val + 1; omega
  | ⟨1, _⟩ => show 0 ≤ (y 1).val ∧ (y 1).val < 0 + 256; omega
  | ⟨2, _⟩ => show 0 ≤ (y 2).val ∧ (y 2).val < 0 + 128; omega

section Fifth
variable (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)

/-- THE FIFTH BUFFER AFTER THE LOOP: the pieces of the 16 trips read back as one function, row by row what each trip
    stored — every piece is a block of that function, and the 16 rows cover the buffer. -/
theorem canon_pb :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips) = rowsFn (arg11.view.read (Elt F) X_arg11) (arg12.view.read (Elt F) X_arg12) (arg13.view.read (Elt F) X_arg13) (arg14.view.read (Elt F) X_arg14) (arg4.view.read (Elt F) X_arg4) (arg3.view.read (Elt F) X_arg3) := by
  funext y
  have hy : (y 0).val < k0_t1_loop.trips := by rw [trips16]; exact (y 0).isLt
  refine View.canon_apply_of_pieces (rowsFn (arg11.view.read (Elt F) X_arg11) (arg12.view.read (Elt F) X_arg12) (arg13.view.read (Elt F) X_arg13) (arg14.view.read (Elt F) X_arg14) (arg4.view.read (Elt F) X_arg4) (arg3.view.read (Elt F) X_arg3)) _ (fun p hp x => ?_) y
    ⟨_, mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) ⟨(y 0).val, hy⟩ hy, mem_rowRect _ y rfl⟩
  obtain ⟨k, rfl⟩ := pb_mem_imp 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) p hp
  obtain ⟨e0, e1, e2⟩ := rowRect_emb k x
  exact (rowsFn_apply _ _ _ _ _ _ _ k x e0 e1 e2).symm

/-- Every index of the fifth buffer is under some trip's piece. -/
theorem cover_pb (y : S16x256x128.Idx) : ∃ p ∈ pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips, y ∈ p.1.set := by
  have hy : (y 0).val < k0_t1_loop.trips := by rw [trips16]; exact (y 0).isLt
  exact ⟨_, mem_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 _ (Nat.le_refl _) ⟨(y 0).val, hy⟩ hy, mem_rowRect _ y rfl⟩

end Fifth

/-! ## The loads in the vocabulary of the memory-free body -/

/-- A load of row `k` of a 16-row buffer reads the buffer at row `k`, the other two coordinates the block's. -/
theorem ld_rowRect {e : EltTy} (Q : S16x256x128.Idx → Elt F e) (k : Fin k0_t1_loop.trips) (r : Fin 16) (h : k.val = r.val) :
    View.ld Q (rowRect k) = fun y => Q (ix3 r ⟨(y 1).val, (y 1).isLt⟩ ⟨(y 2).val, (y 2).isLt⟩) := by
  funext x
  obtain ⟨e0, e1, e2⟩ := rowRect_emb k x
  show Q ((rowRect k).emb x) = _
  congr 1
  funext a
  match a with
  | ⟨0, _⟩ => exact Fin.ext (e0.trans h)
  | ⟨1, _⟩ => exact Fin.ext e1
  | ⟨2, _⟩ => exact Fin.ext e2

/-- A load of row `k` of the row bias block reads it at row `k`. -/
theorem ld_biasRect (B2 : S1x16x1x1x256.Idx → Elt F .f32) (k : Fin k0_t1_loop.trips) (r : Fin 16) (h : k.val = r.val) :
    View.ld B2 (biasRect k)
      = fun y => B2 (ix5 (0 : Fin 1) r (0 : Fin 1) (0 : Fin 1) ⟨(y 4).val, (y 4).isLt⟩) := by
  funext x
  have h0 : (x 0).val < 1 := (x 0).isLt
  have h1 : (x 1).val < 1 := (x 1).isLt
  have h2 : (x 2).val < 1 := (x 2).isLt
  have h3 : (x 3).val < 1 := (x 3).isLt
  have e := k0_off2_eq k
  show B2 ((biasRect k).emb x) = _
  congr 1
  funext a
  match a with
  | ⟨0, _⟩ => exact Fin.ext (by show k0_off2 k 0 + 1 * (x 0).val = 0; rw [e]; show 0 + 1 * (x 0).val = 0; omega)
  | ⟨1, _⟩ => exact Fin.ext (by show k0_off2 k 1 + 1 * (x 1).val = r.val; rw [e]; show k.val + 1 * (x 1).val = r.val; omega)
  | ⟨2, _⟩ => exact Fin.ext (by show k0_off2 k 2 + 1 * (x 2).val = 0; rw [e]; show 0 + 1 * (x 2).val = 0; omega)
  | ⟨3, _⟩ => exact Fin.ext (by show k0_off2 k 3 + 1 * (x 3).val = 0; rw [e]; show 0 + 1 * (x 3).val = 0; omega)
  | ⟨4, _⟩ => exact Fin.ext (by show k0_off2 k 4 + 1 * (x 4).val = (x 4).val; rw [e]; show 0 + 1 * (x 4).val = (x 4).val; omega)

/-- A load of head `h` of the pair bias block reads it at head `h`. -/
theorem ld_headRect (B1 : S1x1x4x256x256.Idx → Elt F .f32) (h : Fin 4) (off : Fin 5 → ℕ) (hoff : off = ![0, 0, h.val, 0, 0])
    (inb : ∀ a, off a + S1x1x1x256x256.size a ≤ S1x1x4x256x256.size a) :
    View.ld B1 (Rect.unit (s := S1x1x4x256x256) off S1x1x1x256x256.size inb)
      = fun y => B1 (ix5 (0 : Fin 1) (0 : Fin 1) h ⟨(y 3).val, (y 3).isLt⟩ ⟨(y 4).val, (y 4).isLt⟩) := by
  subst hoff
  funext x
  have h0 : (x 0).val < 1 := (x 0).isLt
  have h1 : (x 1).val < 1 := (x 1).isLt
  have h2 : (x 2).val < 1 := (x 2).isLt
  show B1 ((Rect.unit (s := S1x1x4x256x256) ![0, 0, h.val, 0, 0] S1x1x1x256x256.size inb).emb x) = _
  congr 1
  funext a
  match a with
  | ⟨0, _⟩ => exact Fin.ext (by show 0 + 1 * (x 0).val = 0; omega)
  | ⟨1, _⟩ => exact Fin.ext (by show 0 + 1 * (x 1).val = 0; omega)
  | ⟨2, _⟩ => exact Fin.ext (by show h.val + 1 * (x 2).val = h.val; omega)
  | ⟨3, _⟩ => exact Fin.ext (by show 0 + 1 * (x 3).val = (x 3).val; omega)
  | ⟨4, _⟩ => exact Fin.ext (by show 0 + 1 * (x 4).val = (x 4).val; omega)

/-- `tripPay` of equal blocks. -/
theorem tripPay_congr {q q' kk kk' v v' : Vec F S1x256x128 .bf16} {g g' : Vec F S1x256x128 .f32}
    {r r' : Vec F S1x1x1x1x256 .f32} {p0 p0' p1 p1' p2 p2' p3 p3' : Vec F S1x1x1x256x256 .f32}
    (hq : q = q') (hk : kk = kk') (hv : v = v') (hg : g = g') (hr : r = r') (h0 : p0 = p0') (h1 : p1 = p1')
    (h2 : p2 = p2') (h3 : p3 = p3') : tripPay q kk v g r p0 p1 p2 p3 = tripPay q' kk' v' g' r' p0' p1' p2' p3' := by
  subst hq hk hv hg hr h0 h1 h2 h3; rfl

/-- So the fifth buffer after the loop, over the four projection buffers and the two bias blocks, is the memory-free
    body's `attnRows`. -/
theorem rowsFn_eq_attnRows (x0 x1 : Vec F S1x16x256x128 .f32) (x2 : Vec F S1x1x4x256x256 .f32) (x3 : Vec F S1x16x1x1x256 .f32)
    (x4 x5 : Vec F S128x256 .bf16) (x6 : Vec F S128 .f32) :
    rowsFn (qBuf x0 x4) (kBuf x1 x5) (vBuf x1 x5) (gBuf x0 x4 x6) x3 x2 = attnRows x0 x1 x2 x3 x4 x5 x6 := by
  funext y
  have hy : (y 0).val < k0_t1_loop.trips := by rw [trips16]; exact (y 0).isLt
  have e1 : View.ld (qBuf x0 x4) (rowRect ⟨(y 0).val, hy⟩) = rowBlkB (qBuf x0 x4) ⟨(y 0).val, (y 0).isLt⟩ :=
    ld_rowRect (F := F) (e := .bf16) (qBuf x0 x4) ⟨(y 0).val, hy⟩ ⟨(y 0).val, (y 0).isLt⟩ rfl
  have e2 : View.ld (kBuf x1 x5) (rowRect ⟨(y 0).val, hy⟩) = rowBlkB (kBuf x1 x5) ⟨(y 0).val, (y 0).isLt⟩ :=
    ld_rowRect (F := F) (e := .bf16) (kBuf x1 x5) ⟨(y 0).val, hy⟩ ⟨(y 0).val, (y 0).isLt⟩ rfl
  have e3 : View.ld (vBuf x1 x5) (rowRect ⟨(y 0).val, hy⟩) = rowBlkB (vBuf x1 x5) ⟨(y 0).val, (y 0).isLt⟩ :=
    ld_rowRect (F := F) (e := .bf16) (vBuf x1 x5) ⟨(y 0).val, hy⟩ ⟨(y 0).val, (y 0).isLt⟩ rfl
  have e4 : View.ld (gBuf x0 x4 x6) (rowRect ⟨(y 0).val, hy⟩) = rowBlkF (gBuf x0 x4 x6) ⟨(y 0).val, (y 0).isLt⟩ :=
    ld_rowRect (F := F) (e := .f32) (gBuf x0 x4 x6) ⟨(y 0).val, hy⟩ ⟨(y 0).val, (y 0).isLt⟩ rfl
  have e5 : View.ld x3 (biasRect ⟨(y 0).val, hy⟩) = b2Blk x3 ⟨(y 0).val, (y 0).isLt⟩ := ld_biasRect (F := F) x3 ⟨(y 0).val, hy⟩ ⟨(y 0).val, (y 0).isLt⟩ rfl
  have e6 : View.ld x2 (Rect.unit (s := S1x1x4x256x256) ![0, 0, 0, 0, 0] S1x1x1x256x256.size inb_S1x1x4x256x256_S1x1x1x256x256_0_0_0_0_0) = b1Blk x2 0 := ld_headRect (F := F) x2 0 _ rfl _
  have e7 : View.ld x2 (Rect.unit (s := S1x1x4x256x256) ![0, 0, 1, 0, 0] S1x1x1x256x256.size inb_S1x1x4x256x256_S1x1x1x256x256_0_0_1_0_0) = b1Blk x2 1 := ld_headRect (F := F) x2 1 _ rfl _
  have e8 : View.ld x2 (Rect.unit (s := S1x1x4x256x256) ![0, 0, 2, 0, 0] S1x1x1x256x256.size inb_S1x1x4x256x256_S1x1x1x256x256_0_0_2_0_0) = b1Blk x2 2 := ld_headRect (F := F) x2 2 _ rfl _
  have e9 : View.ld x2 (Rect.unit (s := S1x1x4x256x256) ![0, 0, 3, 0, 0] S1x1x1x256x256.size inb_S1x1x4x256x256_S1x1x1x256x256_0_0_3_0_0) = b1Blk x2 3 := ld_headRect (F := F) x2 3 _ rfl _
  refine Eq.trans ?_ (congrFun (tripOut_eq x0 x1 x2 x3 x4 x5 x6 ⟨(y 0).val, (y 0).isLt⟩).symm _)
  exact congrFun (tripPay_congr e1 e2 e3 e4 e5 e6 e7 e8 e9) _

section Indep
variable (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)

/-- A load of the fifth scratch buffer after the 16 trips does not see what the buffer held before the loop: the 16
    rows the trips stored cover the buffer, so the load reads the trips' pieces alone. -/
theorem readAt_pb (f : arg15.view.ty.Contents (Elt F)) (B : LoadRect S16x256x128) :
    View.readAt (Elt F) arg15.view B (arg15.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips))
      = arg15.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips) B :=
  View.readAt_writes_of_cover arg15.view f _ B fun j => cover_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 (B.idx j)

end Indep

end Cert.AttnK
end
-- ==== Proof.AttnSpec.lean ====
/-
  Gated multi-head attention over 256 independent rows, as one function of the argument arrays.

  For a row `s`, a query position `q` and an output channel `c`:
    out[s,q,c] = Σ_j att[s,q,j] · wo[c,j] + bo[c],
    att[s,q,j] = (Σ_k p[s,h,q,k] · v[s,k,j]) · gate[s,q,j]          with h = j / 32 the head of column j,
    p[s,h,q,k] = e[s,h,q,k] / Σ_k' e[s,h,q,k'],   e = exp (score − max_k score),
    score[s,h,q,k] = Σ_d (qp[s,q,32h+d] · σ) · kp[s,k,32h+d] + b1[h,q,k] + b2[s,k],
    qp, kp, v, and the gate's argument are the projections x ↦ Σ_i x[s,·,i] · w[o,i] by wq, wk, wv, wg;
    gate = logistic (projection by wg + bg);  σ is the scale, the rational 2097152/11863283.
  Everything is over the extended reals; sums are finite sums over `Fin n`.
-/
import Idealize.ShloMosaic.PureOps.Ideal
import Idealize.ShloMosaic.Lib.ValueIdx

noncomputable section

open scoped BigOperators

namespace Cert.Attn

open Idealize.ShloMosaic Idealize.ShloMosaic.ValueIdx

/-- An activation array `[1, 256, 256, 128]`: one batch, 256 rows, 256 positions, 128 channels. -/
abbrev Act := (⟨4, ![1, 256, 256, 128]⟩ : Shape).Idx → EReal
/-- A weight matrix `[out, in] = [128, 128]`. -/
abbrev Wt := (⟨2, ![128, 128]⟩ : Shape).Idx → EReal
/-- A per-channel bias `[128]`. -/
abbrev ChanBias := (⟨1, ![128]⟩ : Shape).Idx → EReal
/-- The pair bias `[1, 1, 4, 256, 256]`: per head, query and key, shared by all rows. -/
abbrev PairBias := (⟨5, ![1, 1, 4, 256, 256]⟩ : Shape).Idx → EReal
/-- The row bias `[1, 256, 1, 1, 256]`: per row and key. -/
abbrev RowBias := (⟨5, ![1, 256, 1, 1, 256]⟩ : Shape).Idx → EReal

/-- Column `32·h + d` of the 128 channels: channel `d` of head `h`. -/
def col (h : Fin 4) (d : Fin 32) : Fin 128 := ⟨32 * h.val + d.val, by have := h.isLt; have := d.isLt; omega⟩

/-- The head `j / 32` a column belongs to. -/
def headOf (j : Fin 128) : Fin 4 := ⟨j.val / 32, by have := j.isLt; omega⟩

/-- The scale of the queries: the exact reciprocal of the divisor 11863283/2097152. -/
def scale : EReal := ((2097152 / 11863283 : ℝ) : EReal)

/-- A linear projection without bias: `Σ_i x[0,s,q,i] · w[o,i]`. -/
def proj (x : Act) (w : Wt) (s q : Fin 256) (o : Fin 128) : EReal :=
  ∑ i : Fin 128, x (ix4 0 s q i) * w (ix2 o i)

section
variable (qx kvx : Act) (b1 : PairBias) (b2 : RowBias) (wq wk wv wg : Wt) (bg : ChanBias) (wo : Wt) (bo : ChanBias)

/-- The attention logit of head `h`, query `q`, key `k` in row `s`. -/
def score (s : Fin 256) (h : Fin 4) (q k : Fin 256) : EReal :=
  (∑ d : Fin 32, (proj qx wq s q (col h d) * scale) * proj kvx wk s k (col h d)) + b1 (ix5 0 0 h q k) + b2 (ix5 0 s 0 0 k)

/-- The largest logit over the keys (from `⊥`). -/
def rowMax (s : Fin 256) (h : Fin 4) (q : Fin 256) : EReal :=
  (Finset.univ : Finset (Fin 256)).fold max ⊥ (fun k => score qx kvx b1 b2 wq wk s h q k)

/-- The shifted exponential of a logit. -/
def expo (s : Fin 256) (h : Fin 4) (q k : Fin 256) : EReal :=
  Ideal.exp (score qx kvx b1 b2 wq wk s h q k - rowMax qx kvx b1 b2 wq wk s h q)

/-- The softmax weight of key `k`. -/
def prob (s : Fin 256) (h : Fin 4) (q k : Fin 256) : EReal :=
  Ideal.div (expo qx kvx b1 b2 wq wk s h q k) (∑ k' : Fin 256, expo qx kvx b1 b2 wq wk s h q k')

/-- The sigmoid gate of channel `o`. -/
def gate (s q : Fin 256) (o : Fin 128) : EReal :=
  Ideal.logistic (proj qx wg s q o + bg (ix1 o))

/-- The gated attention output at column `j` (head `j / 32`). -/
def att (s q : Fin 256) (j : Fin 128) : EReal :=
  (∑ k : Fin 256, prob qx kvx b1 b2 wq wk s (headOf j) q k * proj kvx wv s k j) * gate qx wg bg s q j

/-- The whole result array. -/
def out : Act := fun i =>
  (∑ j : Fin 128, att qx kvx b1 b2 wq wk wv wg bg (i 1) (i 2) j * wo (ix2 (i 3) j)) + bo (ix1 (i 3))

end

end Cert.Attn

end
-- ==== Proof.RefAttn.lean ====
/-
  The reference program is the gated multi-head attention of Proof/AttnSpec.lean.

  The reference is a chain of array operations; read at an index, each stage is a closed formula of the argument arrays:
    * the four projections contract the channel axis of an activation with the input axis of a weight: `proj`;
    * a reshape [.., 128] -> [.., 4, 32] followed by the swap of the position and head axes reads column `32·h + d`
      (row-major positions: (s, q, h, d) in [1,256,256,4,32] and (s, q, 32·h + d) in [1,256,256,128] are the same number);
    * the query is divided by the float `0x40B504F3`, which denotes the rational 11863283/2097152; division by a nonzero
      real is multiplication by its reciprocal on every extended real, so the quotient is `proj · scale`;
    * the logits add the pair bias (shared by the rows) and the row bias (shared by heads and queries): `score`;
    * the maximum-reduce over the keys from `-inf` is the fold of `max` from `⊥` over the keys, and the further
      maximum with a `-inf` broadcast is the identity: `rowMax`;
    * exponential of the shifted logits, their sum over the keys from zero, and the quotient: `expo`, `prob`;
    * the weighted sum of the value projections over the keys, with the head axis moved back behind the positions;
    * the gate `1 / (1 + exp (-z))` is the logistic function of `z` by its definition on the extended reals: `gate`;
    * the gating product, the reshape back to 128 columns (column j is channel j % 32 of head j / 32), the output
      projection and its bias: `att`, `out`.
  No law beyond these readings is used: both sides are the same expression, so no finiteness of the inputs is needed.
-/
import proofs.«118972_j22179211116942_2_alg».proof.Proof.Gen.ReferenceIdeal.Read
import proofs.«118972_j22179211116942_2_alg».proof.Proof.AttnSpec

noncomputable section

open scoped BigOperators

namespace Cert.RefAttn

open Cert.ReferenceIdeal Cert.ReferenceIdeal.Gen Cert.ReferenceIdeal.Read Idealize.ShloMosaic Idealize.ShloMosaic.ValueIdx Cert.Attn

/-! ## The float words the reference spells, as the extended reals they denote -/

/-- The divisor `5.65685415…`: sign 0, exponent 129, significand `2^23 + 3474675`, that is `11863283 / 2^21`. -/
theorem ofBits_divisor : Ideal.ofBits .f32 0x40B504F3#32 = ((11863283 / 2097152 : ℝ) : EReal) := by
  simp [Ideal.ofBits, Ideal.ieee, -EReal.coe_mul]; norm_num

/-- The word of `1.0` denotes `1`. -/
theorem ofBits_one : Ideal.ofBits .f32 0x3F800000#32 = 1 := by
  simp [Ideal.ofBits, Ideal.ieee, -EReal.coe_mul]; norm_num

/-- The word of `-inf` denotes the bottom element. -/
theorem ofBits_neg_inf : Ideal.ofBits .f32 0xFF800000#32 = ⊥ := by
  simp [Ideal.ofBits, Ideal.ieee]

/-- Dividing by the divisor is multiplying by the scale, on every extended real. -/
theorem div_divisor (x : EReal) : Ideal.div x (Ideal.ofBits .f32 0x40B504F3#32) = x * scale := by
  rw [ofBits_divisor, Ideal.div_coe (by norm_num)]
  unfold scale
  rw [show ((1 : ℝ) / (11863283 / 2097152)) = 2097152 / 11863283 by norm_num]

/-! ## The four projections: a `dot_general` contracting the channel axis against a weight's input axis -/

theorem lidx_v0 (b : Fin 1) (s q : Fin 256) (o k : Fin 128) : lidx_main_v0 (ix4 b s q o) k = ix4 0 s q k := by
  funext a
  match a with
  | ⟨0, _⟩ => exact Fin.ext (by show b.val = 0; omega)
  | ⟨1, _⟩ => rfl
  | ⟨2, _⟩ => rfl
  | ⟨3, _⟩ => rfl

theorem ridx_v0 (b : Fin 1) (s q : Fin 256) (o k : Fin 128) : ridx_main_v0 (ix4 b s q o) k = ix2 o k := by
  funext a
  match a with
  | ⟨0, _⟩ => rfl
  | ⟨1, _⟩ => rfl

/-- The query projection at (s, q, o). -/
theorem v0_at (x : (⟨S1x256x256x128, .f32⟩ : BufTy).Contents (Elt Ideal)) (w : (⟨S128x128, .f32⟩ : BufTy).Contents (Elt Ideal)) (b : Fin 1) (s q : Fin 256) (o : Fin 128) :
    val_main_v0 (F := Ideal) x w (ix4 b s q o) = proj x w s q o := by
  rw [val_main_v0_apply]
  unfold proj
  refine Finset.sum_congr rfl fun k _ => ?_
  rw [lidx_v0, ridx_v0]

/-- The key projection is the same operation on other operands. -/
theorem v5_at (x : (⟨S1x256x256x128, .f32⟩ : BufTy).Contents (Elt Ideal)) (w : (⟨S128x128, .f32⟩ : BufTy).Contents (Elt Ideal)) (b : Fin 1) (s q : Fin 256) (o : Fin 128) :
    val_main_v5 (F := Ideal) x w (ix4 b s q o) = proj x w s q o := v0_at x w b s q o
/-- So is the value projection … -/
theorem v8_at (x : (⟨S1x256x256x128, .f32⟩ : BufTy).Contents (Elt Ideal)) (w : (⟨S128x128, .f32⟩ : BufTy).Contents (Elt Ideal)) (b : Fin 1) (s q : Fin 256) (o : Fin 128) :
    val_main_v8 (F := Ideal) x w (ix4 b s q o) = proj x w s q o := v0_at x w b s q o
/-- … and the gate's. -/
theorem v29_at (x : (⟨S1x256x256x128, .f32⟩ : BufTy).Contents (Elt Ideal)) (w : (⟨S128x128, .f32⟩ : BufTy).Contents (Elt Ideal)) (b : Fin 1) (s q : Fin 256) (o : Fin 128) :
    val_main_v29 (F := Ideal) x w (ix4 b s q o) = proj x w s q o := v0_at x w b s q o

/-! ## Splitting the 128 channels into 4 heads of 32: reshape, then swap the position and head axes -/

theorem idx_v2 (b : Fin 1) (s : Fin 256) (h : Fin 4) (q : Fin 256) (d : Fin 32) :
    idx_main_v2 (ix5 b s h q d) = ix5 b s q h d := by
  funext a
  match a with
  | ⟨0, _⟩ => rfl
  | ⟨1, _⟩ => rfl
  | ⟨2, _⟩ => rfl
  | ⟨3, _⟩ => rfl
  | ⟨4, _⟩ => rfl

/-- Row-major position of (s, q, h, d) in [1,256,256,4,32] is that of (s, q, 32h + d) in [1,256,256,128]. -/
theorem idx_v1 (b : Fin 1) (s q : Fin 256) (h : Fin 4) (d : Fin 32) :
    idx_main_v1 (ix5 b s q h d) = ix4 0 s q (col h d) := by
  have hb := b.isLt; have hs := s.isLt; have hq := q.isLt; have hh := h.isLt; have hd := d.isLt
  funext a
  match a with
  | ⟨0, _⟩ => rfl
  | ⟨1, _⟩ => exact Fin.ext (by show ((((b.val * 256 + s.val) * 256 + q.val) * 4 + h.val) * 32 + d.val) / 32768 % 256 = s.val; omega)
  | ⟨2, _⟩ => exact Fin.ext (by show ((((b.val * 256 + s.val) * 256 + q.val) * 4 + h.val) * 32 + d.val) / 128 % 256 = q.val; omega)
  | ⟨3, _⟩ => exact Fin.ext (by show ((((b.val * 256 + s.val) * 256 + q.val) * 4 + h.val) * 32 + d.val) % 128 = 32 * h.val + d.val; omega)

/-- A head-split projection at (s, h, q, d) is the projection at column `32h + d`. -/
theorem v2_at (x : (⟨S1x256x256x128, .f32⟩ : BufTy).Contents (Elt Ideal)) (w : (⟨S128x128, .f32⟩ : BufTy).Contents (Elt Ideal)) (b : Fin 1) (s : Fin 256) (h : Fin 4) (q : Fin 256) (d : Fin 32) :
    val_main_v2 (F := Ideal) x w (ix5 b s h q d) = proj x w s q (col h d) := by
  rw [val_main_v2_apply, val_main_v1_apply, idx_v2, idx_v1, v0_at]

theorem v7_at (x : (⟨S1x256x256x128, .f32⟩ : BufTy).Contents (Elt Ideal)) (w : (⟨S128x128, .f32⟩ : BufTy).Contents (Elt Ideal)) (b : Fin 1) (s : Fin 256) (h : Fin 4) (q : Fin 256) (d : Fin 32) :
    val_main_v7 (F := Ideal) x w (ix5 b s h q d) = proj x w s q (col h d) := v2_at x w b s h q d
theorem v10_at (x : (⟨S1x256x256x128, .f32⟩ : BufTy).Contents (Elt Ideal)) (w : (⟨S128x128, .f32⟩ : BufTy).Contents (Elt Ideal)) (b : Fin 1) (s : Fin 256) (h : Fin 4) (q : Fin 256) (d : Fin 32) :
    val_main_v10 (F := Ideal) x w (ix5 b s h q d) = proj x w s q (col h d) := v2_at x w b s h q d

/-- The scaled query: the quotient by the divisor is the product with the scale. -/
theorem v4_at (x : (⟨S1x256x256x128, .f32⟩ : BufTy).Contents (Elt Ideal)) (w : (⟨S128x128, .f32⟩ : BufTy).Contents (Elt Ideal)) (b : Fin 1) (s : Fin 256) (h : Fin 4) (q : Fin 256) (d : Fin 32) :
    val_main_v4 (F := Ideal) x w (ix5 b s h q d) = proj x w s q (col h d) * scale := by
  rw [val_main_v4_apply, v2_at, val_main_v3_apply, val_main_cst_apply, Ideal.hostDivf_def, Ideal.ofBits_def, div_divisor]

/-! ## The logits -/

theorem lidx_v11 (b : Fin 1) (s : Fin 256) (h : Fin 4) (q k : Fin 256) (d : Fin 32) :
    lidx_main_v11 (ix5 b s h q k) d = ix5 b s h q d := by
  funext a
  match a with
  | ⟨0, _⟩ => rfl
  | ⟨1, _⟩ => rfl
  | ⟨2, _⟩ => rfl
  | ⟨3, _⟩ => rfl
  | ⟨4, _⟩ => rfl

theorem ridx_v11 (b : Fin 1) (s : Fin 256) (h : Fin 4) (q k : Fin 256) (d : Fin 32) :
    ridx_main_v11 (ix5 b s h q k) d = ix5 b s h k d := by
  funext a
  match a with
  | ⟨0, _⟩ => rfl
  | ⟨1, _⟩ => rfl
  | ⟨2, _⟩ => rfl
  | ⟨3, _⟩ => rfl
  | ⟨4, _⟩ => rfl

/-- The pair bias is shared by all rows … -/
theorem idx_v12 (b : Fin 1) (s : Fin 256) (h : Fin 4) (q k : Fin 256) :
    idx_main_v12 (ix5 b s h q k) = ix5 0 0 h q k := by
  funext a
  match a with
  | ⟨0, _⟩ => rfl
  | ⟨1, _⟩ => rfl
  | ⟨2, _⟩ => rfl
  | ⟨3, _⟩ => rfl
  | ⟨4, _⟩ => rfl

/-- … and the row bias by all heads and queries. -/
theorem idx_v14 (b : Fin 1) (s : Fin 256) (h : Fin 4) (q k : Fin 256) :
    idx_main_v14 (ix5 b s h q k) = ix5 0 s 0 0 k := by
  funext a
  match a with
  | ⟨0, _⟩ => rfl
  | ⟨1, _⟩ => rfl
  | ⟨2, _⟩ => rfl
  | ⟨3, _⟩ => rfl
  | ⟨4, _⟩ => rfl

/-- The logit of head `h`, query `q`, key `k` in row `s`. -/
theorem v15_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q k : Fin 256) :
    val_main_v15 (F := Ideal) x0 x1 x2 x3 x4 x5 (ix5 b s h q k) = score x0 x1 x2 x3 x4 x5 s h q k := by
  rw [val_main_v15_apply, val_main_v13_apply, val_main_v11_apply, val_main_v12_apply, val_main_v14_apply, idx_v12, idx_v14,
    Ideal.addf_def, Ideal.addf_def]
  unfold score
  refine congrArg (· + x3 (ix5 0 s 0 0 k)) (congrArg (· + x2 (ix5 0 0 h q k)) (Finset.sum_congr rfl fun d _ => ?_))
  rw [lidx_v11, ridx_v11, v4_at, v7_at]

/-! ## The largest logit over the keys -/

/-- Dropping the key axis of [1,256,4,256,256] leaves [1,256,4,256]. -/
theorem reduces_keys : S1x256x4x256x256.Reduces [4] S1x256x4x256 := by decide

/-- The reduced index (s, h, q) with key `k` put back is (s, h, q, k). -/
theorem lift_keys (hR : S1x256x4x256x256.Reduces [4] S1x256x4x256) (b : Fin 1) (s : Fin 256) (h : Fin 4) (q : Fin 256)
    (k : Fin (S1x256x4x256x256.size 4)) :
    hR.lift (ix4 b s h q) k = ix5 b s h q (⟨k.val, k.isLt⟩ : Fin 256) := by
  funext c; apply Fin.ext
  fin_cases c <;> rfl

/-- A maximum-reduce from `-inf` over the keys is the fold of `max` from the bottom element over them. -/
theorem reduce_max_at (y : FVec Ideal S1x256x4x256x256 .f32) (b : Fin 1) (s : Fin 256) (h : Fin 4) (q : Fin 256) :
    Host.reduce (FloatOps.maximumf (F := Ideal) (φ := .f32)) y (val_main_cst_0 (F := Ideal)) reducesTo_S1x256x4x256x256_S1x256x4x256_d4 h_S_ (ix4 b s h q)
      = (Finset.univ : Finset (Fin 256)).fold max ⊥ (fun k => y (ix5 b s h q k)) := by
  rw [Host.reduce_eq_fold_single (FloatOps.maximumf (F := Ideal) (φ := .f32)) y _ reducesTo_S1x256x4x256x256_S1x256x4x256_d4 reduces_keys h_S_]
  have hc : val_main_cst_0 (F := Ideal) (Shape.Idx.first h_S_) = ⊥ := by
    rw [val_main_cst_0_apply, Ideal.ofBits_def, ofBits_neg_inf]
  rw [hc]
  have hf : (y ∘ reduces_keys.lift (ix4 b s h q)) = fun k : Fin 256 => y (ix5 b s h q k) :=
    funext fun k => congrArg y (lift_keys reduces_keys b s h q k)
  exact congrArg (fun f => Finset.fold max (⊥ : EReal) f (Finset.univ : Finset (Fin 256))) hf

theorem v16_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q : Fin 256) :
    val_main_v16 (F := Ideal) x0 x1 x2 x3 x4 x5 (ix4 b s h q) = rowMax x0 x1 x2 x3 x4 x5 s h q := by
  unfold val_main_v16
  rw [reduce_max_at]
  unfold rowMax
  simp only [v15_at]

/-- The further maximum with a `-inf` broadcast changes nothing. -/
theorem v18_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q : Fin 256) :
    val_main_v18 (F := Ideal) x0 x1 x2 x3 x4 x5 (ix4 b s h q) = rowMax x0 x1 x2 x3 x4 x5 s h q := by
  rw [val_main_v18_apply, val_main_v17_apply, val_main_cst_1_apply, v16_at, Ideal.maximumf_def, Ideal.ofBits_def, ofBits_neg_inf,
    max_bot_left]

/-! ## The softmax over the keys -/

/-- A keepdims column broadcast back along the keys reads the column's entry. -/
theorem idx_v19_v20 (b : Fin 1) (s : Fin 256) (h : Fin 4) (q k : Fin 256) :
    idx_main_v19 (idx_main_v20 (ix5 b s h q k)) = ix4 0 s h q := by
  funext a
  match a with
  | ⟨0, _⟩ => rfl
  | ⟨1, _⟩ => rfl
  | ⟨2, _⟩ => rfl
  | ⟨3, _⟩ => rfl

theorem idx_v24_v25 (b : Fin 1) (s : Fin 256) (h : Fin 4) (q k : Fin 256) :
    idx_main_v24 (idx_main_v25 (ix5 b s h q k)) = ix4 0 s h q := idx_v19_v20 b s h q k

theorem v20_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q k : Fin 256) :
    val_main_v20 (F := Ideal) x0 x1 x2 x3 x4 x5 (ix5 b s h q k) = rowMax x0 x1 x2 x3 x4 x5 s h q := by
  rw [val_main_v20_apply, val_main_v19_apply, idx_v19_v20, v18_at]

/-- The shifted exponential. -/
theorem v22_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q k : Fin 256) :
    val_main_v22 (F := Ideal) x0 x1 x2 x3 x4 x5 (ix5 b s h q k) = expo x0 x1 x2 x3 x4 x5 s h q k := by
  rw [val_main_v22_apply, val_main_v21_apply, v15_at, v20_at, Ideal.hostUnary_exp_def, Ideal.subf_def]
  rfl

theorem idx_v23 (b : Fin 1) (s : Fin 256) (h : Fin 4) (q k : Fin 256) :
    idx_main_v23 (ix4 b s h q) k = ix5 b s h q k := by
  funext a
  match a with
  | ⟨0, _⟩ => rfl
  | ⟨1, _⟩ => rfl
  | ⟨2, _⟩ => rfl
  | ⟨3, _⟩ => rfl
  | ⟨4, _⟩ => rfl

/-- The normalizer: the sum (from zero) of the shifted exponentials over the keys. -/
theorem v23_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q : Fin 256) :
    val_main_v23 (F := Ideal) x0 x1 x2 x3 x4 x5 (ix4 b s h q) = ∑ k : Fin 256, expo x0 x1 x2 x3 x4 x5 s h q k := by
  rw [val_main_v23_apply, val_main_cst_2_apply, Ideal.ofBits_def, Ideal.ofBits_zero_f32, zero_add]
  refine Finset.sum_congr rfl fun k _ => ?_
  rw [idx_v23, v22_at]

/-- The softmax weight. -/
theorem v26_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 : (⟨S128x128, .f32⟩ : BufTy).Contents (Elt Ideal))
    (b : Fin 1) (s : Fin 256) (h : Fin 4) (q k : Fin 256) :
    val_main_v26 (F := Ideal) x0 x1 x2 x3 x4 x5 (ix5 b s h q k) = prob x0 x1 x2 x3 x4 x5 s h q k := by
  rw [val_main_v26_apply, val_main_v25_apply, val_main_v24_apply, idx_v24_v25, v22_at, v23_at, Ideal.hostDivf_def]
  rfl

/-! ## The weighted values -/

theorem lidx_v27 (b : Fin 1) (s : Fin 256) (h : Fin 4) (q : Fin 256) (d : Fin 32) (k : Fin 256) :
    lidx_main_v27 (ix5 b s h q d) k = ix5 b s h q k := by
  funext a
  match a with
  | ⟨0, _⟩ => rfl
  | ⟨1, _⟩ => rfl
  | ⟨2, _⟩ => rfl
  | ⟨3, _⟩ => rfl
  | ⟨4, _⟩ => rfl

theorem ridx_v27 (b : Fin 1) (s : Fin 256) (h : Fin 4) (q : Fin 256) (d : Fin 32) (k : Fin 256) :
    ridx_main_v27 (ix5 b s h q d) k = ix5 b s h k d := by
  funext a
  match a with
  | ⟨0, _⟩ => rfl
  | ⟨1, _⟩ => rfl
  | ⟨2, _⟩ => rfl
  | ⟨3, _⟩ => rfl
  | ⟨4, _⟩ => rfl

theorem v27_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 x6 : (⟨S128x128, .f32⟩ : BufTy).Contents (Elt Ideal))
    (b : Fin 1) (s : Fin 256) (h : Fin 4) (q : Fin 256) (d : Fin 32) :
    val_main_v27 (F := Ideal) x0 x1 x2 x3 x4 x5 x6 (ix5 b s h q d)
      = ∑ k : Fin 256, prob x0 x1 x2 x3 x4 x5 s h q k * proj x1 x6 s k (col h d) := by
  rw [val_main_v27_apply]
  refine Finset.sum_congr rfl fun k _ => ?_
  rw [lidx_v27, ridx_v27, v26_at, v10_at]

theorem idx_v28 (b : Fin 1) (s q : Fin 256) (h : Fin 4) (d : Fin 32) :
    idx_main_v28 (ix5 b s q h d) = ix5 b s h q d := by
  funext a
  match a with
  | ⟨0, _⟩ => rfl
  | ⟨1, _⟩ => rfl
  | ⟨2, _⟩ => rfl
  | ⟨3, _⟩ => rfl
  | ⟨4, _⟩ => rfl

/-- Back to positions before heads. -/
theorem v28_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 x6 : (⟨S128x128, .f32⟩ : BufTy).Contents (Elt Ideal))
    (b : Fin 1) (s q : Fin 256) (h : Fin 4) (d : Fin 32) :
    val_main_v28 (F := Ideal) x0 x1 x2 x3 x4 x5 x6 (ix5 b s q h d)
      = ∑ k : Fin 256, prob x0 x1 x2 x3 x4 x5 s h q k * proj x1 x6 s k (col h d) := by
  rw [val_main_v28_apply, idx_v28, v27_at]

/-! ## The gate: `1 / (1 + exp (-z))` is the logistic function, by definition -/

theorem idx_v30_v31 (b : Fin 1) (s q : Fin 256) (o : Fin 128) :
    idx_main_v30 (idx_main_v31 (ix4 b s q o)) = ix1 o := by
  funext a
  match a with
  | ⟨0, _⟩ => rfl

theorem idx_v43_v44 (b : Fin 1) (s q : Fin 256) (o : Fin 128) :
    idx_main_v43 (idx_main_v44 (ix4 b s q o)) = ix1 o := idx_v30_v31 b s q o

theorem v32_at (x0 : (⟨S1x256x256x128, .f32⟩ : BufTy).Contents (Elt Ideal)) (x7 : (⟨S128x128, .f32⟩ : BufTy).Contents (Elt Ideal)) (x8 : (⟨S128, .f32⟩ : BufTy).Contents (Elt Ideal)) (b : Fin 1) (s q : Fin 256) (o : Fin 128) :
    val_main_v32 (F := Ideal) x0 x7 x8 (ix4 b s q o) = proj x0 x7 s q o + x8 (ix1 o) := by
  rw [val_main_v32_apply, val_main_v31_apply, val_main_v30_apply, idx_v30_v31, v29_at, Ideal.addf_def]

theorem v38_at (x0 : (⟨S1x256x256x128, .f32⟩ : BufTy).Contents (Elt Ideal)) (x7 : (⟨S128x128, .f32⟩ : BufTy).Contents (Elt Ideal)) (x8 : (⟨S128, .f32⟩ : BufTy).Contents (Elt Ideal)) (b : Fin 1) (s q : Fin 256) (o : Fin 128) :
    val_main_v38 (F := Ideal) x0 x7 x8 (ix4 b s q o) = gate x0 x7 x8 s q o := by
  rw [val_main_v38_apply, val_main_v37_apply, val_main_cst_4_apply, val_main_v36_apply, val_main_v35_apply, val_main_cst_3_apply,
    val_main_v34_apply, val_main_v33_apply, v32_at, Ideal.hostDivf_def, Ideal.addf_def, Ideal.hostUnary_exp_def, Ideal.hostNegf_def,
    Ideal.negf_def, Ideal.ofBits_def, ofBits_one]
  rfl

theorem idx_v39 (b : Fin 1) (s q : Fin 256) (h : Fin 4) (d : Fin 32) :
    idx_main_v39 (ix5 b s q h d) = ix4 0 s q (col h d) := idx_v1 b s q h d

theorem v39_at (x0 : (⟨S1x256x256x128, .f32⟩ : BufTy).Contents (Elt Ideal)) (x7 : (⟨S128x128, .f32⟩ : BufTy).Contents (Elt Ideal)) (x8 : (⟨S128, .f32⟩ : BufTy).Contents (Elt Ideal)) (b : Fin 1) (s q : Fin 256) (h : Fin 4) (d : Fin 32) :
    val_main_v39 (F := Ideal) x0 x7 x8 (ix5 b s q h d) = gate x0 x7 x8 s q (col h d) := by
  rw [val_main_v39_apply, idx_v39, v38_at]

/-! ## Gating, merging the heads back into 128 columns, the output projection and its bias -/

theorem v40_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 x6 x7 : (⟨S128x128, .f32⟩ : BufTy).Contents (Elt Ideal)) (x8 : (⟨S128, .f32⟩ : BufTy).Contents (Elt Ideal))
    (b : Fin 1) (s q : Fin 256) (h : Fin 4) (d : Fin 32) :
    val_main_v40 (F := Ideal) x0 x1 x2 x3 x4 x5 x6 x7 x8 (ix5 b s q h d)
      = (∑ k : Fin 256, prob x0 x1 x2 x3 x4 x5 s h q k * proj x1 x6 s k (col h d)) * gate x0 x7 x8 s q (col h d) := by
  rw [val_main_v40_apply, v28_at, v39_at, Ideal.mulf_def]

/-- The channel of column `j` inside its head. -/
def chanOf (j : Fin 128) : Fin 32 := ⟨j.val % 32, Nat.mod_lt _ (by decide)⟩

/-- Column `j` is channel `j % 32` of head `j / 32`. -/
theorem col_headOf (j : Fin 128) : col (headOf j) (chanOf j) = j :=
  Fin.ext (by show 32 * (j.val / 32) + j.val % 32 = j.val; omega)

/-- Row-major position of (s, q, j) in [1,256,256,128] is that of (s, q, j / 32, j % 32) in [1,256,256,4,32]. -/
theorem idx_v41 (b : Fin 1) (s q : Fin 256) (j : Fin 128) :
    idx_main_v41 (ix4 b s q j) = ix5 0 s q (headOf j) (chanOf j) := by
  have hb := b.isLt; have hs := s.isLt; have hq := q.isLt; have hj := j.isLt
  funext a
  match a with
  | ⟨0, _⟩ => rfl
  | ⟨1, _⟩ => exact Fin.ext (by show (((b.val * 256 + s.val) * 256 + q.val) * 128 + j.val) / 32768 % 256 = s.val; omega)
  | ⟨2, _⟩ => exact Fin.ext (by show (((b.val * 256 + s.val) * 256 + q.val) * 128 + j.val) / 128 % 256 = q.val; omega)
  | ⟨3, _⟩ => exact Fin.ext (by show (((b.val * 256 + s.val) * 256 + q.val) * 128 + j.val) / 32 % 4 = j.val / 32; omega)
  | ⟨4, _⟩ => exact Fin.ext (by show (((b.val * 256 + s.val) * 256 + q.val) * 128 + j.val) % 32 = j.val % 32; omega)

/-- The gated attention output at column `j`. -/
theorem v41_at (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 x6 x7 : (⟨S128x128, .f32⟩ : BufTy).Contents (Elt Ideal)) (x8 : (⟨S128, .f32⟩ : BufTy).Contents (Elt Ideal))
    (b : Fin 1) (s q : Fin 256) (j : Fin 128) :
    val_main_v41 (F := Ideal) x0 x1 x2 x3 x4 x5 x6 x7 x8 (ix4 b s q j) = att x0 x1 x2 x3 x4 x5 x6 x7 x8 s q j := by
  rw [val_main_v41_apply, idx_v41, v40_at, col_headOf]
  rfl

theorem lidx_v42 (b : Fin 1) (s q : Fin 256) (o k : Fin 128) : lidx_main_v42 (ix4 b s q o) k = ix4 0 s q k :=
  lidx_v0 b s q o k
theorem ridx_v42 (b : Fin 1) (s q : Fin 256) (o k : Fin 128) : ridx_main_v42 (ix4 b s q o) k = ix2 o k :=
  ridx_v0 b s q o k

/-- The reference's result is the specification's, index by index. -/
theorem result_eq (x0 x1 : (⟨S1x256x256x128, .f32⟩ : BufTy).Contents (Elt Ideal)) (x2 : (⟨S1x1x4x256x256, .f32⟩ : BufTy).Contents (Elt Ideal)) (x3 : (⟨S1x256x1x1x256, .f32⟩ : BufTy).Contents (Elt Ideal)) (x4 x5 x6 x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Cert.ReferenceIdeal.Read.val_main_v45 (F := Ideal) x0 x1 x2 x3 x4 x5 x6 x7 x8 x9 x10 = Cert.Attn.out x0 x1 x2 x3 x4 x5 x6 x7 x8 x9 x10 := by
  funext i
  obtain ⟨b, s, q, c, rfl⟩ : ∃ (b : Fin 1) (s q : Fin 256) (c : Fin 128), i = ix4 b s q c := ⟨i 0, i 1, i 2, i 3, eq_ix4 i⟩
  rw [val_main_v45_apply, val_main_v44_apply, val_main_v43_apply, idx_v43_v44, val_main_v42_apply, Ideal.addf_def]
  show _ = (∑ j : Fin 128, att x0 x1 x2 x3 x4 x5 x6 x7 x8 s q j * x9 (ix2 c j)) + x10 (ix1 c)
  refine congrArg (· + x10 (ix1 c)) (Finset.sum_congr rfl fun j _ => ?_)
  rw [lidx_v42, ridx_v42, v41_at]

end Cert.RefAttn

end
-- ==== Proof.KMat.lean ====
/-
  The kernel's four matrix products read at an entry, over the extended reals: each is a plain
  [m, k] × [k, n] product into a zero accumulator, so entry (r, c) is Σ_k a[r, k] · b[k, c].
  (The contraction index of a product with one contracted axis is that axis's coordinate.)
-/
import proofs.«118972_j22179211116942_2_alg».proof.Proof.Gen.KernelIdeal
import Idealize.ShloMosaic.Lib.ValueIdx
import Idealize.ShloMosaic.PureOps.Ideal.Laws

noncomputable section

open scoped BigOperators

namespace Cert.AttnK

open Idealize.ShloMosaic Idealize.ShloMosaic.ValueIdx Cert.KernelIdeal

/-! ### `dot_S4096x128_S128x256_S4096x256_1_0_0_1_n_n`: a plain [4096, 128] × [128, 256] product -/

theorem mmProj_lhs0 (j : S4096x256.Idx) (q : dot_S4096x128_S128x256_S4096x256_1_0_0_1_n_n.contr.Idx) : (dot_S4096x128_S128x256_S4096x256_1_0_0_1_n_n.lhsIdx j q 0).val = (j 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem mmProj_lhs1 (j : S4096x256.Idx) (q : dot_S4096x128_S128x256_S4096x256_1_0_0_1_n_n.contr.Idx) : (dot_S4096x128_S128x256_S4096x256_1_0_0_1_n_n.lhsIdx j q 1).val = (q ⟨0, by decide⟩).val :=
  dot_S4096x128_S128x256_S4096x256_1_0_0_1_n_n.lhsIdx_val_of_single rfl j q
theorem mmProj_rhs0 (j : S4096x256.Idx) (q : dot_S4096x128_S128x256_S4096x256_1_0_0_1_n_n.contr.Idx) : (dot_S4096x128_S128x256_S4096x256_1_0_0_1_n_n.rhsIdx j q 0).val = (q ⟨0, by decide⟩).val :=
  dot_S4096x128_S128x256_S4096x256_1_0_0_1_n_n.rhsIdx_val_of_single rfl j q
theorem mmProj_rhs1 (j : S4096x256.Idx) (q : dot_S4096x128_S128x256_S4096x256_1_0_0_1_n_n.contr.Idx) : (dot_S4096x128_S128x256_S4096x256_1_0_0_1_n_n.rhsIdx j q 1).val = (j 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- Entry (r, c) of the product into a zero accumulator is the sum over the contracted axis of row r times column c. -/
theorem mmProj_apply {φ₁ φ₂ : FTy} (a : FVec Ideal S4096x128 φ₁) (b : FVec Ideal S128x256 φ₂) (r : Fin 4096) (c : Fin 256) :
    matmul dot_S4096x128_S128x256_S4096x256_1_0_0_1_n_n none a b (constant S4096x256 .f32 0x00000000#32) (ix2 r c) = ∑ k : Fin 128, a (ix2 r k) * b (ix2 k c) := by
  show FloatOps.matmul dot_S4096x128_S128x256_S4096x256_1_0_0_1_n_n none a b (constant S4096x256 .f32 0x00000000#32) (ix2 r c) = _
  rw [Ideal.matmul_constant_zero_apply, ← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 r c) ((ValueIdx.contrEquiv1 dot_S4096x128_S128x256_S4096x256_1_0_0_1_n_n 128 rfl rfl).symm k) = ix2 r k := funext fun a => Fin.ext (by
    match a with
    | ⟨0, _⟩ => exact mmProj_lhs0 _ _
    | ⟨1, _⟩ => exact (mmProj_lhs1 _ _).trans hk)
  have er : dot_S4096x128_S128x256_S4096x256_1_0_0_1_n_n.rhsIdx (ix2 r c) ((ValueIdx.contrEquiv1 dot_S4096x128_S128x256_S4096x256_1_0_0_1_n_n 128 rfl rfl).symm k) = ix2 k c := funext fun a => Fin.ext (by
    match a with
    | ⟨0, _⟩ => exact (mmProj_rhs0 _ _).trans hk
    | ⟨1, _⟩ => exact mmProj_rhs1 _ _)
  rw [el, er]

/-! ### `dot_S4096x128_S128x128_S4096x128_1_0_0_1_n_n`: a plain [4096, 128] × [128, 128] product -/

theorem mmOut_lhs0 (j : S4096x128.Idx) (q : dot_S4096x128_S128x128_S4096x128_1_0_0_1_n_n.contr.Idx) : (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem mmOut_lhs1 (j : S4096x128.Idx) (q : dot_S4096x128_S128x128_S4096x128_1_0_0_1_n_n.contr.Idx) : (dot_S4096x128_S128x128_S4096x128_1_0_0_1_n_n.lhsIdx j q 1).val = (q ⟨0, by decide⟩).val :=
  dot_S4096x128_S128x128_S4096x128_1_0_0_1_n_n.lhsIdx_val_of_single rfl j q
theorem mmOut_rhs0 (j : S4096x128.Idx) (q : dot_S4096x128_S128x128_S4096x128_1_0_0_1_n_n.contr.Idx) : (dot_S4096x128_S128x128_S4096x128_1_0_0_1_n_n.rhsIdx j q 0).val = (q ⟨0, by decide⟩).val :=
  dot_S4096x128_S128x128_S4096x128_1_0_0_1_n_n.rhsIdx_val_of_single rfl j q
theorem mmOut_rhs1 (j : S4096x128.Idx) (q : dot_S4096x128_S128x128_S4096x128_1_0_0_1_n_n.contr.Idx) : (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Entry (r, c) of the product into a zero accumulator is the sum over the contracted axis of row r times column c. -/
theorem mmOut_apply {φ₁ φ₂ : FTy} (a : FVec Ideal S4096x128 φ₁) (b : FVec Ideal S128x128 φ₂) (r : Fin 4096) (c : Fin 128) :
    matmul dot_S4096x128_S128x128_S4096x128_1_0_0_1_n_n none a b (constant S4096x128 .f32 0x00000000#32) (ix2 r c) = ∑ k : Fin 128, a (ix2 r k) * b (ix2 k c) := by
  show FloatOps.matmul dot_S4096x128_S128x128_S4096x128_1_0_0_1_n_n none a b (constant S4096x128 .f32 0x00000000#32) (ix2 r c) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r c) ((ValueIdx.contrEquiv1 dot_S4096x128_S128x128_S4096x128_1_0_0_1_n_n 128 rfl rfl).symm k) = ix2 r k := funext fun a => Fin.ext (by
    match a with
    | ⟨0, _⟩ => exact mmOut_lhs0 _ _
    | ⟨1, _⟩ => exact (mmOut_lhs1 _ _).trans hk)
  have er : dot_S4096x128_S128x128_S4096x128_1_0_0_1_n_n.rhsIdx (ix2 r c) ((ValueIdx.contrEquiv1 dot_S4096x128_S128x128_S4096x128_1_0_0_1_n_n 128 rfl rfl).symm k) = ix2 k c := funext fun a => Fin.ext (by
    match a with
    | ⟨0, _⟩ => exact (mmOut_rhs0 _ _).trans hk
    | ⟨1, _⟩ => exact mmOut_rhs1 _ _)
  rw [el, er]

/-! ### `dot_S256x32_S32x256_S256x256_1_0_0_1_n_n`: a plain [256, 32] × [32, 256] product -/

theorem mmQK_lhs0 (j : S256x256.Idx) (q : dot_S256x32_S32x256_S256x256_1_0_0_1_n_n.contr.Idx) : (dot_S256x32_S32x256_S256x256_1_0_0_1_n_n.lhsIdx j q 0).val = (j 0).val := by
  unfold DotDims.lhsIdx
  rw [dif_neg (show ¬(0 : Fin S256x32.rank) ∈ dot_S256x32_S32x256_S256x256_1_0_0_1_n_n.lhsBatch by decide), dif_pos (show (0 : Fin S256x32.rank) ∈ dot_S256x32_S32x256_S256x256_1_0_0_1_n_n.lhsNonContracting by decide)]
  rfl
theorem mmQK_lhs1 (j : S256x256.Idx) (q : dot_S256x32_S32x256_S256x256_1_0_0_1_n_n.contr.Idx) : (dot_S256x32_S32x256_S256x256_1_0_0_1_n_n.lhsIdx j q 1).val = (q ⟨0, by decide⟩).val :=
  dot_S256x32_S32x256_S256x256_1_0_0_1_n_n.lhsIdx_val_of_single rfl j q
theorem mmQK_rhs0 (j : S256x256.Idx) (q : dot_S256x32_S32x256_S256x256_1_0_0_1_n_n.contr.Idx) : (dot_S256x32_S32x256_S256x256_1_0_0_1_n_n.rhsIdx j q 0).val = (q ⟨0, by decide⟩).val :=
  dot_S256x32_S32x256_S256x256_1_0_0_1_n_n.rhsIdx_val_of_single rfl j q
theorem mmQK_rhs1 (j : S256x256.Idx) (q : dot_S256x32_S32x256_S256x256_1_0_0_1_n_n.contr.Idx) : (dot_S256x32_S32x256_S256x256_1_0_0_1_n_n.rhsIdx j q 1).val = (j 1).val := by
  unfold DotDims.rhsIdx
  rw [dif_neg (show ¬(1 : Fin S32x256.rank) ∈ dot_S256x32_S32x256_S256x256_1_0_0_1_n_n.rhsBatch by decide), dif_pos (show (1 : Fin S32x256.rank) ∈ dot_S256x32_S32x256_S256x256_1_0_0_1_n_n.rhsNonContracting by decide)]
  rfl

/-- Entry (r, c) of the product into a zero accumulator is the sum over the contracted axis of row r times column c. -/
theorem mmQK_apply {φ₁ φ₂ : FTy} (a : FVec Ideal S256x32 φ₁) (b : FVec Ideal S32x256 φ₂) (r : Fin 256) (c : Fin 256) :
    matmul dot_S256x32_S32x256_S256x256_1_0_0_1_n_n none a b (constant S256x256 .f32 0x00000000#32) (ix2 r c) = ∑ k : Fin 32, a (ix2 r k) * b (ix2 k c) := by
  show FloatOps.matmul dot_S256x32_S32x256_S256x256_1_0_0_1_n_n none a b (constant S256x256 .f32 0x00000000#32) (ix2 r c) = _
  rw [Ideal.matmul_constant_zero_apply, ← Equiv.sum_comp (ValueIdx.contrEquiv1 dot_S256x32_S32x256_S256x256_1_0_0_1_n_n 32 rfl rfl).symm]
  refine Finset.sum_congr rfl fun k _ => ?_
  have hk := ValueIdx.contrEquiv1_symm_val dot_S256x32_S32x256_S256x256_1_0_0_1_n_n 32 rfl rfl k
  have el : dot_S256x32_S32x256_S256x256_1_0_0_1_n_n.lhsIdx (ix2 r c) ((ValueIdx.contrEquiv1 dot_S256x32_S32x256_S256x256_1_0_0_1_n_n 32 rfl rfl).symm k) = ix2 r k := funext fun a => Fin.ext (by
    match a with
    | ⟨0, _⟩ => exact mmQK_lhs0 _ _
    | ⟨1, _⟩ => exact (mmQK_lhs1 _ _).trans hk)
  have er : dot_S256x32_S32x256_S256x256_1_0_0_1_n_n.rhsIdx (ix2 r c) ((ValueIdx.contrEquiv1 dot_S256x32_S32x256_S256x256_1_0_0_1_n_n 32 rfl rfl).symm k) = ix2 k c := funext fun a => Fin.ext (by
    match a with
    | ⟨0, _⟩ => exact (mmQK_rhs0 _ _).trans hk
    | ⟨1, _⟩ => exact mmQK_rhs1 _ _)
  rw [el, er]

/-! ### `dot_S256x256_S256x32_S256x32_1_0_0_1_n_n`: a plain [256, 256] × [256, 32] product -/

theorem mmPV_lhs0 (j : S256x32.Idx) (q : dot_S256x256_S256x32_S256x32_1_0_0_1_n_n.contr.Idx) : (dot_S256x256_S256x32_S256x32_1_0_0_1_n_n.lhsIdx j q 0).val = (j 0).val := by
  unfold DotDims.lhsIdx
  rw [dif_neg (show ¬(0 : Fin S256x256.rank) ∈ dot_S256x256_S256x32_S256x32_1_0_0_1_n_n.lhsBatch by decide), dif_pos (show (0 : Fin S256x256.rank) ∈ dot_S256x256_S256x32_S256x32_1_0_0_1_n_n.lhsNonContracting by decide)]
  rfl
theorem mmPV_lhs1 (j : S256x32.Idx) (q : dot_S256x256_S256x32_S256x32_1_0_0_1_n_n.contr.Idx) : (dot_S256x256_S256x32_S256x32_1_0_0_1_n_n.lhsIdx j q 1).val = (q ⟨0, by decide⟩).val :=
  dot_S256x256_S256x32_S256x32_1_0_0_1_n_n.lhsIdx_val_of_single rfl j q
theorem mmPV_rhs0 (j : S256x32.Idx) (q : dot_S256x256_S256x32_S256x32_1_0_0_1_n_n.contr.Idx) : (dot_S256x256_S256x32_S256x32_1_0_0_1_n_n.rhsIdx j q 0).val = (q ⟨0, by decide⟩).val :=
  dot_S256x256_S256x32_S256x32_1_0_0_1_n_n.rhsIdx_val_of_single rfl j q
theorem mmPV_rhs1 (j : S256x32.Idx) (q : dot_S256x256_S256x32_S256x32_1_0_0_1_n_n.contr.Idx) : (dot_S256x256_S256x32_S256x32_1_0_0_1_n_n.rhsIdx j q 1).val = (j 1).val := by
  unfold DotDims.rhsIdx
  rw [dif_neg (show ¬(1 : Fin S256x32.rank) ∈ dot_S256x256_S256x32_S256x32_1_0_0_1_n_n.rhsBatch by decide), dif_pos (show (1 : Fin S256x32.rank) ∈ dot_S256x256_S256x32_S256x32_1_0_0_1_n_n.rhsNonContracting by decide)]
  rfl

/-- Entry (r, c) of the product into a zero accumulator is the sum over the contracted axis of row r times column c. -/
theorem mmPV_apply {φ₁ φ₂ : FTy} (a : FVec Ideal S256x256 φ₁) (b : FVec Ideal S256x32 φ₂) (r : Fin 256) (c : Fin 32) :
    matmul dot_S256x256_S256x32_S256x32_1_0_0_1_n_n none a b (constant S256x32 .f32 0x00000000#32) (ix2 r c) = ∑ k : Fin 256, a (ix2 r k) * b (ix2 k c) := by
  show FloatOps.matmul dot_S256x256_S256x32_S256x32_1_0_0_1_n_n none a b (constant S256x32 .f32 0x00000000#32) (ix2 r c) = _
  rw [Ideal.matmul_constant_zero_apply, ← Equiv.sum_comp (ValueIdx.contrEquiv1 dot_S256x256_S256x32_S256x32_1_0_0_1_n_n 256 rfl rfl).symm]
  refine Finset.sum_congr rfl fun k _ => ?_
  have hk := ValueIdx.contrEquiv1_symm_val dot_S256x256_S256x32_S256x32_1_0_0_1_n_n 256 rfl rfl k
  have el : dot_S256x256_S256x32_S256x32_1_0_0_1_n_n.lhsIdx (ix2 r c) ((ValueIdx.contrEquiv1 dot_S256x256_S256x32_S256x32_1_0_0_1_n_n 256 rfl rfl).symm k) = ix2 r k := funext fun a => Fin.ext (by
    match a with
    | ⟨0, _⟩ => exact mmPV_lhs0 _ _
    | ⟨1, _⟩ => exact (mmPV_lhs1 _ _).trans hk)
  have er : dot_S256x256_S256x32_S256x32_1_0_0_1_n_n.rhsIdx (ix2 r c) ((ValueIdx.contrEquiv1 dot_S256x256_S256x32_S256x32_1_0_0_1_n_n 256 rfl rfl).symm k) = ix2 k c := funext fun a => Fin.ext (by
    match a with
    | ⟨0, _⟩ => exact (mmPV_rhs0 _ _).trans hk
    | ⟨1, _⟩ => exact mmPV_rhs1 _ _)
  rw [el, er]

end Cert.AttnK

end
-- ==== Proof.KLayout.lean ====
/-
  Layout operations of the kernel body read at an index: the row-major casts between [1,16,256,128],
  [16,256,128] and [4096,128] (row 256·s + q of the flat matrix is position q of row s), unit axes dropped
  from the bias blocks, a vector made a column and a column repeated along the rows, four column blocks of
  width 32 set side by side (column 32·h + d is column d of block h), and a row's maximum and sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.AttnK

open Idealize.ShloMosaic Idealize.ShloMosaic.ValueIdx

variable {α : Type}

/-- Row `256·s + q` of the flat [4096,128] matrix made from a [16,256,128] stack is position `q` of row `s`. -/
theorem flat_of_rows (x : (⟨3, ![16, 256, 128]⟩ : Shape).Idx → α)
    (h : (⟨3, ![16, 256, 128]⟩ : Shape).ShapeCasts ⟨2, ![4096, 128]⟩)
    (s : Fin 16) (q : Fin 256) (i : Fin 128) (r : Fin 4096) (hr : r.val = 256 * s.val + q.val) :
    shapeCast ⟨2, ![4096, 128]⟩ x h (ix2 r i) = x (ix3 s q i) :=
  shapeCast_apply x h _ _ (by
    rw [Shape.rowMajor_val_three, Shape.rowMajor_val_two]
    show (s.val * 256 + q.val) * 128 + i.val = r.val * 128 + i.val
    rw [hr, Nat.mul_comm 256])

/-- … and back: position `q` of row `s` of the [16,256,128] stack made from a flat [4096,128] matrix is its row `256·s + q`. -/
theorem rows_of_flat (y : (⟨2, ![4096, 128]⟩ : Shape).Idx → α)
    (h : (⟨2, ![4096, 128]⟩ : Shape).ShapeCasts ⟨3, ![16, 256, 128]⟩)
    (s : Fin 16) (q : Fin 256) (i : Fin 128) (r : Fin 4096) (hr : r.val = 256 * s.val + q.val) :
    shapeCast ⟨3, ![16, 256, 128]⟩ y h (ix3 s q i) = y (ix2 r i) :=
  shapeCast_apply y h _ _ (by
    rw [Shape.rowMajor_val_three, Shape.rowMajor_val_two]
    show r.val * 128 + i.val = (s.val * 256 + q.val) * 128 + i.val
    rw [hr, Nat.mul_comm 256])

/-- A [1,1,1,a,b] block cast to [a,b] reads, at (i, j), the operand at (0,0,0,i,j). -/
theorem cast_111ab_ab {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add, Nat.add_zero, Nat.mul_one])

/-- A [1,1,1,1,a] block cast to [a] reads, at i, the operand at (0,0,0,0,i). -/
theorem cast_1111a_a {a : ℕ} (x : (⟨5, ![1, 1, 1, 1, a]⟩ : Shape).Idx → α)
    (h : (⟨5, ![1, 1, 1, 1, a]⟩ : Shape).ShapeCasts ⟨1, ![a]⟩) (i : Fin a) :
    shapeCast ⟨1, ![a]⟩ x h (ix1 i) = x (ix5 (0 : Fin 1) (0 : Fin 1) (0 : Fin 1) (0 : Fin 1) i) :=
  shapeCast_apply x h _ _ (by
    rw [Shape.rowMajor_val_five, Shape.rowMajor_val_one]
    show ((((0 * 1 + 0) * 1 + 0) * 1 + 0) * a + i.val) = i.val
    simp only [Nat.zero_mul, Nat.zero_add, Nat.add_zero, Nat.mul_one])

/-- A vector made a column: [a] cast to [a,1] reads, at (i, u), the operand at i. -/
theorem col_of_vec {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column repeated along the rows: [a,1] broadcast to [a,b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rfl

end Cert.AttnK

end
-- ==== Proof.KHead.lean ====
/-
  One attention head of one row, as the body computes it, and its value at an entry.

  From the head's query, key and value slices qh, kh, vh ([256, 32]), its gate slice gh, the head's pair bias
  B1 and the row's bias b2:
    sc[q,k] = Σ_d qh[q,d] · kh[k,d] + B1[q,k] + b2[k],     e[q,k] = exp (sc[q,k] − max_k' sc[q,k']),
    out[q,d] = (Σ_k (e[q,k] / Σ_k' e[q,k']) · vh[k,d]) · gh[q,d].
  The maximum starts from −∞, so it is the maximum of the row; rounding to bf16 is the identity on the extended reals.
-/
import proofs.«118972_j22179211116942_2_alg».proof.Proof.KMat
import proofs.«118972_j22179211116942_2_alg».proof.Proof.KLayout

noncomputable section

open scoped BigOperators

namespace Cert.AttnK

open Idealize.ShloMosaic Idealize.ShloMosaic.ValueIdx Cert.KernelIdeal Cert.KernelIdeal.Facts₀

section Defs
variable {F : FTy → Type} [FloatOps F]

/-- The logits of a head: the query–key products plus the two biases. -/
def headScore (qh kh : FVec F S256x32 .bf16) (B1 : Vec F S1x1x1x256x256 .f32) (b2 : FVec F S256 .f32) : FVec F S256x256 .f32 :=
  addf (addf (matmul dot_S256x32_S32x256_S256x256_1_0_0_1_n_n none qh (transpose S32x256 [1, 0] kh transposes_S256x32_p1_0_S32x256) (constant S256x256 .f32 0x00000000#32))
      (shapeCast S256x256 B1 shapeCasts_S1x1x1x256x256_S256x256))
    (broadcastTo S256x256 (shapeCast S1x256 b2 shapeCasts_S256_S1x256) broadcasts_S1x256_S256x256)

/-- The exponentials of the logits shifted by their row maximum. -/
def headExp (sc : FVec F S256x256 .f32) : FVec F S256x256 .f32 :=
  exp (subf sc (broadcastTo S256x256 (shapeCast S256x1 (multiReduction .maximumf [1] S256 sc 0xFF800000#32 reduces_S256x256_S256 (.inl rfl) rfl) shapeCasts_S256_S256x1) broadcasts_S256x1_S256x256))

/-- The row sums of the exponentials. -/
def headSum (e : FVec F S256x256 .f32) : FVec F S256 .f32 :=
  multiReduction .add [1] S256 e 0x00000000#32 reduces_S256x256_S256 (.inl rfl) rfl

/-- The normalized weights applied to the values, then gated. -/
def headPV (e : FVec F S256x256 .f32) (sm : FVec F S256 .f32) (vh : FVec F S256x32 .bf16) (gh : FVec F S256x32 .f32) : FVec F S256x32 .f32 :=
  mulf (matmul dot_S256x256_S256x32_S256x32_1_0_0_1_n_n none
      (truncf .bf16 (divf e (broadcastTo S256x256 (shapeCast S256x1 sm shapeCasts_S256_S256x1) broadcasts_S256x1_S256x256)) bitsLt_bf16_f32)
      vh (constant S256x32 .f32 0x00000000#32)) gh

/-- One head's gated output. -/
def headOut (qh kh vh : FVec F S256x32 .bf16) (gh : FVec F S256x32 .f32) (B1 : Vec F S1x1x1x256x256 .f32) (b2 : FVec F S256 .f32) : FVec F S256x32 .f32 :=
  headPV (headExp (headScore qh kh B1 b2)) (headSum (headExp (headScore qh kh B1 b2))) vh gh

end Defs

/-! ## Read at an entry, over the extended reals -/

/-- The word 0xFF800000 is −∞. -/
theorem ofBits_neg_inf : Ideal.ofBits .f32 0xFF800000#32 = (⊥ : EReal) := by simp [Ideal.ofBits, Ideal.ieee]

theorem headScore_apply (qh kh : FVec Ideal S256x32 .bf16) (B1 : Vec Ideal S1x1x1x256x256 .f32) (b2 : FVec Ideal S256 .f32)
    (q k : Fin 256) :
    headScore qh kh B1 b2 (ix2 q k)
      = (∑ d : Fin 32, qh (ix2 q d) * kh (ix2 k d)) + B1 (ix5 (0 : Fin 1) (0 : Fin 1) (0 : Fin 1) q k) + b2 (ix1 k) := by
  unfold headScore
  rw [addf_apply, addf_apply, mmQK_apply, cast_111ab_ab, broadcastTo_1b_ab_apply, shapeCast_a_1a_apply]
  refine congrArg (· + _ + _) (Finset.sum_congr rfl fun d _ => ?_)
  rw [transpose_ix2_apply]

/-- The row maximum from −∞. -/
theorem rowMax_apply (sc : FVec Ideal S256x256 .f32) (q : Fin 256) :
    multiReduction .maximumf [1] S256 sc 0xFF800000#32 reduces_S256x256_S256 (.inl rfl) rfl (ix1 q)
      = (Finset.univ : Finset (Fin 256)).fold max ⊥ (fun k => sc (ix2 q k)) := by
  refine (Ideal.multiReduction_maximumf_single sc _ reduces_S256x256_S256 (.inl rfl) rfl (ix1 q)).trans ?_
  show (Finset.univ : Finset (Fin 256)).fold max (Ideal.ofBits .f32 0xFF800000#32) _ = _
  rw [ofBits_neg_inf]
  have e : (sc ∘ reduces_S256x256_S256.lift (ix1 q) : Fin 256 → EReal) = fun k => sc (ix2 q k) :=
    funext fun k => congrArg sc (funext fun a => Fin.ext (by
      match a with
      | ⟨0, _⟩ => rfl
      | ⟨1, _⟩ => rfl))
  exact congrArg (fun f => Finset.fold max (⊥ : EReal) f (Finset.univ : Finset (Fin 256))) e

/-- The row sum. -/
theorem rowSum_apply (e : FVec Ideal S256x256 .f32) (q : Fin 256) :
    headSum e (ix1 q) = ∑ k : Fin 256, e (ix2 q k) := by
  unfold headSum
  refine (Ideal.multiReduction_add_single e _ reduces_S256x256_S256 (.inl rfl) rfl (ix1 q)).trans ?_
  show ∑ k : Fin 256, _ = _
  refine Finset.sum_congr rfl fun k _ => congrArg e (funext fun a => Fin.ext ?_)
  match a with
  | ⟨0, _⟩ => rfl
  | ⟨1, _⟩ => rfl

theorem headExp_apply (sc : FVec Ideal S256x256 .f32) (q k : Fin 256) :
    headExp sc (ix2 q k) = Ideal.exp (sc (ix2 q k) - (Finset.univ : Finset (Fin 256)).fold max ⊥ (fun k' => sc (ix2 q k'))) := by
  unfold headExp
  show Ideal.exp (subf sc _ (ix2 q k)) = _
  rw [subf_apply, bcast_col, col_of_vec, rowMax_apply]

theorem headPV_apply (e : FVec Ideal S256x256 .f32) (sm : FVec Ideal S256 .f32) (vh : FVec Ideal S256x32 .bf16)
    (gh : FVec Ideal S256x32 .f32) (q : Fin 256) (d : Fin 32) :
    headPV e sm vh gh (ix2 q d) = (∑ k : Fin 256, Ideal.div (e (ix2 q k)) (sm (ix1 q)) * vh (ix2 k d)) * gh (ix2 q d) := by
  unfold headPV
  rw [mulf_apply, mmPV_apply]
  refine congrArg (· * _) (Finset.sum_congr rfl fun k _ => ?_)
  rw [truncf_apply, divf_apply, bcast_col, col_of_vec]

end Cert.AttnK

end
-- ==== Proof.KTrip.lean ====
/-
  What one row's trip stores, read at an entry: column 32·h + d of the stored row is entry (q, d) of head h's
  gated output, and the head's slices are columns 32·h … 32·h + 31 of the row's query, key, value and gate.
-/
import proofs.«118972_j22179211116942_2_alg».proof.Proof.KBody
import proofs.«118972_j22179211116942_2_alg».proof.Proof.KHead
import proofs.«118972_j22179211116942_2_alg».proof.Proof.AttnSpec

noncomputable section

open scoped BigOperators

namespace Cert.AttnK

open Idealize.ShloMosaic Idealize.ShloMosaic.ValueIdx Cert.KernelIdeal Cert.KernelIdeal.Gen
open Cert.Attn (col headOf)

/-! ## The trip's store is the four heads side by side -/

section
variable {F : FTy → Type} [FloatOps F] [Named F]
variable (x0 x1 : Vec F S1x16x256x128 .f32) (x2 : Vec F S1x1x4x256x256 .f32) (x3 : Vec F S1x16x1x1x256 .f32)
  (x4 x5 : Vec F S128x256 .bf16) (x6 : Vec F S128 .f32)

/-- Row `k` of the query buffer as a [256, 128] matrix. -/
def qRow (k : Fin 16) : FVec F S256x128 .bf16 := k0_pay5 (rowBlkB (qBuf x0 x4) k)
/-- Row `k` of the key buffer as a [256, 128] matrix. -/
def kRow (k : Fin 16) : FVec F S256x128 .bf16 := k0_pay6 (rowBlkB (kBuf x1 x5) k)
/-- Row `k` of the value buffer as a [256, 128] matrix. -/
def vRow (k : Fin 16) : FVec F S256x128 .bf16 := k0_pay7 (rowBlkB (vBuf x1 x5) k)
/-- Row `k` of the gate buffer as a [256, 128] matrix. -/
def gRow (k : Fin 16) : FVec F S256x128 .f32 := k0_pay8 (rowBlkF (gBuf x0 x4 x6) k)
/-- Row `k` of the row bias as a vector of 256 keys. -/
def b2Row (k : Fin 16) : FVec F S256 .f32 := k0_pay9 (b2Blk x3 k)

/-- The trip of row `k` stores the four heads' gated outputs set side by side (rounded to bf16, as a one-row block). -/
theorem tripOut_heads (k : Fin 16) :
    tripOut x0 x1 x2 x3 x4 x5 x6 k
      = shapeCast S1x256x128 (truncf .bf16 (concatenate S256x128 1
          [⟨S256x32, headOut (extractStridedSlice S256x32 ![0, 0] (qRow x0 x4 k) slices_S256x128_o0_0_S256x32)
              (extractStridedSlice S256x32 ![0, 0] (kRow x1 x5 k) slices_S256x128_o0_0_S256x32)
              (extractStridedSlice S256x32 ![0, 0] (vRow x1 x5 k) slices_S256x128_o0_0_S256x32)
              (extractStridedSlice S256x32 ![0, 0] (gRow x0 x4 x6 k) slices_S256x128_o0_0_S256x32) (b1Blk x2 0) (b2Row x3 k)⟩,
           ⟨S256x32, headOut (extractStridedSlice S256x32 ![0, 32] (qRow x0 x4 k) slices_S256x128_o0_32_S256x32)
              (extractStridedSlice S256x32 ![0, 32] (kRow x1 x5 k) slices_S256x128_o0_32_S256x32)
              (extractStridedSlice S256x32 ![0, 32] (vRow x1 x5 k) slices_S256x128_o0_32_S256x32)
              (extractStridedSlice S256x32 ![0, 32] (gRow x0 x4 x6 k) slices_S256x128_o0_32_S256x32) (b1Blk x2 1) (b2Row x3 k)⟩,
           ⟨S256x32, headOut (extractStridedSlice S256x32 ![0, 64] (qRow x0 x4 k) slices_S256x128_o0_64_S256x32)
              (extractStridedSlice S256x32 ![0, 64] (kRow x1 x5 k) slices_S256x128_o0_64_S256x32)
              (extractStridedSlice S256x32 ![0, 64] (vRow x1 x5 k) slices_S256x128_o0_64_S256x32)
              (extractStridedSlice S256x32 ![0, 64] (gRow x0 x4 x6 k) slices_S256x128_o0_64_S256x32) (b1Blk x2 2) (b2Row x3 k)⟩,
           ⟨S256x32, headOut (extractStridedSlice S256x32 ![0, 96] (qRow x0 x4 k) slices_S256x128_o0_96_S256x32)
              (extractStridedSlice S256x32 ![0, 96] (kRow x1 x5 k) slices_S256x128_o0_96_S256x32)
              (extractStridedSlice S256x32 ![0, 96] (vRow x1 x5 k) slices_S256x128_o0_96_S256x32)
              (extractStridedSlice S256x32 ![0, 96] (gRow x0 x4 x6 k) slices_S256x128_o0_96_S256x32) (b1Blk x2 3) (b2Row x3 k)⟩]
          concatenates_S256x32_S256x32_S256x32_S256x32_S256x128_d1) bitsLt_bf16_f32) shapeCasts_S256x128_S1x256x128 := rfl

end

/-! ## Read at an entry, over the extended reals -/

/-- Off the concatenation axis an entry of a block and of the whole have the same row. -/
theorem concat_side (q : Fin 256) (h : Fin 4) (d : Fin 32) :
    ∀ b : Fin S256x32.rank, b.cast (rfl : S256x32.rank = S256x128.rank) ≠ (1 : Fin S256x128.rank) →
      ((ix2 q d : S256x32.Idx) b).val = ((ix2 q (col h d) : S256x128.Idx) (b.cast rfl)).val := fun b hb => by
  match b with
  | ⟨0, _⟩ => rfl
  | ⟨1, _⟩ => exact absurd rfl hb

/-- Four blocks of 32 columns side by side: column `32·h + d` is column `d` of block `h` (one statement per block). -/
theorem concat4_0 {α : Type} (p0 p1 p2 p3 : S256x32.Idx → α)
    (hc : Shape.Concatenates [S256x32, S256x32, S256x32, S256x32] S256x128 1) (q : Fin 256) (d : Fin 32) :
    concatenate S256x128 1 [⟨S256x32, p0⟩, ⟨S256x32, p1⟩, ⟨S256x32, p2⟩, ⟨S256x32, p3⟩] hc (ix2 q (col 0 d)) = p0 (ix2 q d) :=
  concatenate_apply_piece (t := S256x128) 1 [⟨S256x32, p0⟩, ⟨S256x32, p1⟩, ⟨S256x32, p2⟩, ⟨S256x32, p3⟩] hc (ix2 q (col 0 d)) 0 (by show 0 < 4; omega) S256x32 p0 rfl rfl 0 rfl (ix2 q d) (concat_side q 0 d) (by show 0 + d.val = 32 * 0 + d.val; omega)
theorem concat4_1 {α : Type} (p0 p1 p2 p3 : S256x32.Idx → α)
    (hc : Shape.Concatenates [S256x32, S256x32, S256x32, S256x32] S256x128 1) (q : Fin 256) (d : Fin 32) :
    concatenate S256x128 1 [⟨S256x32, p0⟩, ⟨S256x32, p1⟩, ⟨S256x32, p2⟩, ⟨S256x32, p3⟩] hc (ix2 q (col 1 d)) = p1 (ix2 q d) :=
  concatenate_apply_piece (t := S256x128) 1 [⟨S256x32, p0⟩, ⟨S256x32, p1⟩, ⟨S256x32, p2⟩, ⟨S256x32, p3⟩] hc (ix2 q (col 1 d)) 1 (by show 1 < 4; omega) S256x32 p1 rfl rfl 32 rfl (ix2 q d) (concat_side q 1 d) (by show 32 + d.val = 32 * 1 + d.val; omega)
theorem concat4_2 {α : Type} (p0 p1 p2 p3 : S256x32.Idx → α)
    (hc : Shape.Concatenates [S256x32, S256x32, S256x32, S256x32] S256x128 1) (q : Fin 256) (d : Fin 32) :
    concatenate S256x128 1 [⟨S256x32, p0⟩, ⟨S256x32, p1⟩, ⟨S256x32, p2⟩, ⟨S256x32, p3⟩] hc (ix2 q (col 2 d)) = p2 (ix2 q d) :=
  concatenate_apply_piece (t := S256x128) 1 [⟨S256x32, p0⟩, ⟨S256x32, p1⟩, ⟨S256x32, p2⟩, ⟨S256x32, p3⟩] hc (ix2 q (col 2 d)) 2 (by show 2 < 4; omega) S256x32 p2 rfl rfl 64 rfl (ix2 q d) (concat_side q 2 d) (by show 64 + d.val = 32 * 2 + d.val; omega)
theorem concat4_3 {α : Type} (p0 p1 p2 p3 : S256x32.Idx → α)
    (hc : Shape.Concatenates [S256x32, S256x32, S256x32, S256x32] S256x128 1) (q : Fin 256) (d : Fin 32) :
    concatenate S256x128 1 [⟨S256x32, p0⟩, ⟨S256x32, p1⟩, ⟨S256x32, p2⟩, ⟨S256x32, p3⟩] hc (ix2 q (col 3 d)) = p3 (ix2 q d) :=
  concatenate_apply_piece (t := S256x128) 1 [⟨S256x32, p0⟩, ⟨S256x32, p1⟩, ⟨S256x32, p2⟩, ⟨S256x32, p3⟩] hc (ix2 q (col 3 d)) 3 (by show 3 < 4; omega) S256x32 p3 rfl rfl 96 rfl (ix2 q d) (concat_side q 3 d) (by show 96 + d.val = 32 * 3 + d.val; omega)

/-- A head's gated output from the row's four [256, 128] matrices, when the head's slices are their columns
    `32·h … 32·h + 31`. -/
theorem headOut_rows (Q K V : FVec Ideal S256x128 .bf16) (G : FVec Ideal S256x128 .f32) (B1 : Vec Ideal S1x1x1x256x256 .f32)
    (b2 : FVec Ideal S256 .f32) (h : Fin 4) (qh kh vh : FVec Ideal S256x32 .bf16) (gh : FVec Ideal S256x32 .f32)
    (hq : ∀ q d, qh (ix2 q d) = Q (ix2 q (col h d))) (hk : ∀ q d, kh (ix2 q d) = K (ix2 q (col h d)))
    (hv : ∀ q d, vh (ix2 q d) = V (ix2 q (col h d))) (hg : ∀ q d, gh (ix2 q d) = G (ix2 q (col h d)))
    (q : Fin 256) (d : Fin 32) :
    headOut qh kh vh gh B1 b2 (ix2 q d)
      = (∑ k : Fin 256,
          Ideal.div
            (Ideal.exp (((∑ d' : Fin 32, Q (ix2 q (col h d')) * K (ix2 k (col h d'))) + B1 (ix5 (0 : Fin 1) (0 : Fin 1) (0 : Fin 1) q k) + b2 (ix1 k))
              - (Finset.univ : Finset (Fin 256)).fold max ⊥ (fun k' =>
                  (∑ d' : Fin 32, Q (ix2 q (col h d')) * K (ix2 k' (col h d'))) + B1 (ix5 (0 : Fin 1) (0 : Fin 1) (0 : Fin 1) q k') + b2 (ix1 k'))))
            (∑ k'' : Fin 256,
              Ideal.exp (((∑ d' : Fin 32, Q (ix2 q (col h d')) * K (ix2 k'' (col h d'))) + B1 (ix5 (0 : Fin 1) (0 : Fin 1) (0 : Fin 1) q k'') + b2 (ix1 k''))
                - (Finset.univ : Finset (Fin 256)).fold max ⊥ (fun k' =>
                    (∑ d' : Fin 32, Q (ix2 q (col h d')) * K (ix2 k' (col h d'))) + B1 (ix5 (0 : Fin 1) (0 : Fin 1) (0 : Fin 1) q k') + b2 (ix1 k'))))
            * V (ix2 k (col h d)))
        * G (ix2 q (col h d)) := by
  unfold headOut
  rw [headPV_apply, rowSum_apply]
  simp only [headExp_apply, headScore_apply, hq, hk, hv, hg]

end Cert.AttnK

end
-- ==== Proof.KProj.lean ====
/-
  The four projections a grid step keeps in scratch, read at an entry over the extended reals.

  With x a block [1,16,256,128] of activations and W a [128,256] matrix holding two transposed weight matrices
  side by side, `pj x W s q o = Σ_i x[0,s,q,i] · W[i,o]`.  Then, at row s, position q and column j < 128:
  the query buffer holds pj x0 W4 s q j times the scale, the key buffer pj x1 W5 s q j, the value buffer
  pj x1 W5 s q (128 + j), and the gate buffer the logistic function of pj x0 W4 s q (128 + j) + bg[j].
-/
import proofs.«118972_j22179211116942_2_alg».proof.Proof.KBody
import proofs.«118972_j22179211116942_2_alg».proof.Proof.KMat
import proofs.«118972_j22179211116942_2_alg».proof.Proof.KLayout

noncomputable section

open scoped BigOperators

namespace Cert.AttnK

open Idealize.ShloMosaic Idealize.ShloMosaic.ValueIdx Cert.KernelIdeal Cert.KernelIdeal.Gen

/-- A row of a block times a column of a [128,256] matrix. -/
def pj (x : Vec Ideal S1x16x256x128 .f32) (W : Vec Ideal S128x256 .bf16) (s : Fin 16) (q : Fin 256) (o : Fin 256) : EReal :=
  ∑ i : Fin 128, x (ix4 (0 : Fin 1) s q i) * W (ix2 i o)

/-- The scale as the body spells it: the named constant. -/
def kscale : EReal := Named.named (F := Ideal) Cert.KernelIdeal.κ "inv_sqrt_hidden" (φ := .f32) 0x3E3504F3#32

/-- The flat row index of position q of row s. -/
def flatRow (s : Fin 16) (q : Fin 256) : Fin 4096 := ⟨256 * s.val + q.val, by have := s.isLt; have := q.isLt; omega⟩

/-- Column j of the left half of a 256-column matrix. -/
def lo (j : Fin 128) : Fin 256 := ⟨j.val, by have := j.isLt; omega⟩
/-- Column j of the right half of a 256-column matrix. -/
def hi (j : Fin 128) : Fin 256 := ⟨128 + j.val, by have := j.isLt; omega⟩

theorem pay18_apply (x : Vec Ideal S1x16x256x128 .f32) (W : Vec Ideal S128x256 .bf16) (s : Fin 16) (q : Fin 256) (o : Fin 256) :
    k0_pay18 x W (ix2 (flatRow s q) o) = pj x W s q o := by
  show matmul dot_S4096x128_S128x256_S4096x256_1_0_0_1_n_n none
      (truncf .bf16 (shapeCast S4096x128 (shapeCast S16x256x128 x shapeCasts_S1x16x256x128_S16x256x128) shapeCasts_S16x256x128_S4096x128) bitsLt_bf16_f32)
      (shapeCast S128x256 W shapeCasts_S128x256_S128x256 : FVec Ideal S128x256 .bf16) (constant S4096x256 .f32 0x00000000#32) (ix2 (flatRow s q) o) = _
  rw [mmProj_apply]
  unfold pj
  refine Finset.sum_congr rfl fun i _ => ?_
  rw [truncf_apply, shapeCast_self, flat_of_rows _ _ s q i (flatRow s q) rfl, shapeCast_1abc_abc_apply]

theorem pay19_apply (x : Vec Ideal S1x16x256x128 .f32) (W : Vec Ideal S128x256 .bf16) (s : Fin 16) (q : Fin 256) (o : Fin 256) :
    k0_pay19 x W (ix2 (flatRow s q) o) = pj x W s q o := by
  show matmul dot_S4096x128_S128x256_S4096x256_1_0_0_1_n_n none
      (truncf .bf16 (shapeCast S4096x128 (shapeCast S16x256x128 x shapeCasts_S1x16x256x128_S16x256x128) shapeCasts_S16x256x128_S4096x128) bitsLt_bf16_f32)
      (shapeCast S128x256 W shapeCasts_S128x256_S128x256 : FVec Ideal S128x256 .bf16) (constant S4096x256 .f32 0x00000000#32) (ix2 (flatRow s q) o) = _
  rw [mmProj_apply]
  unfold pj
  refine Finset.sum_congr rfl fun i _ => ?_
  rw [truncf_apply, shapeCast_self, flat_of_rows _ _ s q i (flatRow s q) rfl, shapeCast_1abc_abc_apply]

/-- The query buffer: the left half of the first projection, scaled. -/
theorem qBuf_apply (x0 : Vec Ideal S1x16x256x128 .f32) (x4 : Vec Ideal S128x256 .bf16) (s : Fin 16) (q : Fin 256) (j : Fin 128) :
    qBuf x0 x4 (ix3 s q j) = pj x0 x4 s q (lo j) * kscale := by
  show shapeCast S16x256x128 (shapeCast S16x256x128 (truncf .bf16 (mulf
      (extractStridedSlice S4096x128 ![0, 0] (k0_pay18 x0 x4) slices_S4096x256_o0_0_S4096x128)
      (broadcast S4096x128 (Named.named Cert.KernelIdeal.κ "inv_sqrt_hidden" 0x3E3504F3#32))) bitsLt_bf16_f32)
      shapeCasts_S4096x128_S16x256x128) shapeCasts_S16x256x128_S16x256x128 (ix3 s q j) = _
  rw [shapeCast_self, rows_of_flat _ _ s q j (flatRow s q) rfl, truncf_apply, mulf_apply, broadcast_apply,
    slice2_axis1_apply 0 _ _ (flatRow s q) j (lo j) (by show j.val = 0 + j.val; omega), pay18_apply]
  rfl

/-- The key buffer: the left half of the second projection. -/
theorem kBuf_apply (x1 : Vec Ideal S1x16x256x128 .f32) (x5 : Vec Ideal S128x256 .bf16) (s : Fin 16) (q : Fin 256) (j : Fin 128) :
    kBuf x1 x5 (ix3 s q j) = pj x1 x5 s q (lo j) := by
  show shapeCast S16x256x128 (shapeCast S16x256x128 (truncf .bf16
      (extractStridedSlice S4096x128 ![0, 0] (k0_pay19 x1 x5) slices_S4096x256_o0_0_S4096x128) bitsLt_bf16_f32)
      shapeCasts_S4096x128_S16x256x128) shapeCasts_S16x256x128_S16x256x128 (ix3 s q j) = _
  rw [shapeCast_self, rows_of_flat _ _ s q j (flatRow s q) rfl, truncf_apply,
    slice2_axis1_apply 0 _ _ (flatRow s q) j (lo j) (by show j.val = 0 + j.val; omega), pay19_apply]

/-- The value buffer: the right half of the second projection. -/
theorem vBuf_apply (x1 : Vec Ideal S1x16x256x128 .f32) (x5 : Vec Ideal S128x256 .bf16) (s : Fin 16) (q : Fin 256) (j : Fin 128) :
    vBuf x1 x5 (ix3 s q j) = pj x1 x5 s q (hi j) := by
  show shapeCast S16x256x128 (shapeCast S16x256x128 (truncf .bf16
      (extractStridedSlice S4096x128 ![0, 128] (k0_pay19 x1 x5) slices_S4096x256_o0_128_S4096x128) bitsLt_bf16_f32)
      shapeCasts_S4096x128_S16x256x128) shapeCasts_S16x256x128_S16x256x128 (ix3 s q j) = _
  rw [shapeCast_self, rows_of_flat _ _ s q j (flatRow s q) rfl, truncf_apply,
    slice2_axis1_apply 128 _ _ (flatRow s q) j (hi j) rfl, pay19_apply]

/-- The gate buffer: the logistic function of the right half of the first projection plus the gate bias. -/
theorem gBuf_apply (x0 : Vec Ideal S1x16x256x128 .f32) (x4 : Vec Ideal S128x256 .bf16) (x6 : Vec Ideal S128 .f32)
    (s : Fin 16) (q : Fin 256) (j : Fin 128) :
    gBuf x0 x4 x6 (ix3 s q j) = Ideal.logistic (pj x0 x4 s q (hi j) + x6 (ix1 j)) := by
  show shapeCast S16x256x128 (shapeCast S16x256x128 (logistic (addf
      (extractStridedSlice S4096x128 ![0, 128] (k0_pay18 x0 x4) slices_S4096x256_o0_128_S4096x128)
      (broadcastTo S4096x128 (shapeCast S1x128 x6 shapeCasts_S128_S1x128) broadcasts_S1x128_S4096x128)))
      shapeCasts_S4096x128_S16x256x128) shapeCasts_S16x256x128_S16x256x128 (ix3 s q j) = _
  rw [shapeCast_self, rows_of_flat _ _ s q j (flatRow s q) rfl]
  change FloatOps.logistic (F := Ideal) (φ := .f32) _ = _
  rw [Ideal.logistic_def, addf_apply, slice2_axis1_apply 128 _ _ (flatRow s q) j (hi j) rfl, pay18_apply, broadcastTo_1b_ab_apply,
    shapeCast_a_1a_apply]

end Cert.AttnK

end
-- ==== Proof.KRow.lean ====
/-
  Row s of the fifth scratch buffer, read at an entry, in terms of the projections: at position q and column j
  (head h = j / 32),
    row[q, j] = (Σ_k p[h,q,k] · v[k, j]) · gate[q, j],   p = softmax over k of
    sc[h,q,k] = Σ_d (qproj[q, 32h+d] · scale) · kproj[k, 32h+d] + B1[h,q,k] + b2[s,k].
-/
import proofs.«118972_j22179211116942_2_alg».proof.Proof.KTrip
import proofs.«118972_j22179211116942_2_alg».proof.Proof.KProj

noncomputable section

open scoped BigOperators

namespace Cert.AttnK

open Idealize.ShloMosaic Idealize.ShloMosaic.ValueIdx Cert.KernelIdeal Cert.KernelIdeal.Gen
open Cert.Attn (col headOf)

/-- The channel `j % 32` of a column inside its head. -/
def chan (j : Fin 128) : Fin 32 := ⟨j.val % 32, Nat.mod_lt _ (by decide)⟩

theorem col_headOf_chan (j : Fin 128) : col (headOf j) (chan j) = j :=
  Fin.ext (by show 32 * (j.val / 32) + j.val % 32 = j.val; omega)

theorem headOf_col (h : Fin 4) (d : Fin 32) : headOf (col h d) = h :=
  Fin.ext (by show (32 * h.val + d.val) / 32 = h.val; have := d.isLt; omega)

section
variable (x0 x1 : Vec Ideal S1x16x256x128 .f32) (x2 : Vec Ideal S1x1x4x256x256 .f32) (x3 : Vec Ideal S1x16x1x1x256 .f32)
  (x4 x5 : Vec Ideal S128x256 .bf16) (x6 : Vec Ideal S128 .f32)

theorem qRow_apply (s : Fin 16) (q : Fin 256) (j : Fin 128) : qRow x0 x4 s (ix2 q j) = pj x0 x4 s q (lo j) * kscale := by
  show shapeCast S256x128 (rowBlkB (qBuf x0 x4) s) shapeCasts_S1x256x128_S256x128 (ix2 q j) = _
  rw [shapeCast_1ab_ab_apply]
  exact qBuf_apply x0 x4 s q j

theorem kRow_apply (s : Fin 16) (q : Fin 256) (j : Fin 128) : kRow x1 x5 s (ix2 q j) = pj x1 x5 s q (lo j) := by
  show shapeCast S256x128 (rowBlkB (kBuf x1 x5) s) shapeCasts_S1x256x128_S256x128 (ix2 q j) = _
  rw [shapeCast_1ab_ab_apply]
  exact kBuf_apply x1 x5 s q j

theorem vRow_apply (s : Fin 16) (q : Fin 256) (j : Fin 128) : vRow x1 x5 s (ix2 q j) = pj x1 x5 s q (hi j) := by
  show shapeCast S256x128 (rowBlkB (vBuf x1 x5) s) shapeCasts_S1x256x128_S256x128 (ix2 q j) = _
  rw [shapeCast_1ab_ab_apply]
  exact vBuf_apply x1 x5 s q j

theorem gRow_apply (s : Fin 16) (q : Fin 256) (j : Fin 128) :
    gRow x0 x4 x6 s (ix2 q j) = Ideal.logistic (pj x0 x4 s q (hi j) + x6 (ix1 j)) := by
  show shapeCast S256x128 (rowBlkF (gBuf x0 x4 x6) s) shapeCasts_S1x256x128_S256x128 (ix2 q j) = _
  rw [shapeCast_1ab_ab_apply]
  exact gBuf_apply x0 x4 x6 s q j

theorem b2Row_apply (s : Fin 16) (k : Fin 256) : b2Row x3 s (ix1 k) = x3 (ix5 (0 : Fin 1) s (0 : Fin 1) (0 : Fin 1) k) := by
  show shapeCast S256 (b2Blk x3 s) shapeCasts_S1x1x1x1x256_S256 (ix1 k) = _
  rw [cast_1111a_a]
  rfl

/-- The logit of head h, query q, key k in row s of the block. -/
def scB (s : Fin 16) (h : Fin 4) (q k : Fin 256) : EReal :=
  (∑ d : Fin 32, (pj x0 x4 s q (lo (col h d)) * kscale) * pj x1 x5 s k (lo (col h d)))
    + x2 (ix5 (0 : Fin 1) (0 : Fin 1) h q k) + x3 (ix5 (0 : Fin 1) s (0 : Fin 1) (0 : Fin 1) k)

/-- The shifted exponential of a logit. -/
def exB (s : Fin 16) (h : Fin 4) (q k : Fin 256) : EReal :=
  Ideal.exp (scB x0 x1 x2 x3 x4 x5 s h q k - (Finset.univ : Finset (Fin 256)).fold max ⊥ (fun k' => scB x0 x1 x2 x3 x4 x5 s h q k'))

/-- One head of the stored row, from the head's slices at a column offset `o = 32·h`. -/
theorem head_case (s : Fin 16) (h : Fin 4) (o : ℕ) (ho : o = 32 * h.val) (hs : S256x128.Slices ![0, o] S256x32)
    (q : Fin 256) (d : Fin 32) :
    headOut (extractStridedSlice S256x32 ![0, o] (qRow x0 x4 s) hs) (extractStridedSlice S256x32 ![0, o] (kRow x1 x5 s) hs)
        (extractStridedSlice S256x32 ![0, o] (vRow x1 x5 s) hs) (extractStridedSlice S256x32 ![0, o] (gRow x0 x4 x6 s) hs)
        (b1Blk x2 h) (b2Row x3 s) (ix2 q d)
      = (∑ k : Fin 256, Ideal.div (exB x0 x1 x2 x3 x4 x5 s h q k) (∑ k' : Fin 256, exB x0 x1 x2 x3 x4 x5 s h q k')
            * pj x1 x5 s k (hi (col h d)))
          * Ideal.logistic (pj x0 x4 s q (hi (col h d)) + x6 (ix1 (col h d))) := by
  have hcol : ∀ d' : Fin 32, (col h d').val = o + d'.val := fun d' => by show 32 * h.val + d'.val = o + d'.val; omega
  rw [headOut_rows (qRow x0 x4 s) (kRow x1 x5 s) (vRow x1 x5 s) (gRow x0 x4 x6 s) (b1Blk x2 h) (b2Row x3 s) h _ _ _ _
    (fun q' d' => slice2_axis1_apply o _ hs q' d' (col h d') (hcol d'))
    (fun q' d' => slice2_axis1_apply o _ hs q' d' (col h d') (hcol d'))
    (fun q' d' => slice2_axis1_apply o _ hs q' d' (col h d') (hcol d'))
    (fun q' d' => slice2_axis1_apply o _ hs q' d' (col h d') (hcol d')) q d]
  simp only [qRow_apply, kRow_apply, vRow_apply, gRow_apply, b2Row_apply]
  rfl

/-- Row s of the fifth buffer at position q, column j. -/
theorem tripOut_at (s : Fin 16) (q : Fin 256) (j : Fin 128) :
    tripOut x0 x1 x2 x3 x4 x5 x6 s (ix3 (0 : Fin 1) q j)
      = (∑ k : Fin 256, Ideal.div (exB x0 x1 x2 x3 x4 x5 s (headOf j) q k) (∑ k' : Fin 256, exB x0 x1 x2 x3 x4 x5 s (headOf j) q k')
            * pj x1 x5 s k (hi j))
          * Ideal.logistic (pj x0 x4 s q (hi j) + x6 (ix1 j)) := by
  obtain ⟨h, d, rfl⟩ : ∃ (h : Fin 4) (d : Fin 32), j = col h d := ⟨headOf j, chan j, (col_headOf_chan j).symm⟩
  rw [headOf_col, tripOut_heads, shapeCast_ab_1ab_apply, truncf_apply]
  match h with
  | 0 => rw [concat4_0]; exact head_case x0 x1 x2 x3 x4 x5 x6 s 0 0 rfl _ q d
  | 1 => rw [concat4_1]; exact head_case x0 x1 x2 x3 x4 x5 x6 s 1 32 rfl _ q d
  | 2 => rw [concat4_2]; exact head_case x0 x1 x2 x3 x4 x5 x6 s 2 64 rfl _ q d
  | 3 => rw [concat4_3]; exact head_case x0 x1 x2 x3 x4 x5 x6 s 3 96 rfl _ q d

end

end Cert.AttnK

end
-- ==== Proof.KSpec.lean ====
/-
  The block a grid step writes back is the specification restricted to the step's 16 rows.

  Hypotheses say what the step's input blocks are: rows 16·t … 16·t + 15 of the activations and of the row bias,
  the whole pair bias, the two [128, 256] matrices holding wq | wg and wk | wv transposed side by side, the gate
  bias, the output weights transposed and the output bias.  Then entry (s, q, c) of the block is entry
  (16·t + s, q, c) of `Cert.Attn.out`.  The scale the body multiplies by is the named constant, the rational
  2097152/11863283 — the exact reciprocal of the divisor — so multiplying by it is the specification's scale.
-/
import proofs.«118972_j22179211116942_2_alg».proof.Proof.KRow
import Idealize.ShloMosaic.PureOps.IdealRules

noncomputable section

open scoped BigOperators

namespace Cert.AttnK

open Idealize.ShloMosaic Idealize.ShloMosaic.ValueIdx Cert.KernelIdeal Cert.KernelIdeal.Gen
open Cert.Attn

/-- The named scale is the specification's. -/
theorem kscale_eq : kscale = Cert.Attn.scale :=
  IdealRules.named_const.ideal_named_scalar _ _ _ _ rfl

section
variable (x0 x1 : Vec Ideal S1x16x256x128 .f32) (x2 : Vec Ideal S1x1x4x256x256 .f32) (x3 : Vec Ideal S1x16x1x1x256 .f32)
  (x4 x5 : Vec Ideal S128x256 .bf16) (x6 : Vec Ideal S128 .f32) (x7 : Vec Ideal S128x128 .bf16) (x8 : Vec Ideal S128 .f32)

/-- The written-back block at an entry: the stored rows times the output weights, plus the output bias. -/
theorem blockOut_apply (s : Fin 16) (q : Fin 256) (c : Fin 128) :
    blockOut x0 x1 x2 x3 x4 x5 x6 x7 x8 (ix4 (0 : Fin 1) s q c)
      = (∑ j : Fin 128, tripOut x0 x1 x2 x3 x4 x5 x6 s (ix3 (0 : Fin 1) q j) * x7 (ix2 j c)) + x8 (ix1 c) := by
  show shapeCast S1x16x256x128 (shapeCast S16x256x128 (addf
      (matmul dot_S4096x128_S128x128_S4096x128_1_0_0_1_n_n none
        (shapeCast S4096x128 (attnRows x0 x1 x2 x3 x4 x5 x6) shapeCasts_S16x256x128_S4096x128 : FVec Ideal S4096x128 .bf16)
        (shapeCast S128x128 x7 shapeCasts_S128x128_S128x128 : FVec Ideal S128x128 .bf16) (constant S4096x128 .f32 0x00000000#32))
      (broadcastTo S4096x128 (shapeCast S1x128 x8 shapeCasts_S128_S1x128) broadcasts_S1x128_S4096x128))
      shapeCasts_S4096x128_S16x256x128) shapeCasts_S16x256x128_S1x16x256x128 (ix4 (0 : Fin 1) s q c) = _
  rw [shapeCast_abc_1abc_apply, rows_of_flat _ _ s q c (flatRow s q) rfl, addf_apply, mmOut_apply,
    broadcastTo_1b_ab_apply, shapeCast_a_1a_apply]
  refine congrArg (· + _) (Finset.sum_congr rfl fun j _ => ?_)
  rw [shapeCast_self, flat_of_rows _ _ s q j (flatRow s q) rfl]
  rfl

end

/-- The block is the specification on the step's rows. -/
theorem blockOut_spec
    (qx kvx : Act) (b1 : PairBias) (b2 : RowBias) (wq wk wv wg : Wt) (bg : ChanBias) (wo : Wt) (bo : ChanBias) (t : Fin 16)
    (x0 x1 : Vec Ideal S1x16x256x128 .f32) (x2 : Vec Ideal S1x1x4x256x256 .f32) (x3 : Vec Ideal S1x16x1x1x256 .f32)
    (x4 x5 : Vec Ideal S128x256 .bf16) (x6 : Vec Ideal S128 .f32) (x7 : Vec Ideal S128x128 .bf16) (x8 : Vec Ideal S128 .f32)
    (h0 : ∀ (s : Fin 16) (q : Fin 256) (i : Fin 128) (S : Fin 256), S.val = 16 * t.val + s.val → x0 (ix4 (0 : Fin 1) s q i) = qx (ix4 (0 : Fin 1) S q i))
    (h1 : ∀ (s : Fin 16) (q : Fin 256) (i : Fin 128) (S : Fin 256), S.val = 16 * t.val + s.val → x1 (ix4 (0 : Fin 1) s q i) = kvx (ix4 (0 : Fin 1) S q i))
    (h2 : ∀ (h : Fin 4) (q k : Fin 256), x2 (ix5 (0 : Fin 1) (0 : Fin 1) h q k) = b1 (ix5 (0 : Fin 1) (0 : Fin 1) h q k))
    (h3 : ∀ (s : Fin 16) (k : Fin 256) (S : Fin 256), S.val = 16 * t.val + s.val → x3 (ix5 (0 : Fin 1) s (0 : Fin 1) (0 : Fin 1) k) = b2 (ix5 (0 : Fin 1) S (0 : Fin 1) (0 : Fin 1) k))
    (h4 : ∀ (i o : Fin 128) (O : Fin 256), (O.val = o.val → x4 (ix2 i O) = wq (ix2 o i)) ∧ (O.val = 128 + o.val → x4 (ix2 i O) = wg (ix2 o i)))
    (h5 : ∀ (i o : Fin 128) (O : Fin 256), (O.val = o.val → x5 (ix2 i O) = wk (ix2 o i)) ∧ (O.val = 128 + o.val → x5 (ix2 i O) = wv (ix2 o i)))
    (h6 : ∀ o : Fin 128, x6 (ix1 o) = bg (ix1 o)) (h7 : ∀ j c : Fin 128, x7 (ix2 j c) = wo (ix2 c j)) (h8 : ∀ c : Fin 128, x8 (ix1 c) = bo (ix1 c))
    (s : Fin 16) (q : Fin 256) (c : Fin 128) (S : Fin 256) (hS : S.val = 16 * t.val + s.val) :
    blockOut x0 x1 x2 x3 x4 x5 x6 x7 x8 (ix4 (0 : Fin 1) s q c) = Cert.Attn.out qx kvx b1 b2 wq wk wv wg bg wo bo (ix4 (0 : Fin 1) S q c) := by
  -- the four projections of the block's rows are the specification's
  have pq : ∀ (q' : Fin 256) (j : Fin 128), pj x0 x4 s q' (lo j) = proj qx wq S q' j := fun q' j =>
    Finset.sum_congr rfl fun i _ => by rw [h0 s q' i S hS, (h4 i j (lo j)).1 rfl]
  have pg : ∀ (q' : Fin 256) (j : Fin 128), pj x0 x4 s q' (hi j) = proj qx wg S q' j := fun q' j =>
    Finset.sum_congr rfl fun i _ => by rw [h0 s q' i S hS, (h4 i j (hi j)).2 rfl]
  have pk : ∀ (k : Fin 256) (j : Fin 128), pj x1 x5 s k (lo j) = proj kvx wk S k j := fun k j =>
    Finset.sum_congr rfl fun i _ => by rw [h1 s k i S hS, (h5 i j (lo j)).1 rfl]
  have pv : ∀ (k : Fin 256) (j : Fin 128), pj x1 x5 s k (hi j) = proj kvx wv S k j := fun k j =>
    Finset.sum_congr rfl fun i _ => by rw [h1 s k i S hS, (h5 i j (hi j)).2 rfl]
  -- so the logits, their exponentials and the weights are
  have hsc : ∀ (h : Fin 4) (q' k : Fin 256), scB x0 x1 x2 x3 x4 x5 s h q' k = score qx kvx b1 b2 wq wk S h q' k := fun h q' k => by
    unfold scB score
    rw [h2 h q' k, h3 s k S hS, kscale_eq]
    refine congrArg (· + _ + _) (Finset.sum_congr rfl fun d _ => ?_)
    rw [pq, pk]
  have hex : ∀ (h : Fin 4) (q' k : Fin 256), exB x0 x1 x2 x3 x4 x5 s h q' k = expo qx kvx b1 b2 wq wk S h q' k := fun h q' k => by
    unfold exB expo rowMax
    simp only [hsc]
  rw [blockOut_apply]
  show _ = (∑ j : Fin 128, att qx kvx b1 b2 wq wk wv wg bg S q j * wo (ix2 c j)) + bo (ix1 c)
  rw [h8 c]
  refine congrArg (· + _) (Finset.sum_congr rfl fun j _ => ?_)
  rw [tripOut_at, h7 j c]
  unfold att prob gate
  simp only [hex, pv, pg, h6]

end Cert.AttnK

end
-- ==== Proof.KOpen.lean ====
/-
  What the kernel body leaves in the output's staging buffer is the memory-free body's block.

  The body's run leaves ONE store of the output's whole block [1, 16, 256, 128]: the output projection (weights and
  bias of the last two inputs) of what a load of the whole fifth scratch buffer reads after the 16-trip loop.  The 16
  trips' pieces cover that buffer, so the load reads the pieces alone (the loop side: `readAt_pb`, `canon_pb`), and
  each trip read the four projection buffers, each written once, whole, before the loop — the scaled queries, the keys,
  the values, the gates of the 16 rows, computed from whole loads of the inputs — together with the row bias and the
  pair bias blocks.  `readCov_pb_eq_attnRows` says the load is `attnRows` once the six buffers read those values;
  `out_core` discharges the six readings on the run's own piece (a whole store over any contents reads back as what was
  stored, `read_writes_whole`; a whole load of an input buffer holding a block reads the block, `readAt_whole_unread`);
  `out_eq` opens the run's definition once, reads its covering pieces back as their canon, and cites `out_core`.
-/
import proofs.«118972_j22179211116942_2_alg».proof.Proof.KIFrame
import proofs.«118972_j22179211116942_2_alg».proof.Proof.KOpenTrips
import Idealize.ShloMosaic.Lib.Tactic

set_option maxRecDepth 65536
set_option maxHeartbeats 4000000

noncomputable section
namespace Cert.AttnK
open Idealize.ShloMosaic Idealize.ShloMosaic.TcCoe Idealize.ShloMosaic.Tactic Idealize.ShloMosaic.ValueIdx Idealize.SL.Sem Cert.KernelIdeal Cert.KernelIdeal.Gen Cert.KernelIdeal.GenP

variable {F : FTy → Type} [FloatOps F] [Named F]

/-- The zero offsets, as the loads and stores through whole buffers spell them. -/
theorem hz1 : (![0] : Fin 1 → ℕ) = fun _ => 0 := funext fun a => by fin_cases a <;> rfl
theorem hz2 : (![0, 0] : Fin 2 → ℕ) = fun _ => 0 := funext fun a => by fin_cases a <;> rfl
theorem hz3 : (![0, 0, 0] : Fin 3 → ℕ) = fun _ => 0 := funext fun a => by fin_cases a <;> rfl
theorem hz4 : (![0, 0, 0, 0] : Fin 4 → ℕ) = fun _ => 0 := funext fun a => by fin_cases a <;> rfl

/-- A buffer written once through its whole extent reads back as what was stored, whatever it held before. -/
theorem read_writes_whole {Val : EltTy → Type} [∀ e, Nonempty (Val e)] {sg : RefSig} {κ : Kind} {sp : Space} {S : Shape}
    {e : EltTy} (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- THE FIFTH BUFFER, READ AFTER THE LOOP: when the four projection buffers read the scaled queries, keys, values and
    gates of the 16 rows and the two bias buffers read their blocks, a load of the whole fifth buffer after the 16 trips
    is the memory-free body's `attnRows`. -/
theorem readCov_pb_eq_attnRows (𝒱 : Variants) (c : Dev nD) (bd : Option 𝒱.V) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (X_arg3 : BufTy.Contents (Elt F) arg3.view.ty) (X_arg4 : BufTy.Contents (Elt F) arg4.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty)
    (x0 x1 : Vec F S1x16x256x128 .f32) (x2 : Vec F S1x1x4x256x256 .f32) (x3 : Vec F S1x16x1x1x256 .f32) (x4 x5 : Vec F S128x256 .bf16) (x6 : Vec F S128 .f32)
    (h3 : arg3.view.read (Elt F) X_arg3 = x2) (h4 : arg4.view.read (Elt F) X_arg4 = x3)
    (h11 : arg11.view.read (Elt F) X_arg11 = qBuf x0 x4) (h12 : arg12.view.read (Elt F) X_arg12 = kBuf x1 x5)
    (h13 : arg13.view.read (Elt F) X_arg13 = vBuf x1 x5) (h14 : arg14.view.read (Elt F) X_arg14 = gBuf x0 x4 x6)
    {off : Fin 3 → ℕ} (hoff : off = fun _ => 0) (inb : ∀ a, off a + S16x256x128.size a ≤ S16x256x128.size a) :
    arg15.view.readCov (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg3 X_arg4 X_arg11 X_arg12 X_arg13 X_arg14 k0_t1_loop.trips) (Rect.unit (s := S16x256x128) off S16x256x128.size inb).toLoadRect
      = attnRows x0 x1 x2 x3 x4 x5 x6 := by
  rw [View.readCov_eq_canon', canon_pb, h3, h4, h11, h12, h13, h14, rowsFn_eq_attnRows]
  exact View.ld_unit_zero (Val := Elt F) (S := S16x256x128) (e := .bf16) hoff inb (attnRows x0 x1 x2 x3 x4 x5 x6)

/-- A load of a whole input buffer that holds the block `x` reads `x`. -/
theorem readAt_whole_unread {S : Shape} {e : EltTy} (m : Memref sig .tc .vmem S e) (h : m.IsWhole) {off : Fin S.rank → ℕ}
    (hoff : off = fun _ => 0) (inb : ∀ a, off a + S.size a ≤ S.size a) (x : S.Idx → Elt F e) :
    View.readAt (Elt F) m.view (Rect.unit off S.size inb).toLoadRect (h.unread x) = x := by
  rw [View.readAt_eq_ld, h.read_unread, View.ld_unit_zero hoff]

/-- THE RUN'S ONE PIECE, READ: the body leaves in the output's staging buffer one store of its whole block; what is
    stored is the output projection of the fifth scratch buffer as the loop left it, and each of the four projection
    buffers the loop reads was written once, whole, before the loop. -/
theorem out_core (c : Dev nD) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (x0 x1 : Vec F S1x16x256x128 .f32) (x2 : Vec F S1x1x4x256x256 .f32) (x3 : Vec F S1x16x1x1x256 .f32) (x4 x5 : Vec F S128x256 .bf16) (x6 : Vec F S128 .f32) (x7 : Vec F S128x128 .bf16) (x8 : Vec F S128 .f32) :
    View.canon [(⟨Rect.unit (s := S1x16x256x128) ![0, 0, 0, 0] S1x16x256x128.size inb_S1x16x256x128_S1x16x256x128_0_0_0_0,
        k0_pay4
          (arg15.view.readCov
            (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg3.unread x2) (harg4.unread x3)
              (arg11.view.writes (Elt F) arg11.view.junk [(⟨(Rect.unit (s := S16x256x128) ![0, 0, 0] S16x256x128.size inb_S16x256x128_S16x256x128_0_0_0), k0_pay22 (View.readAt (Elt F) arg1.view (Rect.unit (s := S1x16x256x128) ![0, 0, 0, 0] S1x16x256x128.size inb_S1x16x256x128_S1x16x256x128_0_0_0_0).toLoadRect (harg1.unread x0)) (View.readAt (Elt F) arg5.view (Rect.unit (s := S128x256) ![0, 0] S128x256.size inb_S128x256_S128x256_0_0).toLoadRect (harg5.unread x4))⟩ : View.Piece (Elt F) S16x256x128 _)])
              (arg12.view.writes (Elt F) arg12.view.junk [(⟨(Rect.unit (s := S16x256x128) ![0, 0, 0] S16x256x128.size inb_S16x256x128_S16x256x128_0_0_0), k0_pay23 (View.readAt (Elt F) arg2.view (Rect.unit (s := S1x16x256x128) ![0, 0, 0, 0] S1x16x256x128.size inb_S1x16x256x128_S1x16x256x128_0_0_0_0).toLoadRect (harg2.unread x1)) (View.readAt (Elt F) arg6.view (Rect.unit (s := S128x256) ![0, 0] S128x256.size inb_S128x256_S128x256_0_0).toLoadRect (harg6.unread x5))⟩ : View.Piece (Elt F) S16x256x128 _)])
              (arg13.view.writes (Elt F) arg13.view.junk [(⟨(Rect.unit (s := S16x256x128) ![0, 0, 0] S16x256x128.size inb_S16x256x128_S16x256x128_0_0_0), k0_pay1 (k0_pay21 (View.readAt (Elt F) arg2.view (Rect.unit (s := S1x16x256x128) ![0, 0, 0, 0] S1x16x256x128.size inb_S1x16x256x128_S1x16x256x128_0_0_0_0).toLoadRect (harg2.unread x1)) (View.readAt (Elt F) arg6.view (Rect.unit (s := S128x256) ![0, 0] S128x256.size inb_S128x256_S128x256_0_0).toLoadRect (harg6.unread x5)))⟩ : View.Piece (Elt F) S16x256x128 _)])
              (arg14.view.writes (Elt F) arg14.view.junk [(⟨(Rect.unit (s := S16x256x128) ![0, 0, 0] S16x256x128.size inb_S16x256x128_S16x256x128_0_0_0), k0_pay2 (k0_pay20 (View.readAt (Elt F) arg1.view (Rect.unit (s := S1x16x256x128) ![0, 0, 0, 0] S1x16x256x128.size inb_S1x16x256x128_S1x16x256x128_0_0_0_0).toLoadRect (harg1.unread x0)) (View.readAt (Elt F) arg5.view (Rect.unit (s := S128x256) ![0, 0] S128x256.size inb_S128x256_S128x256_0_0).toLoadRect (harg5.unread x4)) (View.readAt (Elt F) arg7.view (Rect.unit (s := S128) ![0] S128.size inb_S128_S128_0).toLoadRect (harg7.unread x6)))⟩ : View.Piece (Elt F) S16x256x128 _)])
              k0_t1_loop.trips)
            (Rect.unit (s := S16x256x128) ![0, 0, 0] S16x256x128.size inb_S16x256x128_S16x256x128_0_0_0).toLoadRect)
          (View.readAt (Elt F) arg8.view (Rect.unit (s := S128x128) ![0, 0] S128x128.size inb_S128x128_S128x128_0_0).toLoadRect (harg8.unread x7)) (View.readAt (Elt F) arg9.view (Rect.unit (s := S128) ![0] S128.size inb_S128_S128_0).toLoadRect (harg9.unread x8))⟩ : View.Piece (Elt F) S1x16x256x128 .f32)]
      = blockOut x0 x1 x2 x3 x4 x5 x6 x7 x8 := by
  rw [View.canon_unit_zero hz4]
  rw [readCov_pb_eq_attnRows Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ x0 x1 x2 x3 x4 x5 x6
      (harg3.read_unread x2) (harg4.read_unread x3)
      (by rw [read_writes_whole _ _ hz3, readAt_whole_unread arg1 harg1 hz4, readAt_whole_unread arg5 harg5 hz2]; rfl)
      (by rw [read_writes_whole _ _ hz3, readAt_whole_unread arg2 harg2 hz4, readAt_whole_unread arg6 harg6 hz2]; rfl)
      (by rw [read_writes_whole _ _ hz3, readAt_whole_unread arg2 harg2 hz4, readAt_whole_unread arg6 harg6 hz2]; rfl)
      (by rw [read_writes_whole _ _ hz3, readAt_whole_unread arg1 harg1 hz4, readAt_whole_unread arg5 harg5 hz2,
            readAt_whole_unread arg7 harg7 hz1]; rfl)
      hz3,
    readAt_whole_unread arg8 harg8 hz2, readAt_whole_unread arg9 harg9 hz1]
  rfl

/-- WHAT THE BODY LEAVES IN THE OUTPUT'S STAGING BUFFER is the memory-free body's block: the run's pieces cover the
    block, so they read back as their canon; the one piece is `out_core`'s. -/
theorem out_eq (c : Dev nD) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole) (x0 x1 : Vec F S1x16x256x128 .f32) (x2 : Vec F S1x1x4x256x256 .f32) (x3 : Vec F S1x16x1x1x256 .f32) (x4 x5 : Vec F S128x256 .bf16) (x6 : Vec F S128 .f32) (x7 : Vec F S128x128 .bf16) (x8 : Vec F S128 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = blockOut x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  sl_unfold_words
  exact out_core c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8

/-- info: 'Cert.AttnK.out_eq' depends on axioms: [propext, Classical.choice, Quot.sound] -/
#guard_msgs in #print axioms out_eq

end Cert.AttnK
end
-- ==== Proof.KFBlocks.lean ====
/-
  The kernel's input blocks, read at an index.

  The grid has 16 steps; step `t` stages rows `16t … 16t + 15` of the two activation arrays and of the row bias, and the
  whole of every other operand.  An element of a block sits in its array, on each axis, at the block index times the block's
  extent plus its own coordinate, so each block read at an index is the staged array at the corresponding array index.
  Three of the staged arrays are prepared by array operations before the grid runs: the query and gate weights, transposed
  and put side by side (columns 0 … 127 and 128 … 255); the key and value weights likewise; and the output weights
  transposed.  Their change of float format is the identity on the extended reals, so a block of them at (i, O) is a weight
  matrix at the transposed index.
-/
import proofs.«118972_j22179211116942_2_alg».proof.Proof.Gen.KernelIdeal.Frame.Runs
import proofs.«118972_j22179211116942_2_alg».proof.Proof.AttnSpec
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.AttnK

open Cert.KernelIdeal Cert.KernelIdeal.Gen Idealize.ShloMosaic.ValueIdx Cert.Attn

variable (m : (ℓ : Loc nD τ sig) → Buf (Elt Ideal) ℓ)

/-! ## The printed index maps, decided over the 16 grid points

Windows 0, 1, 3 and 9 move along the rows with the point (block `t` holds rows `16t … 16t + 15`); the others stay. -/

theorem idx_facts0 : ∀ t : Fin cfg0.N, win0_0.index t (0 : Fin 4) = 0 ∧ win0_0.index t (1 : Fin 4) = t.val ∧ win0_0.index t (2 : Fin 4) = 0 ∧ win0_0.index t (3 : Fin 4) = 0 :=
  (by decide +kernel : ∀ t : Fin grid0.N, _)
theorem idx_facts1 : ∀ t : Fin cfg0.N, win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)
theorem idx_facts2 : ∀ t : Fin cfg0.N, win0_2.index t (0 : Fin 5) = 0 ∧ win0_2.index t (1 : Fin 5) = 0 ∧ win0_2.index t (2 : Fin 5) = 0 ∧ win0_2.index t (3 : Fin 5) = 0 ∧ win0_2.index t (4 : Fin 5) = 0 :=
  (by decide +kernel : ∀ t : Fin grid0.N, _)
theorem idx_facts3 : ∀ t : Fin cfg0.N, win0_3.index t (0 : Fin 5) = 0 ∧ win0_3.index t (1 : Fin 5) = t.val ∧ win0_3.index t (2 : Fin 5) = 0 ∧ win0_3.index t (3 : Fin 5) = 0 ∧ win0_3.index t (4 : Fin 5) = 0 :=
  (by decide +kernel : ∀ t : Fin grid0.N, _)
theorem idx_facts4 : ∀ t : Fin cfg0.N, win0_4.index t (0 : Fin 2) = 0 ∧ win0_4.index t (1 : Fin 2) = 0 :=
  (by decide +kernel : ∀ t : Fin grid0.N, _)
theorem idx_facts5 : ∀ t : Fin cfg0.N, win0_5.index t (0 : Fin 2) = 0 ∧ win0_5.index t (1 : Fin 2) = 0 :=
  (by decide +kernel : ∀ t : Fin grid0.N, _)
theorem idx_facts6 : ∀ t : Fin cfg0.N, win0_6.index t (0 : Fin 1) = 0 :=
  (by decide +kernel : ∀ t : Fin grid0.N, _)
theorem idx_facts7 : ∀ t : Fin cfg0.N, win0_7.index t (0 : Fin 2) = 0 ∧ win0_7.index t (1 : Fin 2) = 0 :=
  (by decide +kernel : ∀ t : Fin grid0.N, _)
theorem idx_facts8 : ∀ t : Fin cfg0.N, win0_8.index t (0 : Fin 1) = 0 :=
  (by decide +kernel : ∀ t : Fin grid0.N, _)
theorem idx_facts9 : ∀ t : Fin cfg0.N, win0_9.index t (0 : Fin 4) = 0 ∧ win0_9.index t (1 : Fin 4) = t.val ∧ win0_9.index t (2 : Fin 4) = 0 ∧ win0_9.index t (3 : Fin 4) = 0 :=
  (by decide +kernel : ∀ t : Fin grid0.N, _)

/-! ## Each input block read at an index: the staged array at the array's index

An element of a block sits in the array, on each axis, at the block index times the block's extent plus its coordinate. -/

/-- Window 0's block at point `t` is rows `16t … 16t + 15` of the query activations. -/
theorem iblk0_apply (c : Dev nD) (t : Fin cfg0.N) (s : Fin 16) (q : Fin 256) (i : Fin 128) (S : Fin 256)
    (hS : S.val = 16 * t.val + s.val) :
    (iblk m c 0 t : Vec Ideal S1x16x256x128 .f32) (ix4 (0 : Fin 1) s q i) = (m ((c : Thread nD τ).loc main_arg0) : S1x256x256x128.Idx → EReal) (ix4 (0 : Fin 1) S q i) := by
  obtain ⟨e0, e1, e2, e3⟩ := idx_facts0 t
  unfold iblk
  rw [View.read_apply]
  show V m c main_arg0 _ = m (c.tc.loc main_arg0) _
  rw [V_main_arg0]
  refine congrArg _ ?_
  funext a
  apply Fin.ext
  match a with
  | ⟨0, _⟩ => show win0_0.index t (0 : Fin 4) * 1 + 1 * 0 = 0; omega
  | ⟨1, _⟩ => show win0_0.index t (1 : Fin 4) * 16 + 1 * s.val = S.val; omega
  | ⟨2, _⟩ => show win0_0.index t (2 : Fin 4) * 256 + 1 * q.val = q.val; omega
  | ⟨3, _⟩ => show win0_0.index t (3 : Fin 4) * 128 + 1 * i.val = i.val; omega

/-- Window 1's block at point `t` is rows `16t … 16t + 15` of the key/value activations. -/
theorem iblk1_apply (c : Dev nD) (t : Fin cfg0.N) (s : Fin 16) (q : Fin 256) (i : Fin 128) (S : Fin 256)
    (hS : S.val = 16 * t.val + s.val) :
    (iblk m c 1 t : Vec Ideal S1x16x256x128 .f32) (ix4 (0 : Fin 1) s q i) = (m ((c : Thread nD τ).loc main_arg1) : S1x256x256x128.Idx → EReal) (ix4 (0 : Fin 1) S q i) := by
  obtain ⟨e0, e1, e2, e3⟩ := idx_facts1 t
  unfold iblk
  rw [View.read_apply]
  show V m c main_arg1 _ = m (c.tc.loc main_arg1) _
  rw [V_main_arg1]
  refine congrArg _ ?_
  funext a
  apply Fin.ext
  match a with
  | ⟨0, _⟩ => show win0_1.index t (0 : Fin 4) * 1 + 1 * 0 = 0; omega
  | ⟨1, _⟩ => show win0_1.index t (1 : Fin 4) * 16 + 1 * s.val = S.val; omega
  | ⟨2, _⟩ => show win0_1.index t (2 : Fin 4) * 256 + 1 * q.val = q.val; omega
  | ⟨3, _⟩ => show win0_1.index t (3 : Fin 4) * 128 + 1 * i.val = i.val; omega

/-- Window 2's block is the whole pair bias at every point. -/
theorem iblk2_apply (c : Dev nD) (t : Fin cfg0.N) (h : Fin 4) (q k : Fin 256) :
    (iblk m c 2 t : Vec Ideal S1x1x4x256x256 .f32) (ix5 (0 : Fin 1) (0 : Fin 1) h q k) = (m ((c : Thread nD τ).loc main_arg2) : S1x1x4x256x256.Idx → EReal) (ix5 (0 : Fin 1) (0 : Fin 1) h q k) := by
  obtain ⟨e0, e1, e2, e3, e4⟩ := idx_facts2 t
  unfold iblk
  rw [View.read_apply]
  show V m c main_arg2 _ = m (c.tc.loc main_arg2) _
  rw [V_main_arg2]
  refine congrArg _ ?_
  funext a
  apply Fin.ext
  match a with
  | ⟨0, _⟩ => show win0_2.index t (0 : Fin 5) * 1 + 1 * 0 = 0; omega
  | ⟨1, _⟩ => show win0_2.index t (1 : Fin 5) * 1 + 1 * 0 = 0; omega
  | ⟨2, _⟩ => show win0_2.index t (2 : Fin 5) * 4 + 1 * h.val = h.val; omega
  | ⟨3, _⟩ => show win0_2.index t (3 : Fin 5) * 256 + 1 * q.val = q.val; omega
  | ⟨4, _⟩ => show win0_2.index t (4 : Fin 5) * 256 + 1 * k.val = k.val; omega

/-- Window 3's block at point `t` is rows `16t … 16t + 15` of the row bias. -/
theorem iblk3_apply (c : Dev nD) (t : Fin cfg0.N) (s : Fin 16) (k : Fin 256) (S : Fin 256)
    (hS : S.val = 16 * t.val + s.val) :
    (iblk m c 3 t : Vec Ideal S1x16x1x1x256 .f32) (ix5 (0 : Fin 1) s (0 : Fin 1) (0 : Fin 1) k) = (m ((c : Thread nD τ).loc main_arg3) : S1x256x1x1x256.Idx → EReal) (ix5 (0 : Fin 1) S (0 : Fin 1) (0 : Fin 1) k) := by
  obtain ⟨e0, e1, e2, e3, e4⟩ := idx_facts3 t
  unfold iblk
  rw [View.read_apply]
  show V m c main_arg3 _ = m (c.tc.loc main_arg3) _
  rw [V_main_arg3]
  refine congrArg _ ?_
  funext a
  apply Fin.ext
  match a with
  | ⟨0, _⟩ => show win0_3.index t (0 : Fin 5) * 1 + 1 * 0 = 0; omega
  | ⟨1, _⟩ => show win0_3.index t (1 : Fin 5) * 16 + 1 * s.val = S.val; omega
  | ⟨2, _⟩ => show win0_3.index t (2 : Fin 5) * 1 + 1 * 0 = 0; omega
  | ⟨3, _⟩ => show win0_3.index t (3 : Fin 5) * 1 + 1 * 0 = 0; omega
  | ⟨4, _⟩ => show win0_3.index t (4 : Fin 5) * 256 + 1 * k.val = k.val; omega

/-- Window 6's block is the whole gate bias at every point. -/
theorem iblk6_apply (c : Dev nD) (t : Fin cfg0.N) (o : Fin 128) :
    (iblk m c 6 t : Vec Ideal S128 .f32) (ix1 o) = (m ((c : Thread nD τ).loc main_arg8) : S128.Idx → EReal) (ix1 o) := by
  have e0 := idx_facts6 t
  unfold iblk
  rw [View.read_apply]
  show V m c main_arg8 _ = m (c.tc.loc main_arg8) _
  rw [V_main_arg8]
  refine congrArg _ ?_
  funext a
  apply Fin.ext
  match a with
  | ⟨0, _⟩ => show win0_6.index t (0 : Fin 1) * 128 + 1 * o.val = o.val; omega

/-- Window 8's block is the whole output bias at every point. -/
theorem iblk8_apply (c : Dev nD) (t : Fin cfg0.N) (o : Fin 128) :
    (iblk m c 8 t : Vec Ideal S128 .f32) (ix1 o) = (m ((c : Thread nD τ).loc main_arg10) : S128.Idx → EReal) (ix1 o) := by
  have e0 := idx_facts8 t
  unfold iblk
  rw [View.read_apply]
  show V m c main_arg10 _ = m (c.tc.loc main_arg10) _
  rw [V_main_arg10]
  refine congrArg _ ?_
  funext a
  apply Fin.ext
  match a with
  | ⟨0, _⟩ => show win0_8.index t (0 : Fin 1) * 128 + 1 * o.val = o.val; omega

/-! ## The weight arrays the host prepares before the region: transposed, paired side by side, their format changed

At the extended reals a change of float format is the identity, so these arrays are re-indexings of the weights. -/

/-- Window 4's array: the query and gate weights, each transposed, side by side. -/
theorem V_v3 (c : Dev nD) : (V m c main_v3 : S128x256.Idx → EReal)
    = (truncf .bf16 (concatenate S128x256 1 [⟨S128x128, transpose S128x128 [1, 0] (m ((c : Thread nD τ).loc main_arg4) : S128x128.Idx → EReal) Facts₀.transposes_S128x128_S128x128_1_0⟩, ⟨S128x128, transpose S128x128 [1, 0] (m ((c : Thread nD τ).loc main_arg7) : S128x128.Idx → EReal) Facts₀.transposes_S128x128_S128x128_1_0⟩] Facts₀.concatenates_S128x128_S128x128_S128x256_d1 : FVec Ideal S128x256 .f32) Facts₀.bitsLt_bf16_f32 : FVec Ideal S128x256 .bf16) := by
  dsimp only [Gen.V, Gen.hostOps0]
  after_results

/-- Window 5's array: the key and value weights, each transposed, side by side. -/
theorem V_v7 (c : Dev nD) : (V m c main_v7 : S128x256.Idx → EReal)
    = (truncf .bf16 (concatenate S128x256 1 [⟨S128x128, transpose S128x128 [1, 0] (m ((c : Thread nD τ).loc main_arg5) : S128x128.Idx → EReal) Facts₀.transposes_S128x128_S128x128_1_0⟩, ⟨S128x128, transpose S128x128 [1, 0] (m ((c : Thread nD τ).loc main_arg6) : S128x128.Idx → EReal) Facts₀.transposes_S128x128_S128x128_1_0⟩] Facts₀.concatenates_S128x128_S128x128_S128x256_d1 : FVec Ideal S128x256 .f32) Facts₀.bitsLt_bf16_f32 : FVec Ideal S128x256 .bf16) := by
  dsimp only [Gen.V, Gen.hostOps0]
  after_results

/-- Window 7's array: the output weights transposed. -/
theorem V_v9 (c : Dev nD) : (V m c main_v9 : S128x128.Idx → EReal)
    = (truncf .bf16 (transpose S128x128 [1, 0] (m ((c : Thread nD τ).loc main_arg9) : S128x128.Idx → EReal) Facts₀.transposes_S128x128_S128x128_1_0 : FVec Ideal S128x128 .f32) Facts₀.bitsLt_bf16_f32 : FVec Ideal S128x128 .bf16) := by
  dsimp only [Gen.V, Gen.hostOps0]
  after_results

/-- Column `O` of two transposed matrices side by side: the first 128 columns are the first matrix's rows, the last 128 the second's. -/
theorem cat_T_apply (w1 w2 : S128x128.Idx → EReal) (i o : Fin 128) (O : Fin 256) :
    (O.val = o.val → (truncf .bf16 (concatenate S128x256 1 [⟨S128x128, transpose S128x128 [1, 0] w1 Facts₀.transposes_S128x128_S128x128_1_0⟩, ⟨S128x128, transpose S128x128 [1, 0] w2 Facts₀.transposes_S128x128_S128x128_1_0⟩] Facts₀.concatenates_S128x128_S128x128_S128x256_d1 : FVec Ideal S128x256 .f32) Facts₀.bitsLt_bf16_f32 : FVec Ideal S128x256 .bf16) (ix2 i O) = w1 (ix2 o i))
    ∧ (O.val = 128 + o.val → (truncf .bf16 (concatenate S128x256 1 [⟨S128x128, transpose S128x128 [1, 0] w1 Facts₀.transposes_S128x128_S128x128_1_0⟩, ⟨S128x128, transpose S128x128 [1, 0] w2 Facts₀.transposes_S128x128_S128x128_1_0⟩] Facts₀.concatenates_S128x128_S128x128_S128x256_d1 : FVec Ideal S128x256 .f32) Facts₀.bitsLt_bf16_f32 : FVec Ideal S128x256 .bf16) (ix2 i O) = w2 (ix2 o i)) := by
  constructor
  · intro hO
    rw [truncf_apply]
    rw [concatenate_pair_apply_left (t := S128x256) (s₁ := S128x128) (s₂ := S128x128) (1 : Fin 2) _ _ Facts₀.concatenates_S128x128_S128x128_S128x256_d1 (ix2 i O) rfl (ix2 i o : S128x128.Idx)
      (fun b => match b with | ⟨0, _⟩ => rfl | ⟨1, _⟩ => hO.symm)]
    exact transpose_ix2_apply w1 Facts₀.transposes_S128x128_S128x128_1_0 i o
  · intro hO
    rw [truncf_apply]
    rw [concatenate_pair_apply_right (t := S128x256) (s₁ := S128x128) (s₂ := S128x128) (1 : Fin 2) _ _ Facts₀.concatenates_S128x128_S128x128_S128x256_d1 (ix2 i O) rfl rfl (ix2 i o : S128x128.Idx)
      (fun b hb => match b, hb with | ⟨0, _⟩, _ => rfl | ⟨1, _⟩, hb => absurd rfl hb) (by show o.val + 128 = O.val; omega)]
    exact transpose_ix2_apply w2 Facts₀.transposes_S128x128_S128x128_1_0 i o

/-- A transposed matrix at `(j, c)` is the matrix at `(c, j)`. -/
theorem T_apply (w : S128x128.Idx → EReal) (j c : Fin 128) : (truncf .bf16 (transpose S128x128 [1, 0] w Facts₀.transposes_S128x128_S128x128_1_0 : FVec Ideal S128x128 .f32) Facts₀.bitsLt_bf16_f32 : FVec Ideal S128x128 .bf16) (ix2 j c) = w (ix2 c j) := by
  rw [truncf_apply]
  exact transpose_ix2_apply w Facts₀.transposes_S128x128_S128x128_1_0 j c

/-- Window 4's block is its whole array at every point. -/
theorem iblk4_eq (c : Dev nD) (t : Fin cfg0.N) (i : Fin 128) (O : Fin 256) :
    (iblk m c 4 t : Vec Ideal S128x256 .bf16) (ix2 i O) = (V m c main_v3 : S128x256.Idx → EReal) (ix2 i O) := by
  obtain ⟨e0, e1⟩ := idx_facts4 t
  unfold iblk
  rw [View.read_apply]
  show V m c main_v3 _ = V m c main_v3 _
  refine congrArg _ ?_
  funext a
  apply Fin.ext
  match a with
  | ⟨0, _⟩ => show win0_4.index t (0 : Fin 2) * 128 + 1 * i.val = i.val; omega
  | ⟨1, _⟩ => show win0_4.index t (1 : Fin 2) * 256 + 1 * O.val = O.val; omega

theorem iblk5_eq (c : Dev nD) (t : Fin cfg0.N) (i : Fin 128) (O : Fin 256) :
    (iblk m c 5 t : Vec Ideal S128x256 .bf16) (ix2 i O) = (V m c main_v7 : S128x256.Idx → EReal) (ix2 i O) := by
  obtain ⟨e0, e1⟩ := idx_facts5 t
  unfold iblk
  rw [View.read_apply]
  show V m c main_v7 _ = V m c main_v7 _
  refine congrArg _ ?_
  funext a
  apply Fin.ext
  match a with
  | ⟨0, _⟩ => show win0_5.index t (0 : Fin 2) * 128 + 1 * i.val = i.val; omega
  | ⟨1, _⟩ => show win0_5.index t (1 : Fin 2) * 256 + 1 * O.val = O.val; omega

theorem iblk7_eq (c : Dev nD) (t : Fin cfg0.N) (j o : Fin 128) :
    (iblk m c 7 t : Vec Ideal S128x128 .bf16) (ix2 j o) = (V m c main_v9 : S128x128.Idx → EReal) (ix2 j o) := by
  obtain ⟨e0, e1⟩ := idx_facts7 t
  unfold iblk
  rw [View.read_apply]
  show V m c main_v9 _ = V m c main_v9 _
  refine congrArg _ ?_
  funext a
  apply Fin.ext
  match a with
  | ⟨0, _⟩ => show win0_7.index t (0 : Fin 2) * 128 + 1 * j.val = j.val; omega
  | ⟨1, _⟩ => show win0_7.index t (1 : Fin 2) * 128 + 1 * o.val = o.val; omega

/-- Window 4's block: column `o` is row `o` of the query weights, column `128 + o` row `o` of the gate weights. -/
theorem iblk4_apply (c : Dev nD) (t : Fin cfg0.N) (i o : Fin 128) (O : Fin 256) :
    (O.val = o.val → (iblk m c 4 t : Vec Ideal S128x256 .bf16) (ix2 i O) = (m ((c : Thread nD τ).loc main_arg4) : S128x128.Idx → EReal) (ix2 o i))
    ∧ (O.val = 128 + o.val → (iblk m c 4 t : Vec Ideal S128x256 .bf16) (ix2 i O) = (m ((c : Thread nD τ).loc main_arg7) : S128x128.Idx → EReal) (ix2 o i)) := by
  rw [iblk4_eq, V_v3]
  exact cat_T_apply _ _ i o O

/-- Window 5's block: column `o` is row `o` of the key weights, column `128 + o` row `o` of the value weights. -/
theorem iblk5_apply (c : Dev nD) (t : Fin cfg0.N) (i o : Fin 128) (O : Fin 256) :
    (O.val = o.val → (iblk m c 5 t : Vec Ideal S128x256 .bf16) (ix2 i O) = (m ((c : Thread nD τ).loc main_arg5) : S128x128.Idx → EReal) (ix2 o i))
    ∧ (O.val = 128 + o.val → (iblk m c 5 t : Vec Ideal S128x256 .bf16) (ix2 i O) = (m ((c : Thread nD τ).loc main_arg6) : S128x128.Idx → EReal) (ix2 o i)) := by
  rw [iblk5_eq, V_v7]
  exact cat_T_apply _ _ i o O

/-- Window 7's block is the output weights transposed. -/
theorem iblk7_apply (c : Dev nD) (t : Fin cfg0.N) (j o : Fin 128) :
    (iblk m c 7 t : Vec Ideal S128x128 .bf16) (ix2 j o) = (m ((c : Thread nD τ).loc main_arg9) : S128x128.Idx → EReal) (ix2 o j) := by
  rw [iblk7_eq, V_v9]
  exact T_apply _ j o

end Cert.AttnK

end
-- ==== Proof.KFinal.lean ====
/-
  From the grid's blocks to the whole result array.

  The grid has 16 steps; step `t` computes rows `16t … 16t + 15` of the result from rows `16t … 16t + 15` of the
  activations and of the row bias and from the whole of the other operands, and writes them back as block `t` of the result
  array.  Two facts are taken as hypotheses here: what a step leaves in the output's staging buffer is the pure function
  `blockOut` of the step's nine input blocks (`HoutStmt`), and `blockOut` of blocks that are the arguments read at those
  rows is the specification `Cert.Attn.out` at those rows (`HspecStmt`).  With the input blocks read at an index
  (Proof/KFBlocks.lean) they give: what step `t` writes back is block `t` of the specification of the arguments
  (`flushed_eq`); the 16 blocks of 16 rows cover the 256 rows, row `r` lying in the block of step `r / 16` (`cover9`); so
  the result array ends holding the specification (`final`), and the kernel's run ends with it there and the arguments
  unchanged (`run`).
-/
import proofs.«118972_j22179211116942_2_alg».proof.Proof.KIValue
import proofs.«118972_j22179211116942_2_alg».proof.Proof.KBody
import proofs.«118972_j22179211116942_2_alg».proof.Proof.KFBlocks
import proofs.«118972_j22179211116942_2_alg».proof.Proof.AttnSpec
import Idealize.ShloMosaic.Lib.Pipeline.Value

noncomputable section

open Idealize.ShloMosaic Idealize.ShloMosaic.TcCoe Idealize.SL.Sem
open Idealize.ShloMosaic.Pipeline (Dat)

namespace Cert.AttnK

open Cert.KernelIdeal Cert.KernelIdeal.Gen Cert.KernelIdeal.GenP Idealize.ShloMosaic.ValueIdx Cert.Attn

/-- The block a grid step leaves in the output's staging buffer is the pure function `blockOut` of its nine input blocks. -/
def HoutStmt : Prop :=
  ∀ (c : Dev nD) (i : grid0.Coords) (arg1 : Memref sig .tc .vmem S1x16x256x128 .f32) (harg1 : arg1.IsWhole) (arg2 : Memref sig .tc .vmem S1x16x256x128 .f32) (harg2 : arg2.IsWhole) (arg3 : Memref sig .tc .vmem S1x1x4x256x256 .f32) (harg3 : arg3.IsWhole) (arg4 : Memref sig .tc .vmem S1x16x1x1x256 .f32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128 .f32) (harg7 : arg7.IsWhole) (arg8 : Memref sig .tc .vmem S128x128 .bf16) (harg8 : arg8.IsWhole) (arg9 : Memref sig .tc .vmem S128 .f32) (harg9 : arg9.IsWhole) (arg10 : Memref sig .tc .vmem S1x16x256x128 .f32) (harg10 : arg10.IsWhole) (arg11 : Memref sig .tc .vmem S16x256x128 .bf16) (harg11 : arg11.IsWhole) (arg12 : Memref sig .tc .vmem S16x256x128 .bf16) (harg12 : arg12.IsWhole) (arg13 : Memref sig .tc .vmem S16x256x128 .bf16) (harg13 : arg13.IsWhole) (arg14 : Memref sig .tc .vmem S16x256x128 .f32) (harg14 : arg14.IsWhole) (arg15 : Memref sig .tc .vmem S16x256x128 .bf16) (harg15 : arg15.IsWhole)
    (x0 x1 : Vec Ideal S1x16x256x128 .f32) (x2 : Vec Ideal S1x1x4x256x256 .f32) (x3 : Vec Ideal S1x16x1x1x256 .f32) (x4 x5 : Vec Ideal S128x256 .bf16) (x6 : Vec Ideal S128 .f32) (x7 : Vec Ideal S128x128 .bf16) (x8 : Vec Ideal S128 .f32),
    Cert.KernelIdeal.GenP.out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 = Cert.AttnK.blockOut x0 x1 x2 x3 x4 x5 x6 x7 x8

/-- If the nine blocks of step `t` are the arguments read at rows `16t … 16t + 15` (the weights transposed and paired), then
    `blockOut` of them is the specification at those rows. -/
def HspecStmt : Prop :=
  ∀ (qx kvx : Act) (b1 : PairBias) (b2 : RowBias) (wq wk wv wg : Wt) (bg : ChanBias) (wo : Wt) (bo : ChanBias) (t : Fin 16) (x0 x1 : Vec Ideal S1x16x256x128 .f32) (x2 : Vec Ideal S1x1x4x256x256 .f32) (x3 : Vec Ideal S1x16x1x1x256 .f32) (x4 x5 : Vec Ideal S128x256 .bf16) (x6 : Vec Ideal S128 .f32) (x7 : Vec Ideal S128x128 .bf16) (x8 : Vec Ideal S128 .f32)
   (h0 : ∀ (s : Fin 16) (q : Fin 256) (i : Fin 128) (S : Fin 256), S.val = 16 * t.val + s.val → x0 (ix4 (0 : Fin 1) s q i) = qx (ix4 (0 : Fin 1) S q i))
   (h1 : ∀ (s : Fin 16) (q : Fin 256) (i : Fin 128) (S : Fin 256), S.val = 16 * t.val + s.val → x1 (ix4 (0 : Fin 1) s q i) = kvx (ix4 (0 : Fin 1) S q i))
   (h2 : ∀ (h : Fin 4) (q k : Fin 256), x2 (ix5 (0 : Fin 1) (0 : Fin 1) h q k) = b1 (ix5 (0 : Fin 1) (0 : Fin 1) h q k))
   (h3 : ∀ (s : Fin 16) (k : Fin 256) (S : Fin 256), S.val = 16 * t.val + s.val → x3 (ix5 (0 : Fin 1) s (0 : Fin 1) (0 : Fin 1) k) = b2 (ix5 (0 : Fin 1) S (0 : Fin 1) (0 : Fin 1) k))
   (h4 : ∀ (i o : Fin 128) (O : Fin 256), (O.val = o.val → x4 (ix2 i O) = wq (ix2 o i)) ∧ (O.val = 128 + o.val → x4 (ix2 i O) = wg (ix2 o i)))
   (h5 : ∀ (i o : Fin 128) (O : Fin 256), (O.val = o.val → x5 (ix2 i O) = wk (ix2 o i)) ∧ (O.val = 128 + o.val → x5 (ix2 i O) = wv (ix2 o i)))
   (h6 : ∀ o : Fin 128, x6 (ix1 o) = bg (ix1 o)) (h7 : ∀ j c : Fin 128, x7 (ix2 j c) = wo (ix2 c j)) (h8 : ∀ c : Fin 128, x8 (ix1 c) = bo (ix1 c))
   (s : Fin 16) (q : Fin 256) (c : Fin 128) (S : Fin 256), S.val = 16 * t.val + s.val →
   Cert.AttnK.blockOut x0 x1 x2 x3 x4 x5 x6 x7 x8 (ix4 (0 : Fin 1) s q c) = Cert.Attn.out qx kvx b1 b2 wq wk wv wg bg wo bo (ix4 (0 : Fin 1) S q c)

variable (m : (ℓ : Loc nD τ sig) → Buf (Elt Ideal) ℓ) (ρ : Dev nD → PrngReg)

/-- The specification of the arguments as the run finds them on core `c`. -/
abbrev specOf (c : Dev nD) : S1x256x256x128.Idx → EReal :=
  Cert.Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The block of step `t` at a block index is the specification at the array index 16 rows per step further down. -/
theorem block_at (hspec : HspecStmt) (c : Dev nD) (t : Fin cfg0.N) (y : S1x16x256x128.Idx) (k : S1x256x256x128.Idx)
    (h1 : (k 1).val = 16 * t.val + (y 1).val) (h2 : (k 2).val = (y 2).val) (h3 : (k 3).val = (y 3).val) :
    blockOut (iblk m c 0 t) (iblk m c 1 t) (iblk m c 2 t) (iblk m c 3 t) (iblk m c 4 t) (iblk m c 5 t) (iblk m c 6 t) (iblk m c 7 t) (iblk m c 8 t) y = specOf m c k := by
  obtain ⟨b, s, q, o, rfl⟩ : ∃ (b : Fin 1) (s : Fin 16) (q : Fin 256) (o : Fin 128), y = ix4 b s q o := ⟨y 0, y 1, y 2, y 3, eq_ix4 y⟩
  obtain ⟨b', S, q', o', rfl⟩ : ∃ (b' : Fin 1) (S : Fin 256) (q' : Fin 256) (o' : Fin 128), k = ix4 b' S q' o' := ⟨k 0, k 1, k 2, k 3, eq_ix4 k⟩
  obtain rfl : b = 0 := Subsingleton.elim _ _
  obtain rfl : b' = 0 := Subsingleton.elim _ _
  obtain rfl : q = q' := Fin.ext h2.symm
  obtain rfl : o = o' := Fin.ext h3.symm
  have hN : cfg0.N = 16 := N_0
  exact hspec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) ⟨t.val, by have := t.isLt; omega⟩ (iblk m c 0 t) (iblk m c 1 t) (iblk m c 2 t) (iblk m c 3 t) (iblk m c 4 t) (iblk m c 5 t) (iblk m c 6 t) (iblk m c 7 t) (iblk m c 8 t)
    (fun s q i S hS => iblk0_apply m c t s q i S hS) (fun s q i S hS => iblk1_apply m c t s q i S hS)
    (fun h q k => iblk2_apply m c t h q k) (fun s k S hS => iblk3_apply m c t s k S hS)
    (fun i o O => iblk4_apply m c t i o O) (fun i o O => iblk5_apply m c t i o O)
    (fun o => iblk6_apply m c t o) (fun j o => iblk7_apply m c t j o) (fun o => iblk8_apply m c t o)
    s q o S h1

/-- What step `t` writes back is block `t` of the specification. -/
theorem flushed_eq (hout : HoutStmt) (hspec : HspecStmt) (c : Dev nD) (t : Fin cfg0.N) :
    (dats m 0 c).flushed 9 t = ((cfg0.win 9).blk t).view.read (Elt Ideal) (specOf m c) := by
  rw [Cert.KernelIdeal.ValueP.flushed9_A m c t,
    hout c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t)]
  obtain ⟨e0, e1, e2, e3⟩ := idx_facts9 t
  funext j
  refine block_at m hspec c t ((cfg0.win 9).xinj (grid0.coords t) j) (((cfg0.win 9).blk t).view.emb j) ?_ ?_ ?_
  · show win0_9.index t (1 : Fin 4) * 16 + 1 * (j 1).val = 16 * t.val + (j 1).val; omega
  · show win0_9.index t (2 : Fin 4) * 256 + 1 * (j 2).val = (j 2).val; omega
  · show win0_9.index t (3 : Fin 4) * 128 + 1 * (j 3).val = (j 3).val; omega

/-- An index of the array is in step `t`'s block iff each coordinate is in the block's range on its axis. -/
theorem mem_blk9 (t : Fin cfg0.N) (i : S1x256x256x128.Idx) :
    i ∈ ((cfg0.win 9).blk t).view.set ↔ ∀ a : Fin 4, win0_9.index t a * S1x16x256x128.size a ≤ (i a).val ∧ (i a).val < win0_9.index t a * S1x16x256x128.size a + S1x16x256x128.size a := by
  show i ∈ ((View.whole main_v10).slice (win0_9.rect t)).set ↔ _
  rw [View.set_slice_whole, Rect.mem_set_unit]
  exact Iff.rfl

/-- The 16 blocks of 16 rows cover the 256 rows: row `r` is in the block of step `r / 16`. -/
theorem cover9 (i : S1x256x256x128.Idx) : ∃ t : Fin cfg0.N, (cfg0.win 9).flush t = true ∧ i ∈ ((cfg0.win 9).blk t).view.set := by
  have hN : cfg0.N = 16 := N_0
  have h0 : (i 0).val < 1 := (i 0).isLt
  have h1 : (i 1).val < 256 := (i 1).isLt
  have h2 : (i 2).val < 256 := (i 2).isLt
  have h3 : (i 3).val < 128 := (i 3).isLt
  let t : Fin cfg0.N := ⟨(i 1).val / 16, by rw [hN]; omega⟩
  obtain ⟨e0, e1, e2, e3⟩ := idx_facts9 t
  have et : t.val = (i 1).val / 16 := rfl
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 16 ≤ (i 1).val ∧ (i 1).val < win0_9.index t (1 : Fin 4) * 16 + 16; omega
  | ⟨2, _⟩ => show win0_9.index t (2 : Fin 4) * 256 ≤ (i 2).val ∧ (i 2).val < win0_9.index t (2 : Fin 4) * 256 + 256; omega
  | ⟨3, _⟩ => show win0_9.index t (3 : Fin 4) * 128 ≤ (i 3).val ∧ (i 3).val < win0_9.index t (3 : Fin 4) * 128 + 128; omega

/-- The array after the run is the specification of the arguments. -/
theorem final (hout : HoutStmt) (hspec : HspecStmt) (c : Dev nD) : (dats m 0 c).arrAt 9 cfg0.N = specOf m c :=
  (dats m 0 c).arrAt_eq_of_cover 9 (specOf m c) (fun t _ => flushed_eq m hout hspec c t) cover9

/-- The kernel's run: the result array ends at the specification of the arguments, the arguments unchanged. -/
theorem run (hout : HoutStmt) (hspec : HspecStmt) :
    θ_run defs (onTc (τ := τ) (main (F := Ideal))) ⟨m, fun _ => 0, ρ⟩ fun r => ∀ c : Dev nD,
      r.2.mem ((c : Thread nD τ).loc main_v10) = Cert.Attn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m hout hspec c), (h c).2⟩)
    (Cert.KernelIdeal.ValueP.run_blocks m ρ)

end Cert.AttnK

end
-- ==== Proof.lean ====
/-
  Gated four-head attention over 256 independent rows: a Pallas kernel against its jnp reference, as extended reals.

  Both programs compute, for a row s, a query position q and an output channel c,
    out[s,q,c] = Σ_j att[s,q,j] · wo[c,j] + bo[c],   att[s,q,j] = (Σ_k softmax_k(score[s,h,q,·])[k] · v[s,k,j]) · gate[s,q,j],  h = j / 32,
  (`Cert.Attn.out`, AttnSpec.lean).  The reference does so with whole-array operations (RefAttn.lean reads its 52 host
  operations one at a time); the kernel in 16 grid steps of 16 rows each: per step all projections at once through two
  [128, 256] weight matrices prepared by host operations, then row by row in a loop the four heads' softmax and gated
  values, then one output projection (KBody … KSpec read the step's block at an entry; KOpenTrips and KOpen open the step's
  run and its loop; KFinal reads the blocks back into the whole result).  The two differ only in how the query scale is
  spelled: the reference divides by the f32 value of √32, 11863283/2097152, the kernel multiplies by the named constant
  that is this value's exact reciprocal, and division by a nonzero real is multiplication by its inverse on every extended
  real.  No other law is needed: sums are taken over the same index sets in the same grouping, rounding to bf16 is the
  identity here, both running maxima start from −∞, and the logistic function is 1 / (1 + exp(−x)) on both sides.
  Finiteness of the inputs is not used.
-/
import proofs.«118972_j22179211116942_2_alg».proof.Defs
import proofs.«118972_j22179211116942_2_alg».proof.Proof.Gen.Kernel
import proofs.«118972_j22179211116942_2_alg».proof.Proof.Gen.KernelIdeal
import proofs.«118972_j22179211116942_2_alg».proof.Proof.Gen.ReferenceIdeal
import proofs.«118972_j22179211116942_2_alg».proof.Proof.Gen.Pre_finite_inputs
import proofs.«118972_j22179211116942_2_alg».proof.Proof.Gen.ReferenceIdeal.Run
import proofs.«118972_j22179211116942_2_alg».proof.Proof.Gen.ReferenceIdeal.Read
import proofs.«118972_j22179211116942_2_alg».proof.Proof.KFrame
import proofs.«118972_j22179211116942_2_alg».proof.Proof.KIFrame
import proofs.«118972_j22179211116942_2_alg».proof.Proof.KIValue
import proofs.«118972_j22179211116942_2_alg».proof.Proof.RefAttn
import proofs.«118972_j22179211116942_2_alg».proof.Proof.KSpec
import proofs.«118972_j22179211116942_2_alg».proof.Proof.KOpen
import proofs.«118972_j22179211116942_2_alg».proof.Proof.KFinal
import Idealize.ShloMosaic.Adequacy
import Idealize.ShloMosaic.Init

noncomputable section

namespace Cert.Proof

open Idealize.ShloMosaic Idealize.ShloMosaic.TcCoe Idealize.SL.Sem

/-- The word-level program runs to the end without a fault and leaves its arguments as they were. -/
theorem frame_k : Cert.frame_Kernel := fun m ρ _ => Cert.Kernel.GenP.frame m ρ

/-- So does the idealized program. -/
theorem frame_ki : Cert.frame_KernelIdeal := fun m ρ _ => Cert.KernelIdeal.GenP.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the scale's word is read as the rational 2097152/11863283. -/
theorem preserves : Cert.preserves_Kernel_KernelIdeal :=
  IdealRules.named_const.statement Cert.KernelIdeal.κ "inv_sqrt_hidden" .f32 0x3E3504F3#32 ((2097152 / 11863283 : ℝ) : EReal) rfl

/-- The block a grid step's run leaves is the memory-free body of the step. -/
theorem hout : Cert.AttnK.HoutStmt := fun c i arg1 harg1 arg2 harg2 arg3 harg3 arg4 harg4 arg5 harg5 arg6 harg6 arg7 harg7 arg8 harg8 arg9 harg9
    arg10 harg10 arg11 harg11 arg12 harg12 arg13 harg13 arg14 harg14 arg15 harg15 x0 x1 x2 x3 x4 x5 x6 x7 x8 =>
  Cert.AttnK.out_eq c i arg1 harg1 arg2 harg2 arg3 harg3 arg4 harg4 arg5 harg5 arg6 harg6 arg7 harg7 arg8 harg8 arg9 harg9
    arg10 harg10 arg11 harg11 arg12 harg12 arg13 harg13 arg14 harg14 arg15 harg15 x0 x1 x2 x3 x4 x5 x6 x7 x8

/-- That body, on the step's blocks, is the specification on the step's rows. -/
theorem hspec : Cert.AttnK.HspecStmt := Cert.AttnK.blockOut_spec

/-- From memories that agree on the arguments both programs end with the specification's array of those arguments. -/
theorem algebraic : Cert.algebraic_KernelIdeal_ReferenceIdeal := by
  intro m ρ m' ρ' _ hagree
  refine ⟨_, Cert.AttnK.run m ρ hout hspec, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.RefAttn.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
